-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x50x50 : Shape := ⟨3, ![16, 50, 50]⟩
abbrev S50x256 : Shape := ⟨2, ![50, 256]⟩
abbrev S_ : Shape := ⟨0, ![]⟩

class Facts : Prop where
  bcast_S_S50x256 : S_.BroadcastsInDim S50x256 (![] : Fin 0 → Fin S50x256.rank)
  reducesTo_S50x256_S_d0_1 : S50x256.ReducesTo [0, 1] S_
  h_S_ : 0 < S_.numel

variable [Facts]

def fn {F : FTy → Type} [FloatOps F] (main_arg0 : IVec S16x50x50 1) (main_arg1 : FVec F S50x256 .f32) (main_arg2 : FVec F S50x256 .f32) : IVec S_ 1 :=
  let main_v0 : FVec F S50x256 .f32 := Host.absf main_arg1
  let main_cst : FVec F S_ .f32 := constant S_ .f32 0x7F800000#32
  let main_v1 : FVec F S50x256 .f32 := broadcastInDim S50x256 ![] bcast_S_S50x256 main_cst
  let main_v2 : IVec S50x256 1 := cmpf .olt main_v0 main_v1
  let main_c : IVec S_ 1 := constantI S_ 1 1#1
  let main_v3 : IVec S_ 1 := (fun x v => Host.reduce IntOp.andi x v reducesTo_S50x256_S_d0_1 h_S_) main_v2 main_c
  let main_v4 : FVec F S50x256 .f32 := Host.absf main_arg2
  let main_cst_0 : FVec F S_ .f32 := constant S_ .f32 0x7F800000#32
  let main_v5 : FVec F S50x256 .f32 := broadcastInDim S50x256 ![] bcast_S_S50x256 main_cst_0
  let main_v6 : IVec S50x256 1 := cmpf .olt main_v4 main_v5
  let main_c_1 : IVec S_ 1 := constantI S_ 1 1#1
  let main_v7 : IVec S_ 1 := (fun x v => Host.reduce IntOp.andi x v reducesTo_S50x256_S_d0_1 h_S_) main_v6 main_c_1
  let main_v8 : IVec S_ 1 := andi main_v3 main_v7
  main_v8
-- ==== Kernel.lean ====
abbrev S16x50x50 : Shape := ⟨3, ![16, 50, 50]⟩
abbrev S50x256 : Shape := ⟨2, ![50, 256]⟩
abbrev S512x50x50 : Shape := ⟨3, ![512, 50, 50]⟩
abbrev S256x50 : Shape := ⟨2, ![256, 50]⟩
abbrev S256x1x50 : Shape := ⟨3, ![256, 1, 50]⟩
abbrev S256x50x50 : Shape := ⟨3, ![256, 50, 50]⟩
abbrev S256x50x1 : Shape := ⟨3, ![256, 50, 1]⟩
abbrev S16x512x50x50 : Shape := ⟨4, ![16, 512, 50, 50]⟩
abbrev S_ : Shape := ⟨0, ![]⟩
abbrev S1x16x50x50 : Shape := ⟨4, ![1, 16, 50, 50]⟩

abbrev nBuf : Table → Nat
  | .hbm => 5
  | .local .tc .vmem => 3
  | .local .scVector .vmem => 1
  | _ => 0

abbrev bufTy : (tb : Table) → Fin (nBuf tb) → BufTy
  | .hbm, ⟨0, _⟩ => ⟨S16x50x50, .i1⟩
  | .hbm, ⟨1, _⟩ => ⟨S50x256, .f32⟩
  | .hbm, ⟨2, _⟩ => ⟨S50x256, .f32⟩
  | .hbm, ⟨3, _⟩ => ⟨S512x50x50, .f32⟩
  | .hbm, ⟨4, _⟩ => ⟨S16x512x50x50, .f32⟩
  | .local .tc .vmem, ⟨0, _⟩ => ⟨S50x256, .f32⟩
  | .local .tc .vmem, ⟨1, _⟩ => ⟨S50x256, .f32⟩
  | .local .tc .vmem, ⟨2, _⟩ => ⟨S512x50x50, .f32⟩
  | .local .scVector .vmem, ⟨0, _⟩ => ⟨S16x50x50, .f32⟩
  | _, _ => ⟨S16x50x50, .i1⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => true
  | ⟨1, _⟩ => true
  | ⟨2, _⟩ => true
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v0_scv : Ref sig .scVector := ⟨.hbm, 3, rfl⟩
abbrev main_v1_scv : Ref sig .scVector := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_scratch0 : Ref sig .scVector := ⟨.vmem, 0, rfl⟩
abbrev cc0_sem0_0 : DmaSem sig := 0
abbrev cc0_sem1_0 : DmaSem sig := 1
abbrev cc0_sem2_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S50x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S50x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x50x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_145_r0 : BitVec 32 := 0#32
  let c0_i32_146_r0 : BitVec 32 := 0#32
  ![v2.toNat, 0, 0]
def k1_off2 (i : grid1.Coords) : Fin 4 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_0 : BitVec 32 := 0#32
  let c0_i32_1 : BitVec 32 := 0#32
  ![0, v2.toNat, 0, 0]
def k1_off3 (i : grid1.Coords) : Fin 4 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_4 : BitVec 32 := 0#32
  let c0_i32_5 : BitVec 32 := 0#32
  ![1, v2.toNat, 0, 0]
def k1_off4 (i : grid1.Coords) : Fin 4 → Nat :=
  let c2_i32_8 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_9 : BitVec 32 := 0#32
  let c0_i32_10 : BitVec 32 := 0#32
  ![2, v2.toNat, 0, 0]
def k1_off5 (i : grid1.Coords) : Fin 4 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_13 : BitVec 32 := 0#32
  let c0_i32_14 : BitVec 32 := 0#32
  ![3, v2.toNat, 0, 0]
def k1_off6 (i : grid1.Coords) : Fin 4 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_17 : BitVec 32 := 0#32
  let c0_i32_18 : BitVec 32 := 0#32
  ![4, v2.toNat, 0, 0]
def k1_off7 (i : grid1.Coords) : Fin 4 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_21 : BitVec 32 := 0#32
  let c0_i32_22 : BitVec 32 := 0#32
  ![5, v2.toNat, 0, 0]
def k1_off8 (i : grid1.Coords) : Fin 4 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_25 : BitVec 32 := 0#32
  let c0_i32_26 : BitVec 32 := 0#32
  ![6, v2.toNat, 0, 0]
def k1_off9 (i : grid1.Coords) : Fin 4 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_29 : BitVec 32 := 0#32
  let c0_i32_30 : BitVec 32 := 0#32
  ![7, v2.toNat, 0, 0]
def k1_off10 (i : grid1.Coords) : Fin 4 → Nat :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_33 : BitVec 32 := 0#32
  let c0_i32_34 : BitVec 32 := 0#32
  ![8, v2.toNat, 0, 0]
def k1_off11 (i : grid1.Coords) : Fin 4 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_37 : BitVec 32 := 0#32
  let c0_i32_38 : BitVec 32 := 0#32
  ![9, v2.toNat, 0, 0]
def k1_off12 (i : grid1.Coords) : Fin 4 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_41 : BitVec 32 := 0#32
  let c0_i32_42 : BitVec 32 := 0#32
  ![10, v2.toNat, 0, 0]
def k1_off13 (i : grid1.Coords) : Fin 4 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_45 : BitVec 32 := 0#32
  let c0_i32_46 : BitVec 32 := 0#32
  ![11, v2.toNat, 0, 0]
def k1_off14 (i : grid1.Coords) : Fin 4 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_49 : BitVec 32 := 0#32
  let c0_i32_50 : BitVec 32 := 0#32
  ![12, v2.toNat, 0, 0]
def k1_off15 (i : grid1.Coords) : Fin 4 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_53 : BitVec 32 := 0#32
  let c0_i32_54 : BitVec 32 := 0#32
  ![13, v2.toNat, 0, 0]
def k1_off16 (i : grid1.Coords) : Fin 4 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_57 : BitVec 32 := 0#32
  let c0_i32_58 : BitVec 32 := 0#32
  ![14, v2.toNat, 0, 0]
def k1_off17 (i : grid1.Coords) : Fin 4 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_61 : BitVec 32 := 0#32
  let c0_i32_62 : BitVec 32 := 0#32
  ![15, v2.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S50x256_S50x256_0_0 : ∀ a, (![0, 0] : Fin 2 → Nat) a + S50x256.size a ≤ S50x256.size a
  h_S50x256 : 0 < S50x256.numel
  transposes_S50x256_p1_0_S256x50 : S50x256.Transposes [1, 0] S256x50
  shapeCasts_S256x50_S256x1x50 : S256x50.ShapeCasts S256x1x50
  shapeCasts_S256x1x50_S256x1x50 : S256x1x50.ShapeCasts S256x1x50
  broadcasts_S256x1x50_S256x50x50 : S256x1x50.Broadcasts S256x50x50
  inb_S512x50x50_S256x50x50_0_0_0 : ∀ a, (![0, 0, 0] : Fin 3 → Nat) a + S256x50x50.size a ≤ S512x50x50.size a
  h_S256x50x50 : 0 < S256x50x50.numel
  shapeCasts_S256x50_S256x50x1 : S256x50.ShapeCasts S256x50x1
  shapeCasts_S256x50x1_S256x50x1 : S256x50x1.ShapeCasts S256x50x1
  broadcasts_S256x50x1_S256x50x50 : S256x50x1.Broadcasts S256x50x50
  inb_S512x50x50_S256x50x50_256_0_0 : ∀ a, (![256, 0, 0] : Fin 3 → Nat) a + S256x50x50.size a ≤ S512x50x50.size a
  squeezes_S1x16x50x50_S16x50x50 : S1x16x50x50.Squeezes S16x50x50
  hcc1_scratch1 : 3 + S_.numel ≤ 5
  hcc1_scoped0 : 4 + S_.numel ≤ 5
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hcore1 : grid1.bound 0 ≤ τ.nSC
  hsub1 : grid1.bound 1 ≤ τ.nSub
  k1_off1_inb : ∀ i : grid1.Coords, ∀ a, (k1_off1 i) a + S16x50x50.size a ≤ S512x50x50.size a
  k1_off2_inb : ∀ i : grid1.Coords, ∀ a, (k1_off2 i) a + S1x16x50x50.size a ≤ S16x512x50x50.size a
  k1_off3_inb : ∀ i : grid1.Coords, ∀ a, (k1_off3 i) a + S1x16x50x50.size a ≤ S16x512x50x50.size a
  k1_off4_inb : ∀ i : grid1.Coords, ∀ a, (k1_off4 i) a + S1x16x50x50.size a ≤ S16x512x50x50.size a
  k1_off5_inb : ∀ i : grid1.Coords, ∀ a, (k1_off5 i) a + S1x16x50x50.size a ≤ S16x512x50x50.size a
  k1_off6_inb : ∀ i : grid1.Coords, ∀ a, (k1_off6 i) a + S1x16x50x50.size a ≤ S16x512x50x50.size a
  k1_off7_inb : ∀ i : grid1.Coords, ∀ a, (k1_off7 i) a + S1x16x50x50.size a ≤ S16x512x50x50.size a
  k1_off8_inb : ∀ i : grid1.Coords, ∀ a, (k1_off8 i) a + S1x16x50x50.size a ≤ S16x512x50x50.size a
  k1_off9_inb : ∀ i : grid1.Coords, ∀ a, (k1_off9 i) a + S1x16x50x50.size a ≤ S16x512x50x50.size a
  k1_off10_inb : ∀ i : grid1.Coords, ∀ a, (k1_off10 i) a + S1x16x50x50.size a ≤ S16x512x50x50.size a
  k1_off11_inb : ∀ i : grid1.Coords, ∀ a, (k1_off11 i) a + S1x16x50x50.size a ≤ S16x512x50x50.size a
  k1_off12_inb : ∀ i : grid1.Coords, ∀ a, (k1_off12 i) a + S1x16x50x50.size a ≤ S16x512x50x50.size a
  k1_off13_inb : ∀ i : grid1.Coords, ∀ a, (k1_off13 i) a + S1x16x50x50.size a ≤ S16x512x50x50.size a
  k1_off14_inb : ∀ i : grid1.Coords, ∀ a, (k1_off14 i) a + S1x16x50x50.size a ≤ S16x512x50x50.size a
  k1_off15_inb : ∀ i : grid1.Coords, ∀ a, (k1_off15 i) a + S1x16x50x50.size a ≤ S16x512x50x50.size a
  k1_off16_inb : ∀ i : grid1.Coords, ∀ a, (k1_off16 i) a + S1x16x50x50.size a ≤ S16x512x50x50.size a
  k1_off17_inb : ∀ i : grid1.Coords, ∀ a, (k1_off17 i) a + S1x16x50x50.size a ≤ S16x512x50x50.size a

variable [Facts₀]

abbrev cc1_scratch1 : DmaSems sig S_ := SemArray.consecutive 3 S_ hcc1_scratch1
abbrev cc1_scoped0 : DmaSems sig S_ := SemArray.consecutive 4 S_ hcc1_scoped0

abbrev win0_0 : Pipeline.Window sig grid0 :=
  Pipeline.Window.whole (Memref.whole main_arg2) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x50x50 : Shape := ⟨3, ![16, 50, 50]⟩
abbrev S50x256 : Shape := ⟨2, ![50, 256]⟩
abbrev S50 : Shape := ⟨1, ![50]⟩
abbrev S_ : Shape := ⟨0, ![]⟩
abbrev S50x1 : Shape := ⟨2, ![50, 1]⟩
abbrev S1 : Shape := ⟨1, ![1]⟩
abbrev S1x1 : Shape := ⟨2, ![1, 1]⟩
abbrev S1x50x256 : Shape := ⟨3, ![1, 50, 256]⟩
abbrev S50x50x256 : Shape := ⟨3, ![50, 50, 256]⟩
abbrev S50x1x256 : Shape := ⟨3, ![50, 1, 256]⟩
abbrev S50x50x512 : Shape := ⟨3, ![50, 50, 512]⟩
abbrev S512x50x50 : Shape := ⟨3, ![512, 50, 50]⟩
abbrev S1x512x50x50 : Shape := ⟨4, ![1, 512, 50, 50]⟩
abbrev S16x512x50x50 : Shape := ⟨4, ![16, 512, 50, 50]⟩

abbrev nBuf : Space → Nat
  | .hbm => 59
  | .vmem => 0
  | .smem => 0
  | _ => 0

abbrev bufTy : (tb : Table) → Fin (tcTables nBuf tb) → BufTy
  | .hbm, ⟨0, _⟩ => ⟨S16x50x50, .i1⟩
  | .hbm, ⟨1, _⟩ => ⟨S50x256, .f32⟩
  | .hbm, ⟨2, _⟩ => ⟨S50x256, .f32⟩
  | .hbm, ⟨3, _⟩ => ⟨S50, .i32⟩
  | .hbm, ⟨4, _⟩ => ⟨S50, .i32⟩
  | .hbm, ⟨5, _⟩ => ⟨S_, .i32⟩
  | .hbm, ⟨6, _⟩ => ⟨S50, .i32⟩
  | .hbm, ⟨7, _⟩ => ⟨S50, .i1⟩
  | .hbm, ⟨8, _⟩ => ⟨S_, .i32⟩
  | .hbm, ⟨9, _⟩ => ⟨S50, .i32⟩
  | .hbm, ⟨10, _⟩ => ⟨S50, .i32⟩
  | .hbm, ⟨11, _⟩ => ⟨S50, .i32⟩
  | .hbm, ⟨12, _⟩ => ⟨S50x1, .i32⟩
  | .hbm, ⟨13, _⟩ => ⟨S1, .i32⟩
  | .hbm, ⟨14, _⟩ => ⟨S_, .i32⟩
  | .hbm, ⟨15, _⟩ => ⟨S50x1, .i32⟩
  | .hbm, ⟨16, _⟩ => ⟨S50x1, .i1⟩
  | .hbm, ⟨17, _⟩ => ⟨S1x1, .i32⟩
  | .hbm, ⟨18, _⟩ => ⟨S50x1, .i32⟩
  | .hbm, ⟨19, _⟩ => ⟨S50x1, .i1⟩
  | .hbm, ⟨20, _⟩ => ⟨S50x1, .i1⟩
  | .hbm, ⟨21, _⟩ => ⟨S_, .i1⟩
  | .hbm, ⟨22, _⟩ => ⟨S50, .i1⟩
  | .hbm, ⟨23, _⟩ => ⟨S50x256, .f32⟩
  | .hbm, ⟨24, _⟩ => ⟨S50x256, .i1⟩
  | .hbm, ⟨25, _⟩ => ⟨S_, .f32⟩
  | .hbm, ⟨26, _⟩ => ⟨S50x256, .f32⟩
  | .hbm, ⟨27, _⟩ => ⟨S50x256, .f32⟩
  | .hbm, ⟨28, _⟩ => ⟨S_, .i32⟩
  | .hbm, ⟨29, _⟩ => ⟨S50, .i32⟩
  | .hbm, ⟨30, _⟩ => ⟨S50, .i1⟩
  | .hbm, ⟨31, _⟩ => ⟨S_, .i32⟩
  | .hbm, ⟨32, _⟩ => ⟨S50, .i32⟩
  | .hbm, ⟨33, _⟩ => ⟨S50, .i32⟩
  | .hbm, ⟨34, _⟩ => ⟨S50, .i32⟩
  | .hbm, ⟨35, _⟩ => ⟨S50x1, .i32⟩
  | .hbm, ⟨36, _⟩ => ⟨S1, .i32⟩
  | .hbm, ⟨37, _⟩ => ⟨S_, .i32⟩
  | .hbm, ⟨38, _⟩ => ⟨S50x1, .i32⟩
  | .hbm, ⟨39, _⟩ => ⟨S50x1, .i1⟩
  | .hbm, ⟨40, _⟩ => ⟨S1x1, .i32⟩
  | .hbm, ⟨41, _⟩ => ⟨S50x1, .i32⟩
  | .hbm, ⟨42, _⟩ => ⟨S50x1, .i1⟩
  | .hbm, ⟨43, _⟩ => ⟨S50x1, .i1⟩
  | .hbm, ⟨44, _⟩ => ⟨S_, .i1⟩
  | .hbm, ⟨45, _⟩ => ⟨S50, .i1⟩
  | .hbm, ⟨46, _⟩ => ⟨S50x256, .f32⟩
  | .hbm, ⟨47, _⟩ => ⟨S50x256, .i1⟩
  | .hbm, ⟨48, _⟩ => ⟨S_, .f32⟩
  | .hbm, ⟨49, _⟩ => ⟨S50x256, .f32⟩
  | .hbm, ⟨50, _⟩ => ⟨S50x256, .f32⟩
  | .hbm, ⟨51, _⟩ => ⟨S1x50x256, .f32⟩
  | .hbm, ⟨52, _⟩ => ⟨S50x50x256, .f32⟩
  | .hbm, ⟨53, _⟩ => ⟨S50x1x256, .f32⟩
  | .hbm, ⟨54, _⟩ => ⟨S50x50x256, .f32⟩
  | .hbm, ⟨55, _⟩ => ⟨S50x50x512, .f32⟩
  | .hbm, ⟨56, _⟩ => ⟨S512x50x50, .f32⟩
  | .hbm, ⟨57, _⟩ => ⟨S1x512x50x50, .f32⟩
  | .hbm, ⟨58, _⟩ => ⟨S16x512x50x50, .f32⟩
  | _, _ => ⟨S16x50x50, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩

abbrev nD : Nat := 1
abbrev τ : Topo := Topo.v7x

variable {F : FTy → Type} [FloatOps F]

class Facts₀ : Prop where
  bcast_S_S50 : S_.BroadcastsInDim S50 (![] : Fin 0 → Fin S50.rank)
  bcast_S50_S50x1_0 : S50.BroadcastsInDim S50x1 (![0] : Fin 1 → Fin S50x1.rank)
  bcast_S_S50x1 : S_.BroadcastsInDim S50x1 (![] : Fin 0 → Fin S50x1.rank)
  bcast_S1_S1x1_1 : S1.BroadcastsInDim S1x1 (![1] : Fin 1 → Fin S1x1.rank)
  bcast_S1x1_S50x1_0_1 : S1x1.BroadcastsInDim S50x1 (![0, 1] : Fin 2 → Fin S50x1.rank)
  reducesTo_S50x1_S50_d1 : S50x1.ReducesTo [1] S50
  h_S_ : 0 < S_.numel
  bcast_S50_S50x256_0 : S50.BroadcastsInDim S50x256 (![0] : Fin 1 → Fin S50x256.rank)
  bcast_S_S50x256 : S_.BroadcastsInDim S50x256 (![] : Fin 0 → Fin S50x256.rank)
  bcast_S50x256_S1x50x256_1_2 : S50x256.BroadcastsInDim S1x50x256 (![1, 2] : Fin 2 → Fin S1x50x256.rank)
  bcast_S1x50x256_S50x50x256_0_1_2 : S1x50x256.BroadcastsInDim S50x50x256 (![0, 1, 2] : Fin 3 → Fin S50x50x256.rank)
  bcast_S50x256_S50x1x256_0_2 : S50x256.BroadcastsInDim S50x1x256 (![0, 2] : Fin 2 → Fin S50x1x256.rank)
  bcast_S50x1x256_S50x50x256_0_1_2 : S50x1x256.BroadcastsInDim S50x50x256 (![0, 1, 2] : Fin 3 → Fin S50x50x256.rank)
  concatenates_S50x50x256_S50x50x256_S50x50x512_d2 : Shape.Concatenates [S50x50x256, S50x50x256] S50x50x512 2
  transposes_S50x50x512_S512x50x50_2_0_1 : S50x50x512.Transposes [2, 0, 1] S512x50x50
  bcast_S512x50x50_S1x512x50x50_1_2_3 : S512x50x50.BroadcastsInDim S1x512x50x50 (![1, 2, 3] : Fin 3 → Fin S1x512x50x50.rank)
  bcast_S1x512x50x50_S16x512x50x50_0_1_2_3 : S1x512x50x50.BroadcastsInDim S16x512x50x50 (![0, 1, 2, 3] : Fin 4 → Fin S16x512x50x50.rank)
  gather_S50x256_S50x1_S50x256_1_0_n_n_0_1_1256_wf : GatherDims.WF S50x256 S50x1 S50x256 [1] [0] [] [0] [] 1 ![1, 256]

variable [Facts₀]

def gather_S50x256_S50x1_S50x256_1_0_n_n_0_1_1256 : GatherDims S50x256 S50x1 S50x256 where
  offsetDims := [1]
  collapsedSliceDims := [0]
  operandBatchingDims := []
  startIndicesBatchingDims := []
  startIndexMap := [0]
  indexVectorDim := 1
  sliceSizes := ![1, 256]
  wf := gather_S50x256_S50x1_S50x256_1_0_n_n_0_1_1256_wf

class Facts : Prop extends Facts₀ where

variable [Facts]
-- ==== Proof.Spec.lean ====
/-
  The function both programs compute, stated once over any element type (no arithmetic is involved: the result only
  re-arranges entries of the two weight tables).

  With `cw` the column table and `rw` the row table, both 50 × 256, the slab of 512 channels over a 50 × 50 grid holds,
  in channel `k < 256`, the column table's entry (j, k) at every row `i` and column `j`; in channel `k ≥ 256`, the row
  table's entry (i, k − 256) at every column `j`. The result repeats the slab for each of the 16 batch entries.
-/
import Idealize.ShloMosaic.Lib.ValueIdx

namespace Cert.Spec

open Idealize.ShloMosaic Idealize.ShloMosaic.ValueIdx

/-- A weight table: 50 positions by 256 features. -/
abbrev STab : Shape := ⟨2, ![50, 256]⟩
/-- The slab: 512 channels over a 50 × 50 grid. -/
abbrev SSlab : Shape := ⟨3, ![512, 50, 50]⟩
/-- The result: the slab once per batch entry. -/
abbrev SOut : Shape := ⟨4, ![16, 512, 50, 50]⟩

/-- Channel `k`, row `i`, column `j` of the slab: `cw (j, k)` for `k < 256`, `rw (i, k - 256)` otherwise. -/
def slab {α : Type} (cw rw : STab.Idx → α) : SSlab.Idx → α := fun x =>
  if h : (x 0).val < 256 then cw (ix2 (n0 := 50) (n1 := 256) ⟨(x 2).val, (x 2).isLt⟩ ⟨(x 0).val, h⟩)
  else rw (ix2 (n0 := 50) (n1 := 256) ⟨(x 1).val, (x 1).isLt⟩ ⟨(x 0).val - 256, by have h5 : (x 0).val < 512 := (x 0).isLt; omega⟩)

/-- Batch entry `b` of the result is the slab. -/
def out {α : Type} (cw rw : STab.Idx → α) : SOut.Idx → α := fun y =>
  slab cw rw (ix3 (n0 := 512) (n1 := 50) (n2 := 50) ⟨(y 1).val, (y 1).isLt⟩ ⟨(y 2).val, (y 2).isLt⟩ ⟨(y 3).val, (y 3).isLt⟩)

theorem slab_lo {α : Type} (cw rw : STab.Idx → α) (k : Fin 512) (i j : Fin 50) (h : k.val < 256) :
    slab cw rw (ix3 k i j) = cw (ix2 j ⟨k.val, h⟩) := by
  unfold slab; rw [dif_pos (show ((ix3 k i j : SSlab.Idx) 0).val < 256 from h)]

theorem slab_hi {α : Type} (cw rw : STab.Idx → α) (k : Fin 512) (i j : Fin 50) (h : ¬ k.val < 256) :
    slab cw rw (ix3 k i j) = rw (ix2 i ⟨k.val - 256, by have := k.isLt; omega⟩) := by
  unfold slab; rw [dif_neg (show ¬ ((ix3 k i j : SSlab.Idx) 0).val < 256 from h)]

theorem out_apply {α : Type} (cw rw : STab.Idx → α) (b : Fin 16) (k : Fin 512) (i j : Fin 50) :
    out cw rw (ix4 b k i j) = slab cw rw (ix3 k i j) := rfl

end Cert.Spec
-- ==== Proof.KernelX.Common.lean ====
/-
  The program as the SparseCore launch theorem sees it, the ghost state, and what the handshakes of its one
  SparseCore call carry.

  The program: on the TensorCore, one region builds the slab (512 channels over a 50 × 50 grid) from the two weight
  tables; then one vector-subcore call on 2 SparseCores × 16 tiles: tile (c, s) takes the 16 channels starting at
  32 s + 16 c of the slab into its own memory and copies them to those channels of each of the 16 batch entries of the
  result. The 32 tiles' channel ranges are disjoint and cover the 512 channels, so each tile is handed exactly its 16
  channels of the slab and its 16 × 16 channels of the result, and hands them back with the result's at the
  specification's contents.
-/
import proofs.«213528_g18287970746974_cont_8to1_881_28_alg».proof.Defs
import Idealize.ShloMosaic.Lib.SparseCore.Launch
import Idealize.ShloMosaic.Lib.StableHlo.Run
import Idealize.ShloMosaic.Lib.Pipeline.Kit
import Idealize.ShloMosaic.Lib.Tactic
import proofs.«213528_g18287970746974_cont_8to1_881_28_alg».proof.Proof.Gen.Kernel
import proofs.«213528_g18287970746974_cont_8to1_881_28_alg».proof.Proof.Gen.Kernel.Skeleton
import proofs.«213528_g18287970746974_cont_8to1_881_28_alg».proof.Proof.Gen.Kernel.Launch
import proofs.«213528_g18287970746974_cont_8to1_881_28_alg».proof.Proof.Spec

noncomputable section

namespace Cert.KernelX

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore region's staging cells, the transfers' counters -/

abbrev UH : Type := URounds (GSem nD τ sig) ℕ
abbrev UK : Type := URounds (GSem nD τ sig) Unit
abbrev UU : Type := UH × (UK × Counters)

local notation "𝕄" => MT nD τ sig (HIx 1) (Elt F) ℕ UU ℕ

/-- The handshakes' rounds: the left factor. -/
abbrev EH : Emb UH (MT nD τ sig (HIx 1) (Elt F) ℕ UU ℕ) := embL
/-- The region's staging cells: the left factor of the right factor. -/
def EP : Emb UK (MT nD τ sig (HIx 1) (Elt F) ℕ UU ℕ) :=
  (Emb.inl : Emb UK (UK × Counters)).trans (embR : Emb (UK × Counters) (MT nD τ sig (HIx 1) (Elt F) ℕ UU ℕ))

instance EP_landsIn : (EP : Emb UK 𝕄).LandsIn (upEmb : UEmb _ 𝕄) := by unfold EP embR; infer_instance

/-! ## The launch memory and the arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev v0Loc (d : Dev nD) : Loc nD τ sig := (SparseCore.T d).loc main_v0
abbrev v1Loc (d : Dev nD) : Loc nD τ sig := (SparseCore.T d).loc main_v1

/-- The slab the region leaves, and the result the call leaves: the specification at the launch's weight tables
    (`main_arg2` the column table, `main_arg1` the row table). -/
def slabV (d : Dev nD) : Buf (Elt F) (v0Loc d) := Cert.Spec.slab (α := Elt F .f32) (m (a2Loc d)) (m (a1Loc d))
def outV (d : Dev nD) : Buf (Elt F) (v1Loc d) := Cert.Spec.out (α := Elt F .f32) (m (a2Loc d)) (m (a1Loc d))

/-! ## A tile's pieces, spelt as the kernel slices them -/

def coordsV (c : Fin (grid1.bound 0)) (s : Fin (grid1.bound 1)) : grid1.Coords :=
  fun | 0 => c | 1 => s | ⟨_ + 2, h⟩ => absurd h (Nat.not_lt.2 (Nat.le_add_left _ _))

/-- The tile's 16 channels of the slab. -/
abbrev srcM (L : grid1.Coords) : Memref sig .scVector .hbm S16x50x50 .f32 :=
  (Memref.whole main_v0_scv : Memref sig .scVector .hbm S512x50x50 .f32).slice (Rect.unit (s := S512x50x50) (k1_off1 L) S16x50x50.size (k1_off1_inb L)) (fun _ => rfl)

/-- Where the tile's channels of batch entry `b` start, as the kernel computes it. -/
abbrev dstOff (L : grid1.Coords) : Fin 16 → (Fin 4 → Nat)
  | ⟨0, _⟩ => k1_off2 L
  | ⟨1, _⟩ => k1_off3 L
  | ⟨2, _⟩ => k1_off4 L
  | ⟨3, _⟩ => k1_off5 L
  | ⟨4, _⟩ => k1_off6 L
  | ⟨5, _⟩ => k1_off7 L
  | ⟨6, _⟩ => k1_off8 L
  | ⟨7, _⟩ => k1_off9 L
  | ⟨8, _⟩ => k1_off10 L
  | ⟨9, _⟩ => k1_off11 L
  | ⟨10, _⟩ => k1_off12 L
  | ⟨11, _⟩ => k1_off13 L
  | ⟨12, _⟩ => k1_off14 L
  | ⟨13, _⟩ => k1_off15 L
  | ⟨14, _⟩ => k1_off16 L
  | ⟨15, _⟩ => k1_off17 L
  | ⟨_ + 16, h⟩ => absurd h (Nat.not_lt.2 (Nat.le_add_left _ _))

theorem dstOff_inb (L : grid1.Coords) : ∀ (b : Fin 16) (a : Fin 4), (dstOff L b) a + S1x16x50x50.size a ≤ S16x512x50x50.size a
  | ⟨0, _⟩ => k1_off2_inb L
  | ⟨1, _⟩ => k1_off3_inb L
  | ⟨2, _⟩ => k1_off4_inb L
  | ⟨3, _⟩ => k1_off5_inb L
  | ⟨4, _⟩ => k1_off6_inb L
  | ⟨5, _⟩ => k1_off7_inb L
  | ⟨6, _⟩ => k1_off8_inb L
  | ⟨7, _⟩ => k1_off9_inb L
  | ⟨8, _⟩ => k1_off10_inb L
  | ⟨9, _⟩ => k1_off11_inb L
  | ⟨10, _⟩ => k1_off12_inb L
  | ⟨11, _⟩ => k1_off13_inb L
  | ⟨12, _⟩ => k1_off14_inb L
  | ⟨13, _⟩ => k1_off15_inb L
  | ⟨14, _⟩ => k1_off16_inb L
  | ⟨15, _⟩ => k1_off17_inb L
  | ⟨_ + 16, h⟩ => absurd h (Nat.not_lt.2 (Nat.le_add_left _ _))

/-- The tile's 16 channels of batch entry `b` of the result. -/
abbrev dstM (L : grid1.Coords) (b : Fin 16) : Memref sig .scVector .hbm S16x50x50 .f32 :=
  ((Memref.whole main_v1_scv : Memref sig .scVector .hbm S16x512x50x50 .f32).slice (Rect.unit (s := S16x512x50x50) (dstOff L b) S1x16x50x50.size (dstOff_inb L b)) (fun _ => rfl)).squeeze S16x50x50 squeezes_S1x16x50x50_S16x50x50

/-- What a tile is handed: its channels of the slab at the slab's contents, its channels of every batch entry of the
    result at whatever they hold; -/
def goRes (d : Dev nD) (L : grid1.Coords) : sProp 𝕄 :=
  iprop((v0Loc d ↦[(srcM L).view.set]{fullShare} slabV m d)
    ∗ bigSep Finset.univ fun b : Fin 16 => iprop(∃ f, v1Loc d ↦[(dstM L b).view.set]{fullShare} f))
/-- and what it hands back: the same, the result's channels at the specification. -/
def tdRes (d : Dev nD) (L : grid1.Coords) : sProp 𝕄 :=
  iprop((v0Loc d ↦[(srcM L).view.set]{fullShare} slabV m d)
    ∗ bigSep Finset.univ fun b : Fin 16 => v1Loc d ↦[(dstM L b).view.set]{fullShare} outV m d)

/-- The tile (c, i) of call 0 as a grid point. -/
abbrev tileL (c : Fin ((K (F := F)).nCore 0)) (i : Fin ((K (F := F)).nSub 0)) : grid1.Coords :=
  coordsV (Fin.cast nCore_zero c) (Fin.cast nSub_zero i)

/-- Call 0's payloads: a SparseCore is handed its 16 tiles' pieces and hands them back; the kernel consumes nothing of
    the launch's. -/
def P : (K (F := F)).Pay (nD := nD) (Val := Elt F) (Name := ℕ) (U := UU) where
  st := fun q d c => match q with | 0 => bigSep Finset.univ fun i : Fin ((K (F := F)).nSub 0) => goRes m d (tileL c i)
  dn := fun q d c => match q with | 0 => bigSep Finset.univ fun i : Fin ((K (F := F)).nSub 0) => tdRes m d (tileL c i)
  go := fun q d c i => match q with | 0 => goRes m d (tileL c i)
  td := fun q d c i => match q with | 0 => tdRes m d (tileL c i)
  x := fun _ _ => iprop(emp)

instance goRes_storable (d : Dev nD) (L : grid1.Coords) : BI.Storable (upEmb : UEmb _ 𝕄) (goRes m d L) := by
  unfold goRes; infer_instance
instance tdRes_storable (d : Dev nD) (L : grid1.Coords) : BI.Storable (upEmb : UEmb _ 𝕄) (tdRes m d L) := by
  unfold tdRes; infer_instance

instance P_storable : (P (F := F) m).IsStorable where
  st q d c := match q with | 0 => (inferInstance : BI.Storable (upEmb : UEmb _ 𝕄) (bigSep Finset.univ fun i : Fin ((K (F := F)).nSub 0) => goRes m d (tileL c i)))
  dn q d c := match q with | 0 => (inferInstance : BI.Storable (upEmb : UEmb _ 𝕄) (bigSep Finset.univ fun i : Fin ((K (F := F)).nSub 0) => tdRes m d (tileL c i)))
  go q d c i := match q with | 0 => (inferInstance : BI.Storable (upEmb : UEmb _ 𝕄) (goRes m d (tileL c i)))
  td q d c i := match q with | 0 => (inferInstance : BI.Storable (upEmb : UEmb _ 𝕄) (tdRes m d (tileL c i)))

end Cert.KernelX

end
-- ==== Proof.KernelX.Launch.lean ====
/-
  The launch: the program's run from the proofs of its parts.

  The parts proved elsewhere enter as hypotheses, each stated here once: a tile's task (`TileBodyStmt`), the
  TensorCore region that builds the slab (`SlabCallStmt`, with the ghost state it is funded from), and how the two
  arrays split among the tiles and join again (`St0Stmt`, `Dn0Stmt`). From them: the launch theorem's obligation
  for the one vector-subcore call, the launch element of the ghost state, @main on the TensorCore — the region, then
  the call —, how the final memory reads the claim, and the run: every weakly fair execution of the device's threads
  terminates with the result at the specification and the three arguments unchanged.
-/
import proofs.«213528_g18287970746974_cont_8to1_881_28_alg».proof.Proof.KernelX.Common

noncomputable section

namespace Cert.KernelX

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The parts, as statements -/

/-- A tile's task at grid point `L`: from its pieces of the two arrays, its scoped storage and what it owes, the
    kernel's body runs to the pieces with the result's at the specification. -/
def TileBodyStmt : Prop :=
  ∀ (d : Dev nD) (L : grid1.Coords) (O : CellTallies nD τ sig (HIx 1)) (W : Waits sig (HIx 1)), (∀ g, O g none = 0) →
    iprop(levAts (K (F := F)).L (K (F := F)).lev ∗ emp ∗ goRes m d L
        ∗ scopedBufs (V d ((L 0).castLE hcore1) ((L 1).castLE hsub1)) ∗ scopedSems0 (V d ((L 0).castLE hcore1) ((L 1).castLE hsub1))
        ∗ owes (V d ((L 0).castLE hcore1) ((L 1).castLE hsub1)) O W)
      ⊢ wp frame (wpE (defs₀ (F := F)) 𝒱₀ (V d ((L 0).castLE hcore1) ((L 1).castLE hsub1)) none) Set.univ
          (cc1__bcast_body L (Memref.whole main_v0_scv) (Memref.isWhole_whole _) (Memref.whole main_v1_scv) (Memref.isWhole_whole _)
            (Memref.whole cc1_scratch0) (Memref.isWhole_whole _) cc1_scratch1 cc1_scoped0)
          fun _ => iprop(tdRes m d L ∗ scopedBufs (V d ((L 0).castLE hcore1) ((L 1).castLE hsub1)) ∗ scopedSems0 (V d ((L 0).castLE hcore1) ((L 1).castLE hsub1))
            ∗ ∃ W', ⌜∀ p ∈ W', p ∈ W ∨ p.2 = none⌝ ∗ owes (V d ((L 0).castLE hcore1) ((L 1).castLE hsub1)) O W')

/-- The TensorCore region, entered from @main with the region's ghost state `SG d`: the slab ends at the
    specification, the weight tables are kept, the TensorCore owes what it owed. -/
def SlabCallStmt (SG : Dev nD → sProp 𝕄) : Prop :=
  ∀ (d : Dev nD) (O : CellTallies nD τ sig (HIx 1)) (W : Waits sig (HIx 1)), (∀ g, O g none = 0) → ∀ (Φ : PUnit → sProp 𝕄),
    iprop(levAts (K (F := F)).L (K (F := F)).lev ∗ boundary (T d)
        ∗ (a2Loc d ↦{fullShare} m (a2Loc d)) ∗ (a1Loc d ↦{fullShare} m (a1Loc d)) ∗ (∃ f, v0Loc d ↦{fullShare} f)
        ∗ owes (T d) O W ∗ SG d
        ∗ ((boundary (T d) ∗ (a2Loc d ↦{fullShare} m (a2Loc d)) ∗ (a1Loc d ↦{fullShare} m (a1Loc d)) ∗ (v0Loc d ↦{fullShare} slabV m d)
              ∗ ∃ W', ⌜∀ p ∈ W', p ∈ W ∨ p.2 = none⌝ ∗ owes (T d) O W') -∗ Φ ⟨⟩))
      ⊢ wp frame (wpE ((K (F := F)).defs (D (F := F))) 𝒱 (T d) none) Set.univ
          (Prog.lift (TpuEff.customCall (p := Proc.tc) (Λ := SparseCore.Sig (ΛP (F := F)) 1) (SparseCore.inner (Pipeline.entry 0)) ())) Φ

/-- The call's operands, for both SparseCores, out of the two arrays whole; -/
def St0Stmt : Prop :=
  ∀ d : Dev nD, iprop((v0Loc d ↦{fullShare} slabV m d) ∗ (∃ f, v1Loc d ↦{fullShare} f))
      ⊢ (bigSep Finset.univ fun c : Fin ((K (F := F)).nCore 0) => (P m).st 0 d c : sProp 𝕄)
/-- and the arrays whole again out of its results. -/
def Dn0Stmt : Prop :=
  ∀ d : Dev nD, (bigSep Finset.univ fun c : Fin ((K (F := F)).nCore 0) => (P m).dn 0 d c : sProp 𝕄)
      ⊢ iprop((v0Loc d ↦{fullShare} slabV m d) ∗ (v1Loc d ↦{fullShare} outV m d))

/-! ## The launch theorem's obligation for the call -/

theorem defs₀_vector (c : Fin τ.nSC) (s : Fin τ.nSub) :
    defs₀ (F := F) (.scVector c s) 1 ()
      = SparseCore.onTile hcore1 hsub1 (fun c s => cc1__bcast_body (coordsV c s)
          (Memref.whole main_v0_scv) (Memref.isWhole_whole _) (Memref.whole main_v1_scv) (Memref.isWhole_whole _)
          (Memref.whole cc1_scratch0) (Memref.isWhole_whole _) cc1_scratch1 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htile : TileBodyStmt m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (htile d (coordsV ⟨_, hc.1⟩ ⟨_, hc.2⟩) O W hO).trans (wp_mono frame _ _ fun _ => obl_post)

/-! ## The launch element: the handshakes' rounds and the region's cells; nothing of the SparseCore kernel's own -/

def u₀ (uP : UK) : UU := (initOf (K (F := F)).hsCells (K (F := F)).hsToks, (uP, 1))

omit [FloatOps F] in
theorem bigSep_emp' {I : Type} (s : Finset I) : (bigSep s fun _ => iprop(emp)) = (iprop(emp) : sProp 𝕄) := bigSep_emp_const s

theorem hu₀ (SG : Dev nD → sProp 𝕄) (uP : UK)
    (hfund : (BI.own ((EP (F := F)) uP) : sProp 𝕄) ⊢ |==> bigSep Finset.univ SG) :
    (ownU (u₀ (F := F) uP) : sProp 𝕄)
      ⊢ |={Set.univ}=> iprop(BI.own (EH (initOf (K (F := F)).hsCells (K (F := F)).hsToks)) ∗ (bigSep Finset.univ SG)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UK × Counters) 𝕄) uP (1 : Counters)) $$ HR
  icases H2 with ⟨HP, -⟩
  imod (show (BI.own (((Emb.inl : Emb UK (UK × Counters)).trans (embR : Emb (UK × Counters) 𝕄)) uP) : sProp 𝕄) ⊢ |==> bigSep Finset.univ SG from hfund) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2)
          ∗ (v0Loc d ↦{fullShare} W main_v0) ∗ (v1Loc d ↦{fullShare} W main_v1)) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

omit [FloatOps F] in
/-- What the TensorCore owes before call 0 is all at a call's index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

omit [FloatOps F] in
/-- The TensorCore's state before call 0 opens on what it owes. -/
theorem tcSt_split (d : Dev nD) (n : ℕ) : ∃ R : sProp 𝕄,
    (K (F := F)).tcSt (EH (F := F)) d n
      = iprop((∃ W, ⌜(K (F := F)).WBelow (T d) W (8 * n)⌝ ∗ owes (T d) ((K (F := F)).Otc d n) W) ∗ R) := ⟨_, rfl⟩

/-- What @main leaves the claim: the arguments at their launch contents, the result at the specification. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (v1Loc d ↦{fullShare} outV m d))

/-- @main on device `d`'s TensorCore: the region (the slab from the two tables), then the call (the slab and the
    result to the tiles and back); the arguments kept throughout. -/
theorem hmain (SG : Dev nD → sProp 𝕄) (hslab : SlabCallStmt m SG) (hst : St0Stmt m) (hdn : Dn0Stmt m)
    (κ : GSem nD τ sig → ℕ) (d : Dev nD) :
    iprop((K (F := F)).ctx EH (P m) κ ∗ (K (F := F)).tcSt EH d 0 ∗ (K (F := F)).tcRes m ρ d ∗ SG d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_split (F := F) d 0
  unfold SparseCore.Cfg.tcRes
  rw [unscopedBufs_eq, hR]
  simp only [main, wp_bind, wp_pure]
  iintro ⟨#Hctx, ⟨⟨%W, %hW, HO⟩, HR⟩, ⟨Hb, ⟨H0, H1, H2, Hv0, Hv1⟩, Hsems, Hprng⟩, HG⟩
  ihave Hlev := ((K (F := F)).ctx_levAts (EH := EH) (P := P m) κ) $$ Hctx
  iapply (hslab d ((K (F := F)).Otc d 0) W (Otc_none d 0) _) $$ [Hlev Hb H2 H1 Hv0 HO HG HR H0 Hv1]
  isplitl [Hlev]; · iexact Hlev
  isplitl [Hb]; · iexact Hb
  isplitl [H2]; · iexact H2
  isplitl [H1]; · iexact H1
  isplitl [Hv0]; · iexists _; iexact Hv0
  isplitl [HO]; · iexact HO
  isplitl [HG]; · iexact HG
  iintro ⟨Hb, H2, H1, Hv0, %W', %hW', HO⟩
  iapply ((K (F := F)).wp_run (D (F := F)) 𝒱 (EH := EH) (P := P m) κ d 0) $$ [HO HR Hv0 Hv1 H0 H1 H2]
  isplitr; · iexact Hctx
  isplitl [HO HR]
  · rw [show (K (F := F)).tcSt (EH (F := F)) d ((0 : Fin 1) : ℕ) = _ from hR]
    isplitl [HO]
    · iexists W'; isplitr
      · ipureintro; intro p hp
        rcases hW' p hp with h | h
        · exact hW p h
        · rw [h, SparseCore.Cfg.lev_none]
      · iexact HO
    · iexact HR
  isplitl [Hv0 Hv1]
  · iapply (hst d)
    isplitl [Hv0]; · iexact Hv0
    iexists _; iexact Hv1
  iintro ⟨Hst, Hdn⟩
  ihave Hd := (hdn d) $$ Hdn
  icases Hd with ⟨-, Hv1⟩
  imodintro
  isplitl [Hst]; · iexact Hst
  isplitl [H0]; · iexact H0
  isplitl [H1]; · iexact H1
  isplitl [H2]; · iexact H2
  iexact Hv1

/-! ## How the final memory reads the claim -/

def fq (d : Dev nD) (s' : Phys nD τ sig (Elt F)) : Prop :=
  s'.mem.mem (v1Loc d) = outV m d ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨H0, H1, H2, Hv1⟩, HSI⟩
  ihave E0 := (persistent_entails_right (SI_pointsTo_agree (st := s') (ℓ := a0Loc d) (I := Finset.univ) (q := fullShare) (f := m (a0Loc d)))) $$ [HSI H0]
  · isplitl [HSI] <;> iassumption
  icases E0 with ⟨%h0, HSI, -⟩
  ihave E1 := (persistent_entails_right (SI_pointsTo_agree (st := s') (ℓ := a1Loc d) (I := Finset.univ) (q := fullShare) (f := m (a1Loc d)))) $$ [HSI H1]
  · isplitl [HSI] <;> iassumption
  icases E1 with ⟨%h1, HSI, -⟩
  ihave E2 := (persistent_entails_right (SI_pointsTo_agree (st := s') (ℓ := a2Loc d) (I := Finset.univ) (q := fullShare) (f := m (a2Loc d)))) $$ [HSI H2]
  · isplitl [HSI] <;> iassumption
  icases E2 with ⟨%h2, HSI, -⟩
  ihave E3 := (SI_pointsTo_agree (st := s') (ℓ := v1Loc d) (I := Finset.univ) (q := fullShare) (f := outV m d)) $$ [HSI Hv1]
  · isplitl [HSI] <;> iassumption
  icases E3 with %h3
  ipureintro
  exact ⟨funext fun i => h3 i (Finset.mem_univ i), funext fun i => h0 i (Finset.mem_univ i), funext fun i => h1 i (Finset.mem_univ i),
    funext fun i => h2 i (Finset.mem_univ i)⟩

/-! ## The program's run -/

/-- Every final memory has the result at the specification of the launch's weight tables and the three arguments at
    their launch contents, on every device. -/
def QC : PUnit × MemSt nD τ sig (Elt F) → Prop := fun r => ∀ c : Dev nD,
  r.2.mem (v1Loc c) = outV m c ∧ r.2.mem (a0Loc c) = m (a0Loc c) ∧ r.2.mem (a1Loc c) = m (a1Loc c) ∧ r.2.mem (a2Loc c) = m (a2Loc c)

theorem run_of_parts [∀ e, Nonempty (Elt F e)] (SG : Dev nD → sProp 𝕄) (uP : UK)
    (hfund : (BI.own ((EP (F := F)) uP) : sProp 𝕄) ⊢ |==> bigSep Finset.univ SG)
    (htile : TileBodyStmt m) (hslab : SlabCallStmt m SG) (hst : St0Stmt m) (hdn : Dn0Stmt m)
    (hsplit : (K (F := F)).VecSplit' (P m) 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m htile)
    (fun q _ => match q with | 0 => SparseCore.Cfg.VecSplit.of_plain hsplit)
    m ρ main SG (FIN m) (u₀ (F := F) uP) (sep_elim_left.trans (hu₀ m SG uP hfund)) (hmain m ρ SG hslab hst hdn) (fq m) (hfin m) (QC m)
    (fun _ h c => h c)

end Cert.KernelX

end
-- ==== Proof.KernelX.TileBody.lean ====
/-
  One tile's task, at a symbolic grid point, for any float instance.

  Tile (c, s) is handed its 16 channels of the slab (channels 32 s + 16 c …) at the slab's contents and the same 16
  channels of each of the 16 batch entries of the result at whatever they hold. It copies its channels of the slab into
  its own vector memory and waits for the copy; it then starts sixteen copies of that memory, one to its channels of each
  batch entry, all on ONE semaphore, and waits sixteen times on it. Nothing reads or writes the vector memory or any
  destination between the first start and the last wait, so the sixteen copies are one counted batch: the first fifteen
  waits learn nothing, the sixteenth learns that every copy has landed and hands everything back.

  The value: after the first copy the vector memory holds the slab read through the tile's slice; after copy b the
  tile's slice of batch entry b holds that. Both slices start at the same channel, and every batch entry of the
  specification is the slab, so on the slice's own elements the result holds the specification.
-/
import proofs.«213528_g18287970746974_cont_8to1_881_28_alg».proof.Proof.KernelX.Common
import Idealize.ShloMosaic.Lib.Batch

noncomputable section

namespace Cert.KernelX

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile's own semaphores and vector memory -/

section Tile

variable (d : Dev nD) (c : Fin τ.nSC) (j : Fin τ.nSub)

/-- The tile's two DMA cells: the one the first copy lands on, and the one the sixteen copies share. -/
abbrev cellA : GSem nD τ sig := (V d c j, .dma cc1_scoped0.sem)
abbrev cellB : GSem nD τ sig := (V d c j, .dma cc1_scratch1.sem)

/-- The tile's own semaphores at zero: the two cells, and the rest. -/
theorem ownSems0_V :
    (ownSems0 (V d c j) : sProp 𝕄)
      = iprop(semVal (cellA d c j) 0 ∗ semVal (cellB d c j) 0
          ∗ bigSep (((ownCells (V d c j)).erase (cellA d c j)).erase (cellB d c j)) fun g => semVal g 0) := by
  unfold SparseCore.Cfg.ownSems0
  rw [SparseCore.bigSep_erase' ((mem_ownCells (g := cellA d c j)).mpr ⟨rfl, by
      show (SemLoc.dma cc1_scoped0.sem : SemLoc sig).isScoped .scVector = true; decide⟩),
    SparseCore.bigSep_erase' (Finset.mem_erase.mpr ⟨by simp [cellA, cellB]; decide, (mem_ownCells (g := cellB d c j)).mpr ⟨rfl, by
      show (SemLoc.dma cc1_scratch1.sem : SemLoc sig).isScoped .scVector = true; decide⟩⟩)]

/-- The tile's own buffers: its vector memory at some contents, and the rest. -/
theorem ownBufs_V :
    (ownBufs (V d c j) : sProp 𝕄)
      = iprop((∃ f, (V d c j).loc cc1_scratch0 ↦{fullShare} f)
          ∗ bigSep ((ownRefs (τ := τ) (.scVector c j)).erase ((Proc.scVector c j).devRef cc1_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector c j)
    (b := (Proc.scVector c j).devRef cc1_scratch0) rfl)

end Tile

/-! ## The tile's pieces through its own memrefs

The slab and the result are the TensorCore's arrays; a tile addresses them through its slice memrefs, whose location is
the same array and whose elements are the slice's. -/

section Spell

variable (d : Dev nD) (c : Fin τ.nSC) (j : Fin τ.nSub) (L : grid1.Coords)

/-- The tile's channels of the slab, through the slice memref. -/
theorem pts_src (f : Buf (Elt F) (v0Loc d)) :
    ((srcM L).view.loc (V d c j) ↦[(srcM L).view.set]{fullShare} f : sProp 𝕄) = v0Loc d ↦[(srcM L).view.set]{fullShare} f := rfl

/-- The tile's channels of batch entry `b`, likewise. -/
theorem pts_dst (b : Fin 16) (f : Buf (Elt F) (v1Loc d)) :
    ((dstM L b).view.loc (V d c j) ↦[(dstM L b).view.set]{fullShare} f : sProp 𝕄) = v1Loc d ↦[(dstM L b).view.set]{fullShare} f := rfl

/-- The tile's vector memory, whole. -/
theorem pts_scr (f : Buf (Elt F) ((V d c j).loc cc1_scratch0)) :
    ((Memref.whole cc1_scratch0 : Memref sig .scVector .vmem S16x50x50 .f32).view.loc (V d c j) ↦{fullShare} f : sProp 𝕄)
      = (V d c j).loc cc1_scratch0 ↦{fullShare} f := rfl

end Spell

/-! ## The value -/

section Value

variable (m : (ℓ : Loc nD τ sig) → Buf (Elt F) ℓ) (d : Dev nD) (L : grid1.Coords)

/-- Where the tile's channels of batch entry `b` start, in closed form: batch coordinate `b`, channel
    `32 s + 16 c`, the grid's origin. -/
theorem dstOff_closed : ∀ b : Fin 16, dstOff L b = ![b.val, 32 * (L 1).val + 16 * (L 0).val, 0, 0]
  | ⟨0, _⟩ => k1_off2_eq L
  | ⟨1, _⟩ => k1_off3_eq L
  | ⟨2, _⟩ => k1_off4_eq L
  | ⟨3, _⟩ => k1_off5_eq L
  | ⟨4, _⟩ => k1_off6_eq L
  | ⟨5, _⟩ => k1_off7_eq L
  | ⟨6, _⟩ => k1_off8_eq L
  | ⟨7, _⟩ => k1_off9_eq L
  | ⟨8, _⟩ => k1_off10_eq L
  | ⟨9, _⟩ => k1_off11_eq L
  | ⟨10, _⟩ => k1_off12_eq L
  | ⟨11, _⟩ => k1_off13_eq L
  | ⟨12, _⟩ => k1_off14_eq L
  | ⟨13, _⟩ => k1_off15_eq L
  | ⟨14, _⟩ => k1_off16_eq L
  | ⟨15, _⟩ => k1_off17_eq L
  | ⟨_ + 16, h⟩ => absurd h (Nat.not_lt.2 (Nat.le_add_left _ _))

/-- An index of the tile's slice of batch entry `b`: the slice's rectangle at the index behind the batch coordinate 0
    (the squeezed axis put back). -/
theorem dst_emb (b : Fin 16) (y : S16x50x50.Idx) :
    ((dstM L b).view.emb y : S16x512x50x50.Idx)
      = (Rect.unit (s := S16x512x50x50) (dstOff L b) S1x16x50x50.size (dstOff_inb L b)).emb (Fin.cons (⟨0, Nat.one_pos⟩ : Fin 1) y) := by
  show (Rect.unit (s := S16x512x50x50) (dstOff L b) S1x16x50x50.size (dstOff_inb L b)).emb
      (Shape.reshapeEquiv squeezes_S1x16x50x50_S16x50x50.numel_eq y) = _
  rw [Shape.reshapeEquiv_cons_one]
  rfl

/-- THE INDEX FACT: the result's specification at an index of the tile's slice of batch entry `b` is the slab's at the
    same index of the tile's slice of the slab — both slices start at channel `32 s + 16 c`, and every batch entry of the
    specification is the slab. -/
theorem out_dst_emb (b : Fin 16) (y : S16x50x50.Idx) :
    outV m d ((dstM L b).view.emb y) = slabV m d ((srcM L).view.emb y) := by
  rw [dst_emb]
  unfold outV slabV Cert.Spec.out
  refine congrArg _ (funext fun a => Fin.ext ?_)
  have hk := k1_off1_eq L
  have hb := dstOff_closed L b
  fin_cases a
  · show dstOff L b 1 + 1 * (y 0 : ℕ) = k1_off1 L 0 + 1 * (y 0 : ℕ); rw [hk, hb]; rfl
  · show dstOff L b 2 + 1 * (y 1 : ℕ) = k1_off1 L 1 + 1 * (y 1 : ℕ); rw [hk, hb]; rfl
  · show dstOff L b 3 + 1 * (y 2 : ℕ) = k1_off1 L 2 + 1 * (y 2 : ℕ); rw [hk, hb]; rfl

/-- What the scratch holds after the first copy, read back: the slab at the tile's slice. -/
theorem payload_eq (c : Fin τ.nSC) (j : Fin τ.nSub) (fs : Buf (Elt F) ((Memref.whole cc1_scratch0 : Memref sig .scVector .vmem S16x50x50 .f32).view.loc (V d c j))) (y : S16x50x50.Idx) :
    (ReadAs.same : ReadAs (Elt F) S16x50x50 .f32 S16x50x50 .f32).apply
        ((Memref.whole cc1_scratch0 : Memref sig .scVector .vmem S16x50x50 .f32).view.read (Elt F)
          (View.write (Elt F) (Memref.whole cc1_scratch0 : Memref sig .scVector .vmem S16x50x50 .f32).view fs
            ((ReadAs.same : ReadAs (Elt F) S16x50x50 .f32 S16x50x50 .f32).apply ((srcM L).view.read (Elt F) (slabV m d))) Finset.univ)) y
      = slabV m d ((srcM L).view.emb y) := by
  show (Memref.whole cc1_scratch0 : Memref sig .scVector .vmem S16x50x50 .f32).view.read (Elt F) _ y = _
  rw [View.read_apply, View.write_emb_of_mem _ _ (Finset.mem_univ y)]
  rfl

/-- A batch entry's slice after the copy lands, on the slice's own elements: the specification. -/
theorem landed_eq (c : Fin τ.nSC) (j : Fin τ.nSub) (b : Fin 16) (g : Buf (Elt F) (v1Loc d)) (w : S16x50x50.Idx → Elt F .f32)
    (hw : ∀ y, w y = slabV m d ((srcM L).view.emb y)) :
    ((dstM L b).view.loc (V d c j) ↦[(dstM L b).view.set]{fullShare} (dstM L b).view.writes (Elt F) g [⟨Rect.whole S16x50x50, w⟩] : sProp 𝕄)
      = v1Loc d ↦[(dstM L b).view.set]{fullShare} outV m d := by
  refine pointsTo_congr fun i hi => ?_
  obtain ⟨y, -, rfl⟩ := Finset.mem_map.mp hi
  have h1 := View.read_writes_cons_emb (dstM L b).view g (Rect.whole S16x50x50) w [] y
  rw [Rect.emb_whole_apply, View.read_apply] at h1
  rw [out_dst_emb, ← hw]
  exact (cast_eq _ _).symm.trans h1

end Value

/-! ## The waits recorded, and sixteen pieces one by one -/

/-- A wait at the kernels' own index recorded: the waits recorded beyond `W` are all at that index. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- Sixteen pieces, one by one. -/
theorem bigSep16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  (bigSep_univ_eq_bigSepL [0, 1, 2, 3, 4, 5, 6, 7, 8, 9, 10, 11, 12, 13, 14, 15] (by decide) (by decide) Φ).trans rfl

/-! ## The tile's task -/

abbrev cV (L : grid1.Coords) : Fin τ.nSC := (L 0).castLE hcore1
abbrev jV (L : grid1.Coords) : Fin τ.nSub := (L 1).castLE hsub1

theorem tile_body [FloatOps F] (m : (ℓ : Loc nD τ sig) → Buf (Elt F) ℓ) (d : Dev nD) (L : grid1.Coords) (O : CellTallies nD τ sig (HIx 1)) (W : Waits sig (HIx 1)) (hO : ∀ g, O g none = 0) :
    iprop(levAts (K (F := F)).L (K (F := F)).lev ∗ emp ∗ goRes m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__bcast_body L (Memref.whole main_v0_scv) (Memref.isWhole_whole _) (Memref.whole main_v1_scv) (Memref.isWhole_whole _) (Memref.whole cc1_scratch0) (Memref.isWhole_whole _) cc1_scratch1 cc1_scoped0)
          fun _ => iprop(tdRes m d L ∗ scopedBufs (V d (cV L) (jV L)) ∗ scopedSems0 (V d (cV L) (jV L))
            ∗ ∃ W', ⌜∀ p ∈ W', p ∈ W ∨ p.2 = none⌝ ∗ owes (V d (cV L) (jV L)) O W') := by
  -- the sixteen copies on the shared semaphore are ONE counted batch, all reading the vector memory
  have _plan : Transfers.BatchOf (V d (cV L) (jV L)) (SemLoc.dma (sig := sig) cc1_scratch1.sem) 16 (windows := true) := trivial
  simp only [cc1__bcast_body_eq_skeleton]; unfold cc1__bcast_body_skel
  rw [(K (F := F)).scopedBufs_V facts d (cV L) (jV L), SparseCore.Cfg.scopedSems0_V (Val := Elt F) d (cV L) (jV L), ownSems0_V, ownBufs_V]
  unfold goRes
  rw [bigSep16]
  iintro ⟨#Hlv, -, ⟨Hsrc, ⟨%g0, Hd0⟩, ⟨%g1, Hd1⟩, ⟨%g2, Hd2⟩, ⟨%g3, Hd3⟩, ⟨%g4, Hd4⟩, ⟨%g5, Hd5⟩, ⟨%g6, Hd6⟩, ⟨%g7, Hd7⟩, ⟨%g8, Hd8⟩, ⟨%g9, Hd9⟩, ⟨%g10, Hd10⟩, ⟨%g11, Hd11⟩, ⟨%g12, Hd12⟩, ⟨%g13, Hd13⟩, ⟨%g14, Hd14⟩, ⟨%g15, Hd15⟩⟩,
    ⟨⟨%fs, Hs⟩, Hbufs⟩, ⟨HsemA, HsemB, Hsems⟩, HO⟩
  -- every wait is at the kernels' own index, where the tile owes nothing
  ihave Hmw := ((K (F := F)).mayWaits_none (thr := V d (cV L) (jV L)) hO) $$ Hlv
  -- the pieces through the tile's own memrefs
  ihave Hsrc' := (Entails.of_eq (pts_src (F := F) d (cV L) (jV L) L _).symm) $$ Hsrc
  ihave Hd0' := (Entails.of_eq (pts_dst (F := F) d (cV L) (jV L) L 0 _).symm) $$ Hd0
  ihave Hd1' := (Entails.of_eq (pts_dst (F := F) d (cV L) (jV L) L 1 _).symm) $$ Hd1
  ihave Hd2' := (Entails.of_eq (pts_dst (F := F) d (cV L) (jV L) L 2 _).symm) $$ Hd2
  ihave Hd3' := (Entails.of_eq (pts_dst (F := F) d (cV L) (jV L) L 3 _).symm) $$ Hd3
  ihave Hd4' := (Entails.of_eq (pts_dst (F := F) d (cV L) (jV L) L 4 _).symm) $$ Hd4
  ihave Hd5' := (Entails.of_eq (pts_dst (F := F) d (cV L) (jV L) L 5 _).symm) $$ Hd5
  ihave Hd6' := (Entails.of_eq (pts_dst (F := F) d (cV L) (jV L) L 6 _).symm) $$ Hd6
  ihave Hd7' := (Entails.of_eq (pts_dst (F := F) d (cV L) (jV L) L 7 _).symm) $$ Hd7
  ihave Hd8' := (Entails.of_eq (pts_dst (F := F) d (cV L) (jV L) L 8 _).symm) $$ Hd8
  ihave Hd9' := (Entails.of_eq (pts_dst (F := F) d (cV L) (jV L) L 9 _).symm) $$ Hd9
  ihave Hd10' := (Entails.of_eq (pts_dst (F := F) d (cV L) (jV L) L 10 _).symm) $$ Hd10
  ihave Hd11' := (Entails.of_eq (pts_dst (F := F) d (cV L) (jV L) L 11 _).symm) $$ Hd11
  ihave Hd12' := (Entails.of_eq (pts_dst (F := F) d (cV L) (jV L) L 12 _).symm) $$ Hd12
  ihave Hd13' := (Entails.of_eq (pts_dst (F := F) d (cV L) (jV L) L 13 _).symm) $$ Hd13
  ihave Hd14' := (Entails.of_eq (pts_dst (F := F) d (cV L) (jV L) L 14 _).symm) $$ Hd14
  ihave Hd15' := (Entails.of_eq (pts_dst (F := F) d (cV L) (jV L) L 15 _).symm) $$ Hd15
  ihave Hs' := (Entails.of_eq (pts_scr (F := F) d (cV L) (jV L) _).symm) $$ Hs
  -- the run: the first copy and its wait; the sixteen copies; fifteen waits that learn nothing, the sixteenth that
  -- hands back every destination at the vector memory's contents written through its slice
  sl_exec
  sl_step
  -- what was copied is the slab at the tile's slice; on each destination's own elements that is the specification
  have hw : ∀ y, tile_body.sl.dma1 m d L fs y = slabV m d ((srcM L).view.emb y) := payload_eq (F := F) m d L (cV L) (jV L) fs
  ihave Hd0'' := (Entails.of_eq (landed_eq (F := F) m d L (cV L) (jV L) 0 g0 _ hw)) $$ Hd0'
  ihave Hd1'' := (Entails.of_eq (landed_eq (F := F) m d L (cV L) (jV L) 1 g1 _ hw)) $$ Hd1'
  ihave Hd2'' := (Entails.of_eq (landed_eq (F := F) m d L (cV L) (jV L) 2 g2 _ hw)) $$ Hd2'
  ihave Hd3'' := (Entails.of_eq (landed_eq (F := F) m d L (cV L) (jV L) 3 g3 _ hw)) $$ Hd3'
  ihave Hd4'' := (Entails.of_eq (landed_eq (F := F) m d L (cV L) (jV L) 4 g4 _ hw)) $$ Hd4'
  ihave Hd5'' := (Entails.of_eq (landed_eq (F := F) m d L (cV L) (jV L) 5 g5 _ hw)) $$ Hd5'
  ihave Hd6'' := (Entails.of_eq (landed_eq (F := F) m d L (cV L) (jV L) 6 g6 _ hw)) $$ Hd6'
  ihave Hd7'' := (Entails.of_eq (landed_eq (F := F) m d L (cV L) (jV L) 7 g7 _ hw)) $$ Hd7'
  ihave Hd8'' := (Entails.of_eq (landed_eq (F := F) m d L (cV L) (jV L) 8 g8 _ hw)) $$ Hd8'
  ihave Hd9'' := (Entails.of_eq (landed_eq (F := F) m d L (cV L) (jV L) 9 g9 _ hw)) $$ Hd9'
  ihave Hd10'' := (Entails.of_eq (landed_eq (F := F) m d L (cV L) (jV L) 10 g10 _ hw)) $$ Hd10'
  ihave Hd11'' := (Entails.of_eq (landed_eq (F := F) m d L (cV L) (jV L) 11 g11 _ hw)) $$ Hd11'
  ihave Hd12'' := (Entails.of_eq (landed_eq (F := F) m d L (cV L) (jV L) 12 g12 _ hw)) $$ Hd12'
  ihave Hd13'' := (Entails.of_eq (landed_eq (F := F) m d L (cV L) (jV L) 13 g13 _ hw)) $$ Hd13'
  ihave Hd14'' := (Entails.of_eq (landed_eq (F := F) m d L (cV L) (jV L) 14 g14 _ hw)) $$ Hd14'
  ihave Hd15'' := (Entails.of_eq (landed_eq (F := F) m d L (cV L) (jV L) 15 g15 _ hw)) $$ Hd15'
  unfold tdRes
  rw [bigSep16]
  isplitl [Hsrc' Hd0'' Hd1'' Hd2'' Hd3'' Hd4'' Hd5'' Hd6'' Hd7'' Hd8'' Hd9'' Hd10'' Hd11'' Hd12'' Hd13'' Hd14'' Hd15'']
  · isplitl [Hsrc']; · iexact Hsrc'
    isplitl [Hd0'']; · iexact Hd0''
    isplitl [Hd1'']; · iexact Hd1''
    isplitl [Hd2'']; · iexact Hd2''
    isplitl [Hd3'']; · iexact Hd3''
    isplitl [Hd4'']; · iexact Hd4''
    isplitl [Hd5'']; · iexact Hd5''
    isplitl [Hd6'']; · iexact Hd6''
    isplitl [Hd7'']; · iexact Hd7''
    isplitl [Hd8'']; · iexact Hd8''
    isplitl [Hd9'']; · iexact Hd9''
    isplitl [Hd10'']; · iexact Hd10''
    isplitl [Hd11'']; · iexact Hd11''
    isplitl [Hd12'']; · iexact Hd12''
    isplitl [Hd13'']; · iexact Hd13''
    isplitl [Hd14'']; · iexact Hd14''
    iexact Hd15''
  isplitl [Hs' Hbufs]
  · isplitl [Hs']; · iexists _; iexact Hs'
    iexact Hbufs
  isplitl [HsemA HsemB Hsems]
  · isplitl [HsemA]; · iexact HsemA
    isplitl [HsemB]; · iexact HsemB
    iexact Hsems
  iexists _
  isplitr
  rotate_left
  · iexact HO
  · ipureintro
    repeat (first | exact fun p hp => Or.inl hp | refine waits_insert _ ?_)

end Cert.KernelX

end
-- ==== Proof.KernelX.SlabBody.lean ====
/-
  The TensorCore region that builds the slab: the kernel body's triple and the value it leaves.

  The body loads the two 50 × 256 weight tables whole, transposes each, and stores two blocks of 256 channels over the
  50 × 50 grid into the slab's buffer: channels [0, 256) hold the first table's entry (j, k) at channel k, row i, column
  j (broadcast along the rows), channels [256, 512) the second table's entry (i, k) (broadcast along the columns). The
  two stores tile the buffer, so what the body leaves is a function of the two tables alone, and that function is the
  specification's slab.
-/
import proofs.«213528_g18287970746974_cont_8to1_881_28_alg».proof.Proof.KernelX.Common
import proofs.«213528_g18287970746974_cont_8to1_881_28_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.KernelX

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

/-! ## The body's accesses -/

/-- A weight table, whole. -/
abbrev slabRTab : Rect S50x256 := Rect.unit (s := S50x256) ![0, 0] S50x256.size inb_S50x256_S50x256_0_0
/-- Channels [0, 256) of the slab, -/
abbrev slabRLo : Rect S512x50x50 := Rect.unit (s := S512x50x50) ![0, 0, 0] S256x50x50.size inb_S512x50x50_S256x50x50_0_0_0
/-- and channels [256, 512). -/
abbrev slabRHi : Rect S512x50x50 := Rect.unit (s := S512x50x50) ![256, 0, 0] S256x50x50.size inb_S512x50x50_S256x50x50_256_0_0

/-- What the body leaves in the slab's buffer, from the two tables' buffers as read: its two stores as pieces, the
    last first. -/
def slabOut (x0 x1 : Vec F S50x256 .f32) : Vec F S512x50x50 .f32 :=
  View.canon [⟨slabRHi, k0_pay2 (View.ld x1 slabRTab)⟩, ⟨slabRLo, k0_pay1 (View.ld x0 slabRTab)⟩]

/-- The two stores tile the buffer, so they cover it. -/
theorem slab_cover (p1 p0 : Vec F S256x50x50 .f32) (y : S512x50x50.Idx) :
    ∃ pc ∈ ([⟨slabRHi, p1⟩, ⟨slabRLo, p0⟩] : List (View.Piece (Elt F) S512x50x50 .f32)), y ∈ pc.1.set :=
  View.cover_of_tiled [⟨slabRHi, p1⟩, ⟨slabRLo, p0⟩] S256x50x50.size (by rfl) y

set_option maxHeartbeats 1000000 in
/-- The body on whole staging memrefs, the tables' at read contents and the slab's at anything, runs to the
    continuation with the tables' as they were and the slab's at `slabOut` of them. -/
theorem slab_kernel (c : Dev nD) (E : Set ℕ) (arg0 : Memref sig .tc .vmem S50x256 .f32) (harg0 : arg0.IsWhole) (arg1 : Memref sig .tc .vmem S50x256 .f32) (harg1 : arg1.IsWhole) (arg2 : Memref sig .tc .vmem S512x50x50 .f32) (harg2 : arg2.IsWhole)
    (x0 x1 : Vec F S50x256 .f32) (Kc : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (slabOut x0 x1)) -∗ Kc ⟨⟩))
      ⊢ wp frame (wpE (defs₀ (F := F)) Variants.none (c : Thread nD τ) none) E (cc0__slab_body arg0 harg0 arg1 harg1 arg2 harg2) Kc := by
  simp only [cc0__slab_body_eq_skeleton]; unfold cc0__slab_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (slab_cover _ _)

/-! ## The value the two stores leave -/

open Idealize.ShloMosaic.ValueIdx in
/-- The first store's payload at channel `k`, row `i`, column `j` is the table's entry `(j, k)`: a transpose, the unit
    axis added between the two, and the broadcast along it. -/
theorem slabPay1_apply (v : Vec F S50x256 .f32) (x : S256x50x50.Idx) :
    k0_pay1 v x = v (ix2 (n0 := 50) (n1 := 256) ⟨(x 2).val, (x 2).isLt⟩ ⟨(x 0).val, (x 0).isLt⟩) := by
  have h0 : (x 0).val < 256 := (x 0).isLt
  have h1 : (x 1).val < 50 := (x 1).isLt
  have h2 : (x 2).val < 50 := (x 2).isLt
  simp only [k0_pay1]
  refine (broadcastTo_apply _ _ x (fun a => match a with | ⟨0, _⟩ => ⟨(x 0).val, h0⟩ | ⟨1, _⟩ => ⟨0, Nat.one_pos⟩ | ⟨2, _⟩ => ⟨(x 2).val, h2⟩)
    (fun a => match a with
      | ⟨0, _⟩ => by show (x 0).val = if (256 : Nat) = 1 then 0 else (x 0).val; rfl
      | ⟨1, _⟩ => by show (0 : Nat) = if (1 : Nat) = 1 then 0 else (x 1).val; rfl
      | ⟨2, _⟩ => by show (x 2).val = if (50 : Nat) = 1 then 0 else (x 2).val; rfl)).trans ?_
  rw [shapeCast_self]
  refine (shapeCast_apply _ _ _ (fun a => match a with | ⟨0, _⟩ => ⟨(x 0).val, h0⟩ | ⟨1, _⟩ => ⟨(x 2).val, h2⟩)
    (by rw [Shape.rowMajor_val_two, Shape.rowMajor_val_three]
        show (x 0).val * 50 + (x 2).val = ((x 0).val * 1 + 0) * 50 + (x 2).val
        omega)).trans ?_
  exact transpose_apply _ _ _ _ _ (fun b => match b with | ⟨0, _⟩ => rfl | ⟨1, _⟩ => rfl)

open Idealize.ShloMosaic.ValueIdx in
/-- The second store's payload at channel `k`, row `i`, column `j` is the table's entry `(i, k)`: a transpose, a
    trailing unit axis, and the broadcast along it. -/
theorem slabPay2_apply (v : Vec F S50x256 .f32) (x : S256x50x50.Idx) :
    k0_pay2 v x = v (ix2 (n0 := 50) (n1 := 256) ⟨(x 1).val, (x 1).isLt⟩ ⟨(x 0).val, (x 0).isLt⟩) := by
  have h0 : (x 0).val < 256 := (x 0).isLt
  have h1 : (x 1).val < 50 := (x 1).isLt
  have h2 : (x 2).val < 50 := (x 2).isLt
  simp only [k0_pay2]
  refine (broadcastTo_apply _ _ x (fun a => match a with | ⟨0, _⟩ => ⟨(x 0).val, h0⟩ | ⟨1, _⟩ => ⟨(x 1).val, h1⟩ | ⟨2, _⟩ => ⟨0, Nat.one_pos⟩)
    (fun a => match a with
      | ⟨0, _⟩ => by show (x 0).val = if (256 : Nat) = 1 then 0 else (x 0).val; rfl
      | ⟨1, _⟩ => by show (x 1).val = if (50 : Nat) = 1 then 0 else (x 1).val; rfl
      | ⟨2, _⟩ => by show (0 : Nat) = if (1 : Nat) = 1 then 0 else (x 2).val; rfl)).trans ?_
  rw [shapeCast_self]
  refine (shapeCast_apply _ _ _ (fun a => match a with | ⟨0, _⟩ => ⟨(x 0).val, h0⟩ | ⟨1, _⟩ => ⟨(x 1).val, h1⟩)
    (by rw [Shape.rowMajor_val_two, Shape.rowMajor_val_three]
        show (x 0).val * 50 + (x 1).val = ((x 0).val * 50 + (x 1).val) * 1 + 0
        omega)).trans ?_
  exact transpose_apply _ _ _ _ _ (fun b => match b with | ⟨0, _⟩ => rfl | ⟨1, _⟩ => rfl)

/-- Both loads read the whole table. -/
theorem slabZeros2 : (![0, 0] : Fin 2 → Nat) = fun _ => 0 := funext fun a => by fin_cases a <;> rfl

open Idealize.ShloMosaic.ValueIdx in
/-- The specification under the first store: channel `k < 256`. -/
theorem slab_at_lo {α : Type} (cw rw : S50x256.Idx → α) (x : S256x50x50.Idx) :
    Cert.Spec.slab cw rw (slabRLo.emb x) = cw (ix2 (n0 := 50) (n1 := 256) ⟨(x 2).val, (x 2).isLt⟩ ⟨(x 0).val, (x 0).isLt⟩) := by
  have h0 : (x 0).val < 256 := (x 0).isLt
  have h1 : (x 1).val < 50 := (x 1).isLt
  have h2 : (x 2).val < 50 := (x 2).isLt
  have e : slabRLo.emb x = ix3 (n0 := 512) (n1 := 50) (n2 := 50) ⟨(x 0).val, by omega⟩ ⟨(x 1).val, h1⟩ ⟨(x 2).val, h2⟩ := by
    funext a; apply Fin.ext
    match a with
    | ⟨0, _⟩ => show 0 + 1 * (x 0).val = (x 0).val; omega
    | ⟨1, _⟩ => show 0 + 1 * (x 1).val = (x 1).val; omega
    | ⟨2, _⟩ => show 0 + 1 * (x 2).val = (x 2).val; omega
  rw [e, Cert.Spec.slab_lo cw rw _ _ _ (show (x 0).val < 256 from h0)]

open Idealize.ShloMosaic.ValueIdx in
/-- The specification under the second store: channel `256 + k`. -/
theorem slab_at_hi {α : Type} (cw rw : S50x256.Idx → α) (x : S256x50x50.Idx) :
    Cert.Spec.slab cw rw (slabRHi.emb x) = rw (ix2 (n0 := 50) (n1 := 256) ⟨(x 1).val, (x 1).isLt⟩ ⟨(x 0).val, (x 0).isLt⟩) := by
  have h0 : (x 0).val < 256 := (x 0).isLt
  have h1 : (x 1).val < 50 := (x 1).isLt
  have h2 : (x 2).val < 50 := (x 2).isLt
  have e : slabRHi.emb x = ix3 (n0 := 512) (n1 := 50) (n2 := 50) ⟨256 + (x 0).val, by omega⟩ ⟨(x 1).val, h1⟩ ⟨(x 2).val, h2⟩ := by
    funext a; apply Fin.ext
    match a with
    | ⟨0, _⟩ => show 256 + 1 * (x 0).val = 256 + (x 0).val; omega
    | ⟨1, _⟩ => show 0 + 1 * (x 1).val = (x 1).val; omega
    | ⟨2, _⟩ => show 0 + 1 * (x 2).val = (x 2).val; omega
  rw [e, Cert.Spec.slab_hi cw rw _ _ _ (show ¬ (256 + (x 0).val < 256) by omega)]
  refine congrArg rw ?_
  funext a; apply Fin.ext
  match a with
  | ⟨0, _⟩ => rfl
  | ⟨1, _⟩ => show 256 + (x 0).val - 256 = (x 0).val; omega

/-- WHAT THE BODY LEAVES IS THE SLAB of the two tables as read. -/
theorem slabOut_eq (x0 x1 : Vec F S50x256 .f32) : slabOut x0 x1 = Cert.Spec.slab x0 x1 := by
  funext y
  unfold slabOut
  rw [View.ld_unit_zero slabZeros2, View.ld_unit_zero slabZeros2]
  refine View.canon_apply_of_pieces (Cert.Spec.slab x0 x1) _ ?_ y (slab_cover _ _ y)
  intro pc hpc x
  rcases List.mem_cons.mp hpc with rfl | hpc
  · show k0_pay2 x1 x = Cert.Spec.slab x0 x1 (slabRHi.emb x)
    rw [slabPay2_apply, slab_at_hi]
  rcases List.mem_cons.mp hpc with rfl | hpc
  · show k0_pay1 x0 x = Cert.Spec.slab x0 x1 (slabRLo.emb x)
    rw [slabPay1_apply, slab_at_lo]
  nomatch hpc

end Cert.KernelX

end
-- ==== Proof.KernelX.SlabDat.lean ====
/-
  The TensorCore region that builds the slab: the pipeline's proof data, the body obligation, and the slab's array
  after the region.

  The region is one gridless pipeline over three whole-array windows: the two weight tables are fetched, the slab is
  written back. At its one point the body finds each table's block in its staging buffer and leaves the slab's at what
  its two stores make of them; the write-back then covers the whole array, which therefore ends at the specification's
  slab of the two tables as the region found them. The tables are never written. The data is stated for any contents of
  the core's arrays at entry, any tallies the core owes and any set of waits it has recorded: the region's transfers
  complete on its own staging cells, so what the core owes passes through unchanged.
-/
import proofs.«213528_g18287970746974_cont_8to1_881_28_alg».proof.Proof.KernelX.SlabBody

set_option maxRecDepth 16384

noncomputable section

namespace Cert.KernelX

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

/-- The region prefetches no table. -/
abbrev slabAdm : (p : Fin 1) → (pcfgs (F := F) p).Adm := fun p => (cfgs p).toPCfg_adm

section Data

variable (Vv : (c : Dev nD) → (b : Ref sig .tc) → Buf (Elt F) ((c : Thread nD τ).loc b))
  (O : CellTallies nD τ sig (HIx 1)) (W : Waits sig (HIx 1))

/-! ## The windows' blocks -/

/-- Window `w`'s block at point `t`, read off its array as the region finds it. -/
def slabBlk (c : Dev nD) (w : Fin cfg0.W) (t : Fin cfg0.N) : ((cfg0.win w).xblock (cfg0.grid.coords t)).Idx → Elt F (cfg0.win w).elt :=
  ((cfg0.win w).blk t).view.read (Elt F) (Vv c (Pipeline.arrRef spec0 w))

/-! ## The proof data -/

/-- The region's proof data on core `c`: the arrays as the region finds them; after the body each table's buffer at
    its block and the slab's at what the two stores leave; between points only the scoped buffers the region does not
    stage; the core owes `O` throughout, and its recorded waits stay within `W` and the pairs at no call's index. -/
def slabDats (_ : Fin 1) (c : Dev nD) : Dat τ (Elt F) (HIx 1) ℕ UU ℕ cfg0 c where
  A w := Vv c (Pipeline.arrRef spec0 w)
  after w t := match w with
    | ⟨0, _⟩ => slabBlk Vv c 0 t
    | ⟨1, _⟩ => slabBlk Vv c 1 t
    | ⟨2, _⟩ => slabOut (slabBlk Vv c 0 t) (slabBlk Vv c 1 t)
  Φ _ := Pipeline.scopedRest spec0 c
  q _ := fullShare
  owed _ := O
  recorded _ := {p | p ∈ W ∨ p.2 = none}

theorem slabA_eq (c : Dev nD) (w : Fin cfg0.W) : (slabDats Vv O W 0 c).A w = Vv c (Pipeline.arrRef spec0 w) := by
  dsimp only [slabDats]

theorem slabAfter0 (c : Dev nD) (t : Fin cfg0.N) : (slabDats Vv O W 0 c).after 0 t = slabBlk Vv c 0 t := by dsimp only [slabDats]
theorem slabAfter1 (c : Dev nD) (t : Fin cfg0.N) : (slabDats Vv O W 0 c).after 1 t = slabBlk Vv c 1 t := by dsimp only [slabDats]
theorem slabAfter2 (c : Dev nD) (t : Fin cfg0.N) : (slabDats Vv O W 0 c).after 2 t = slabOut (slabBlk Vv c 0 t) (slabBlk Vv c 1 t) := by dsimp only [slabDats]

/-- Each table's buffer holds its block when the body runs: the window is fetched at the one point. -/
theorem slabBefore0 (c : Dev nD) (t : Fin cfg0.N) (d) : (slabDats Vv O W 0 c).before 0 t d = slabBlk Vv c 0 t := by
  unfold Dat.before; rw [if_pos (fetch0_0 t)]; unfold Dat.fetched Dat.blockOf slabBlk; rw [slabA_eq]; rfl
theorem slabBefore1 (c : Dev nD) (t : Fin cfg0.N) (d) : (slabDats Vv O W 0 c).before 1 t d = slabBlk Vv c 1 t := by
  unfold Dat.before; rw [if_pos (fetch0_1 t)]; unfold Dat.fetched Dat.blockOf slabBlk; rw [slabA_eq]; rfl

/-! ## The body obligation -/

/-- The body at the one point: the tables' buffers hold their blocks, the body's triple applies; the invariant and what
    the core owes pass through unread. -/
theorem slab_body_at (c : Dev nD) (t : Fin cfg0.N) :
    iprop((slabDats Vv O W 0 c).Φ t.castSucc ∗ (slabDats Vv O W 0 c).owesAt none t.castSucc
        ∗ (∃ d, owns (c : Thread nD τ) (st0_0 t) fullShare ((slabDats Vv O W 0 c).before 0 t d))
        ∗ (∃ d, owns (c : Thread nD τ) (st0_1 t) fullShare ((slabDats Vv O W 0 c).before 1 t d))
        ∗ (∃ d, owns (c : Thread nD τ) (st0_2 t) fullShare ((slabDats Vv O W 0 c).before 2 t d)))
      ⊢ wp frame (wpE (defs₀ (F := F)) Variants.none (c : Thread nD τ) none) Set.univ (bodyAt0 t) (fun _ =>
          iprop((slabDats Vv O W 0 c).Φ t.succ ∗ (slabDats Vv O W 0 c).owesAt none t.succ
            ∗ owns (c : Thread nD τ) (st0_0 t) fullShare ((slabDats Vv O W 0 c).after 0 t)
            ∗ owns (c : Thread nD τ) (st0_1 t) fullShare ((slabDats Vv O W 0 c).after 1 t)
            ∗ owns (c : Thread nD τ) (st0_2 t) fullShare ((slabDats Vv O W 0 c).after 2 t))) := by
  simp only [slabBefore0, slabBefore1]
  rw [show (slabDats Vv O W 0 c).Φ t.succ = (slabDats Vv O W 0 c).Φ t.castSucc from rfl,
    show (slabDats Vv O W 0 c).owesAt none t.succ = (slabDats Vv O W 0 c).owesAt none t.castSucc from rfl,
    slabAfter0, slabAfter1, slabAfter2]
  unfold bodyAt0
  iintro ⟨HΦ, Ho, ⟨%d0, H0⟩, ⟨%d1, H1⟩, ⟨%d2, H2⟩⟩
  iapply (slab_kernel c Set.univ _ _ _ _ _ _ (slabBlk Vv c 0 t) (slabBlk Vv c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation. -/
theorem slab_body_obligation (c : Dev nD) : BodyObligation (slabDats Vv O W 0 c) (defs₀ (F := F)) Variants.none none Set.univ := fun t => by
  rw [bigSep_W0, bigSep_W0]
  exact slab_body_at Vv O W c t

/-! ## The slab's array after the region -/

/-- The whole-array windows read their arrays as they are. -/
theorem slabBlk0_eq (c : Dev nD) (t : Fin cfg0.N) : slabBlk Vv c 0 t = Vv c main_arg2 := by
  funext j
  show Vv c main_arg2 (((cfg0.win 0).blk t).view.emb j) = Vv c main_arg2 j
  refine congrArg (Vv c main_arg2) (funext fun a => Fin.ext ?_)
  match a with
  | ⟨0, _⟩ => show 0 * 50 + 1 * (j 0).val = (j 0).val; omega
  | ⟨1, _⟩ => show 0 * 256 + 1 * (j 1).val = (j 1).val; omega
theorem slabBlk1_eq (c : Dev nD) (t : Fin cfg0.N) : slabBlk Vv c 1 t = Vv c main_arg1 := by
  funext j
  show Vv c main_arg1 (((cfg0.win 1).blk t).view.emb j) = Vv c main_arg1 j
  refine congrArg (Vv c main_arg1) (funext fun a => Fin.ext ?_)
  match a with
  | ⟨0, _⟩ => show 0 * 50 + 1 * (j 0).val = (j 0).val; omega
  | ⟨1, _⟩ => show 0 * 256 + 1 * (j 1).val = (j 1).val; omega

/-- What the one point writes back is the specification's slab of the two tables, read through the window. -/
theorem slabFlushed_eq (c : Dev nD) (t : Fin cfg0.N) :
    (slabDats Vv O W 0 c).flushed 2 t = ((cfg0.win 2).blk t).view.read (Elt F) (Cert.Spec.slab (α := Elt F .f32) (Vv c main_arg2) (Vv c main_arg1)) := by
  show (cfg0.win 2).cut (grid0.coords t) ((slabDats Vv O W 0 c).after 2 t) = _
  rw [slabAfter2, slabBlk0_eq, slabBlk1_eq, slabOut_eq]
  funext j
  show Cert.Spec.slab (α := Elt F .f32) (Vv c main_arg2) (Vv c main_arg1) ((cfg0.win 2).xinj (grid0.coords t) j)
    = Cert.Spec.slab (α := Elt F .f32) (Vv c main_arg2) (Vv c main_arg1) (((cfg0.win 2).blk t).view.emb j)
  refine congrArg _ (funext fun a => Fin.ext ?_)
  match a with
  | ⟨0, _⟩ => show (j 0).val = 0 * 512 + 1 * (j 0).val; omega
  | ⟨1, _⟩ => show (j 1).val = 0 * 50 + 1 * (j 1).val; omega
  | ⟨2, _⟩ => show (j 2).val = 0 * 50 + 1 * (j 2).val; omega

/-- The one block is the whole array. -/
theorem slabCovered (c : Dev nD) (i : ((cfg0.win 2).arr.view.loc (c : Thread nD τ)).2.ty.Idx) :
    ∃ t : Fin cfg0.N, (cfg0.win 2).flush t = true ∧ i ∈ ((cfg0.win 2).blk t).view.set := by
  refine ⟨t0_0, flush0_2 t0_0, ?_⟩
  show i ∈ ((View.whole main_v0).slice (win0_2.rect t0_0)).set
  rw [View.set_slice_whole, Rect.mem_set_unit]
  intro a
  have hi := (i a).isLt
  match a with
  | ⟨0, _⟩ => show 0 * 512 ≤ (i 0).val ∧ (i 0).val < 0 * 512 + 512; have h : (i 0).val < 512 := (i 0).isLt; omega
  | ⟨1, _⟩ => show 0 * 50 ≤ (i 1).val ∧ (i 1).val < 0 * 50 + 50; have h : (i 1).val < 50 := (i 1).isLt; omega
  | ⟨2, _⟩ => show 0 * 50 ≤ (i 2).val ∧ (i 2).val < 0 * 50 + 50; have h : (i 2).val < 50 := (i 2).isLt; omega

/-- THE SLAB'S ARRAY AFTER THE REGION is the specification's slab of the two tables as the region found them. -/
theorem slabFinal2 (c : Dev nD) : (slabDats Vv O W 0 c).arrAt 2 cfg0.N = Cert.Spec.slab (α := Elt F .f32) (Vv c main_arg2) (Vv c main_arg1) :=
  (slabDats Vv O W 0 c).arrAt_eq_of_cover 2 _ (fun t _ => slabFlushed_eq Vv O W c t) (slabCovered c)

/-- The tables' arrays are never written back. -/
theorem slabFinal0 (c : Dev nD) : (slabDats Vv O W 0 c).arrAt 0 cfg0.N = Vv c main_arg2 :=
  ((slabDats Vv O W 0 c).arrAt_in 0 rfl _).trans (slabA_eq Vv O W c 0)
theorem slabFinal1 (c : Dev nD) : (slabDats Vv O W 0 c).arrAt 1 cfg0.N = Vv c main_arg1 :=
  ((slabDats Vv O W 0 c).arrAt_in 1 rfl _).trans (slabA_eq Vv O W c 1)

end Data

end Cert.KernelX

end
-- ==== Proof.LibInnerCall.lean ====
/-
  A TensorCore pipeline region called from the @main of a program that also has SparseCore kernels.

  Such a program's body table is the SparseCore launch's extension `K.defs D` of the table `D` that holds the
  kernels and the TensorCore pallas_calls' regions, and its @main calls a region through the label
  `SparseCore.inner (Pipeline.entry p)`. Lifting a program of `D`'s signature to the extended one turns a call of
  a label `ℓ` into the call of `inner ℓ`, and a proof about a program under `D` is a proof about the lifted
  program under `K.defs D` (the library's `Cfg.wp_liftProg`). So any rule that proves one call under `D`
  — for a region, the pipeline library's entry rule — proves the same call inside such an @main. Generic in the
  mesh, the signature, the values, the labels and the number of SparseCore calls.
-/
import Idealize.ShloMosaic.Lib.SparseCore.Launch
import Idealize.ShloMosaic.Lib.Pipeline.Sound
import Idealize.ShloMosaic.Lib.Pipeline.Regions

-- the theorems below are stated over section variables: their types are elaborated in order with their bodies
set_option Elab.async false

noncomputable section

namespace Idealize.ShloMosaic.SparseCore.Cfg

open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Val : EltTy → Type} {Λ : Labels} {Q : Nat}
variable {Name : Type} [DecidableEq Name] {U : Type} [URA U]

local notation "𝕄" => MT nD τ sig (HIx Q) Val Name U ℕ

/-- One call of a label of the inner table, made from a thread of the extended program: what is proved of the
    call under the inner table `D` holds of the call of `inner ℓ` under `K.defs D`, at the same bound, mask and
    postcondition. -/
theorem wp_call_inner (K : Cfg τ sig Λ Q) (D : Defs nD τ sig Val Λ) (𝒱 : Variants) (thr : Thread nD τ) (E : Set Name)
    (bd : Option 𝒱.V) (ℓ : Λ.Label) (a : Λ.Args ℓ) (Φ : Λ.Result ℓ → sProp 𝕄) :
    wp frame (wpE D 𝒱 thr bd) E (Prog.lift (TpuEff.customCall (p := thr.2) ℓ a)) Φ
      ⊢ wp frame (wpE (K.defs D) 𝒱 thr bd) E (Prog.lift (TpuEff.customCall (p := thr.2) (Λ := SparseCore.Sig Λ Q) (SparseCore.inner ℓ) a)) Φ :=
  K.wp_liftProg D 𝒱 thr E bd (Prog.lift (TpuEff.customCall (p := thr.2) ℓ a)) Φ

/-! ## A pipeline region entered from such an @main -/

section Region

open Idealize.ShloMosaic.TcCoe

variable {Λ₀ : Labels} {P : Type} [Fintype P]
variable (pcs : P → Pipeline.PCfg sig Λ₀ Val) (a : (p : P) → (pcs p).Adm)
  (pdats : (p : P) → (c : Dev nD) → Pipeline.Dat τ Val (HIx Q) Name U ℕ (Pipeline.pin pcs a p) c) (ι : HIx Q)
  (ER : Emb (Rounds.URounds (GSem nD τ sig) Unit) (MT nD τ sig (HIx Q) Val Name U ℕ)) (κ : GSem nD τ sig → Name)
  (phinj : Function.Injective (Pipeline.cellOf (nD := nD) (Pipeline.pin pcs a))) (p : P)
  (defs₀ : Defs nD τ sig Val Λ₀) (𝒱₀ : Variants) (q : Fin (pcs p).pre.K → PosShare TreeShare)
  (K : Cfg τ sig (Pipeline.Sig Λ₀ P fun p => (pcs p).Adm) Q)

include phinj in
/-- The pipeline library's rule for entering TensorCore region `p` — from the region's cells, the held prefetch
    tables, what the body's invariant starts from (`X`) and the core's scoped buffers, to the region's end with
    the arrays at their final contents, `Y`, and the scoped storage back — read at the call an @main with SparseCore
    kernels makes: the same premises, the call under the extended body table. -/
theorem wp_region_in_main [∀ e, Nonempty (Val e)] (c : Dev nD) (E : Set Name) (hE : Pipeline.NamesIn (Pipeline.pin pcs a) κ p c E)
    (hbody : Pipeline.BodyObligationLoose (pdats p c) defs₀ 𝒱₀ ι E)
    (hne : ∀ w : Fin (Pipeline.pin pcs a p).W, 0 < ((Pipeline.pin pcs a p).win w).block.numel)
    (bd : Option (Variants.lift 𝒱₀).V) (hv : ∀ u ∈ bd, (Variants.lift 𝒱₀).lt (.inr ((Pipeline.pin pcs a p).tripCount + 1)) u)
    {X Y R : sProp 𝕄} (hbufs : (scopedBufs (c.tc : Thread nD τ) : sProp 𝕄) ⊢ iprop(Pipeline.Dat.staging (Pipeline.pin pcs a p) c ∗ R))
    (hin : iprop(X ∗ Pipeline.prefHeld (pcs p).pre c q (a p).1 ∗ R) ⊢ (pdats p c).Φ 0)
    (hout : iprop((pdats p c).Φ (Fin.last (Pipeline.pin pcs a p).N) ∗ Pipeline.cellsSems0 (Pipeline.pin pcs a) p c ∗ Pipeline.Dat.staging (Pipeline.pin pcs a p) c)
      ⊢ iprop(Y ∗ scopedSems0 (c.tc : Thread nD τ) ∗ scopedBufs (c.tc : Thread nD τ)))
    {Φ : PUnit → sProp 𝕄} :
    iprop(Pipeline.EntryPre (Pipeline.pin pcs a) pdats ι ER κ p c ∗ Pipeline.prefHeld (pcs p).pre c q (a p).1 ∗ X ∗ scopedBufs (c.tc : Thread nD τ))
      ⊢ iprop(((Pipeline.EntryPost (Pipeline.pin pcs a) pdats ι p c ∗ Y ∗ scopedSems0 (c.tc : Thread nD τ) ∗ scopedBufs (c.tc : Thread nD τ))
              -∗ wp frame (wpE (Pipeline.defs pcs defs₀) (Variants.lift 𝒱₀) (c.tc : Thread nD τ) bd) E (.ret ⟨⟩) Φ)
          -∗ wp frame (wpE (K.defs (Pipeline.defs pcs defs₀)) (Variants.lift 𝒱₀) (c.tc : Thread nD τ) bd) E
              (Prog.lift (TpuEff.customCall (p := Proc.tc) (Λ := SparseCore.Sig (Pipeline.Sig Λ₀ P fun p => (pcs p).Adm) Q) (SparseCore.inner (Pipeline.entry p)) ())) Φ) := by
  refine (Pipeline.wp_customCall_entry pcs a pdats ι ER κ phinj p defs₀ 𝒱₀ q c E hE hbody hne bd hv hbufs hin hout
    (k := fun _ => .ret ⟨⟩) (Q := Φ)).trans ?_
  exact Idealize.SL.BI.Laws.wand_mono_right
    (K.wp_call_inner (Pipeline.defs pcs defs₀) (Variants.lift 𝒱₀) (c.tc : Thread nD τ) E bd (Pipeline.entry p) () Φ)

end Region

/-! ## A region given by its segment record -/

section RegionRecord

open Idealize.ShloMosaic.TcCoe

variable {Λ₀ : Labels} {P : Type} [Fintype P]
variable (pcs : P → Pipeline.PCfg sig Λ₀ Val) (a : (p : P) → (pcs p).Adm)
  (pdats : (p : P) → (c : Dev nD) → Pipeline.Dat τ Val (HIx Q) Name U ℕ (Pipeline.pin pcs a p) c) (ι : HIx Q)
  (phinj : Function.Injective (Pipeline.cellOf (nD := nD) (Pipeline.pin pcs a)))
  (EP : Emb (Rounds.URounds (GSem nD τ sig) Unit) (MT nD τ sig (HIx Q) Val Name U ℕ))
  (defs₀ : Defs nD τ sig Val Λ₀) (𝒱₀ : Variants)
  (L : GSem nD τ sig → Finset (HIx Q)) (lv : GSem nD τ sig → HIx Q → ℕ)
  (K : Cfg τ sig (Pipeline.Sig Λ₀ P fun p => (pcs p).Adm) Q)

-- the library's rule is stated over `pin pcs a p`: matching it takes unfolding plain definitions in a type
set_option backward.isDefEq.respectTransparency.types false in
set_option maxHeartbeats 1600000 in
include phinj in
/-- A TensorCore region whose obligations are bundled as the pipeline library's segment record — its layout, body
    obligation, wait evidence and the four entailments around its thread states `pre` and `post` — entered from
    an @main with SparseCore kernels: from the core's boundary, `pre`, the level facts and the pipeline's ghost
    state, the region's call under the extended body table runs to the boundary and `post`. -/
theorem wp_regionSeg_in_main [∀ e, Nonempty (Val e)] [Infinite Name] [EP.LandsIn (upEmb : UEmb _ 𝕄)]
    {p : P} (R : Pipeline.RegionSeg pcs a pdats ι defs₀ 𝒱₀ L lv p) (c : Dev nD)
    (bd : Option (Variants.lift 𝒱₀).V) (hv : ∀ u ∈ bd, (Variants.lift 𝒱₀).lt (.inr ((Pipeline.pin pcs a p).tripCount + 1)) u)
    (Φ : PUnit → sProp 𝕄) :
    iprop((iprop(boundary (c.tc : Thread nD τ) ∗ R.post c)
            -∗ wp frame (wpE (Pipeline.defs pcs defs₀) (Variants.lift 𝒱₀) (c.tc : Thread nD τ) bd) Set.univ (.ret ⟨⟩) Φ)
        ∗ boundary (c.tc : Thread nD τ) ∗ R.pre c ∗ levAts L lv
        ∗ Pipeline.cellsGhost (Pipeline.pin pcs a) EP p c ∗ Pipeline.toksInit (Pipeline.pin pcs a) EP p c)
      ⊢ wp frame (wpE (K.defs (Pipeline.defs pcs defs₀)) (Variants.lift 𝒱₀) (c.tc : Thread nD τ) bd) Set.univ
          (Prog.lift (TpuEff.customCall (p := Proc.tc) (Λ := SparseCore.Sig (Pipeline.Sig Λ₀ P fun p => (pcs p).Adm) Q) (SparseCore.inner (Pipeline.entry p)) ())) Φ :=
  (Pipeline.RegionSeg.wp pcs a pdats ι phinj EP defs₀ 𝒱₀ L lv R c bd hv (fun x => Prog.ret x) Φ).trans
    (K.wp_call_inner (Pipeline.defs pcs defs₀) (Variants.lift 𝒱₀) (c.tc : Thread nD τ) Set.univ bd (Pipeline.entry p) () Φ)

end RegionRecord

end Idealize.ShloMosaic.SparseCore.Cfg

end
-- ==== Proof.KernelX.SlabRegion.lean ====
/-
  The TensorCore region that builds the slab, as a step of @main.

  @main calls the region through the SparseCore launch's extension of the body table. The region is given to the
  pipeline library as its record of a kernel region: the decided layout, the body obligation, the evidence that the core
  may wait on its staging cells (they are waited on at no call's index, which sits below everything the core owes
  during the region: it owes only the start signals of the calls to come), and the entry and exit entailments around the
  thread states. The record's rule, read at the call @main makes, gives the step: from the core's boundary, the two
  tables, the slab's array at anything, what the core owes and the region's ghost state, the call runs to the boundary,
  the tables unchanged and the slab's array at the specification's slab of them. The ghost state is the staging cells'
  launch state and the pipeline's duty tokens, funded from the rounds library's launch element.
-/
import proofs.«213528_g18287970746974_cont_8to1_881_28_alg».proof.Proof.KernelX.SlabDat
import proofs.«213528_g18287970746974_cont_8to1_881_28_alg».proof.Proof.LibInnerCall
import Idealize.ShloMosaic.Lib.Pipeline.Regions

set_option maxRecDepth 16384

noncomputable section

namespace Cert.KernelX

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

section Region

variable (Vv : (c : Dev nD) → (b : Ref sig .tc) → Buf (Elt F) ((c : Thread nD τ).loc b))
  (O : CellTallies nD τ sig (HIx 1)) (W : Waits sig (HIx 1))

/-! ## The region's thread states -/

/-- What core `c` enters the region with: the three arrays of the pipeline at their entry contents, and what it owes. -/
def slabPre (c : Dev nD) : sProp 𝕄 :=
  iprop((a2Loc c ↦{fullShare} Vv c main_arg2) ∗ (a1Loc c ↦{fullShare} Vv c main_arg1) ∗ (v0Loc c ↦{fullShare} Vv c main_v0)
    ∗ owes (T c) O W)

/-- What it leaves with: the tables as they were, the slab's array at the specification's slab of them, and what it
    owes, its recorded waits grown by pairs at no call's index only. -/
def slabPost (c : Dev nD) : sProp 𝕄 :=
  iprop((a2Loc c ↦{fullShare} Vv c main_arg2) ∗ (a1Loc c ↦{fullShare} Vv c main_arg1)
    ∗ (v0Loc c ↦{fullShare} Cert.Spec.slab (α := Elt F .f32) (Vv c main_arg2) (Vv c main_arg1))
    ∗ ∃ W', ⌜∀ p ∈ W', p ∈ W ∨ p.2 = none⌝ ∗ owes (T c) O W')

/-- The pipeline's three arrays, one by one. -/
theorem slabArrays_eq (c : Dev nD) (G : (w : Fin cfg0.W) → Buf (Elt F) ((cfg0.win w).arr.view.loc (c : Thread nD τ))) :
    (slabDats Vv O W 0 c).arrays G
      = iprop((a2Loc c ↦{fullShare} G 0) ∗ (a1Loc c ↦{fullShare} G 1) ∗ (v0Loc c ↦{fullShare} G 2)) := by
  rw [Pipeline.arrays_eq cfgs (slabDats Vv O W) 0 c arr_whole0 ((slabDats Vv O W 0 c).share_full fun _ => rfl) G, bigSep_W0]

/-- ENTRY: the arrays at the proof data's entry contents, no table, what the core owes within the proof data's bound. -/
theorem slab_entry (c : Dev nD) (R : sProp 𝕄) :
    iprop(slabPre Vv O W c ∗ R ∗ levAts (K (F := F)).L (K (F := F)).lev)
      ⊢ |={Set.univ}=> iprop((slabDats Vv O W 0 c).arrays ((slabDats Vv O W 0 c).arrAt · 0)
          ∗ Pipeline.prefHeld (pcfgs (F := F) 0).pre c (fun _ => fullShare) (slabAdm (F := F) 0).1
          ∗ (slabDats Vv O W 0 c).owesAt none 0 ∗ (BI.emp : sProp 𝕄) ∗ (BI.emp : sProp 𝕄)) := by
  rw [slabArrays_eq]
  unfold slabPre
  iintro ⟨⟨H2, H1, H0, HO⟩, -, -⟩
  imodintro
  isplitl [H2 H1 H0]
  · isplitl [H2]; · iexact H2
    isplitl [H1]; · iexact H1
    iexact H0
  isplitr
  · unfold Pipeline.prefHeld; rw [show (Finset.univ : Finset (Fin 0)) = ∅ from rfl, BI.bigSep_empty]; iempintro
  isplitl [HO]
  · unfold Pipeline.Dat.owesAt Pipeline.owesWithin
    iexists W; isplitr
    · ipureintro; exact fun p hp => Or.inl (Or.inl (Finset.mem_coe.mp hp))
    iexact HO
  isplitl [] <;> iempintro

/-- EXIT: the arrays at their final contents and what the core owes make the state the region leaves. -/
theorem slab_exit (c : Dev nD) :
    iprop((slabDats Vv O W 0 c).arrays ((slabDats Vv O W 0 c).arrAt · cfg0.N) ∗ (slabDats Vv O W 0 c).owesAt none (Fin.last cfg0.N)
        ∗ (BI.emp : sProp 𝕄) ∗ (BI.emp : sProp 𝕄))
      ⊢ |={Set.univ}=> slabPost Vv O W c := by
  rw [slabArrays_eq, slabFinal0, slabFinal1, slabFinal2]
  unfold slabPost Pipeline.Dat.owesAt Pipeline.owesWithin
  iintro ⟨⟨H2, H1, H0⟩, ⟨%W', %hW', HO⟩, -, -⟩
  imodintro
  isplitl [H2]; · iexact H2
  isplitl [H1]; · iexact H1
  isplitl [H0]; · iexact H0
  iexists W'; isplitr
  · ipureintro
    intro p hp
    rcases hW' (Finset.mem_coe.mpr hp) with h | ⟨w, s, rfl⟩
    · exact h
    · exact Or.inr rfl
  iexact HO

/-- The invariant at the first point is the scoped buffers the region does not stage; -/
theorem slab_in (c : Dev nD) (A B : sProp 𝕄) : iprop(A ∗ B ∗ Pipeline.scopedRest spec0 c) ⊢ (slabDats Vv O W 0 c).Φ 0 := by
  rw [show (slabDats Vv O W 0 c).Φ 0 = Pipeline.scopedRest spec0 c from rfl]
  iintro ⟨-, -, Hr⟩
  iexact Hr

/-- and at the last point it gives them back (the kernel has no semaphore of its own). -/
theorem slab_out (c : Dev nD) :
    (slabDats Vv O W 0 c).Φ (Fin.last cfg0.N)
      ⊢ iprop((BI.emp : sProp 𝕄) ∗ Pipeline.ownSems0 (fun k : PEmpty => (k.elim : SemLoc sig)) c ∗ Pipeline.scopedRest spec0 c) := by
  rw [show (slabDats Vv O W 0 c).Φ (Fin.last cfg0.N) = Pipeline.scopedRest spec0 c from rfl]
  unfold Pipeline.ownSems0
  rw [show (Finset.univ : Finset PEmpty) = ∅ from rfl, BI.bigSep_empty]
  iintro Hr
  isplitr; · iempintro
  isplitr; · iempintro
  iexact Hr

variable (hO : ∀ g, O g none = 0)

-- the library's record is stated over the pinned configuration: matching it takes unfolding plain definitions in a type
set_option backward.isDefEq.respectTransparency.types false in
/-- THE REGION as the pipeline library's record: the decided layout, no semaphore of the kernel's own, the body
    obligation, the wait evidence (every staging cell is waited on at no call's index, below everything the core
    owes), and the entry and exit above; nothing enters the invariant and nothing bypasses the region. -/
def slabSeg : Pipeline.RegionSeg (pcfgs (F := F)) slabAdm (slabDats Vv O W) none defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := (slab_body_obligation Vv O W c).loose
  hwaits c := Pipeline.cellsWaits_intro (Pipeline.pin (pcfgs (F := F)) slabAdm) (slabDats Vv O W) none 0 c
    fun w s t => (K (F := F)).mayWait_none _ hO
  pre := slabPre Vv O W
  post := slabPost Vv O W
  X _ := BI.emp
  Y _ := BI.emp
  Z _ := BI.emp
  hentry c := slab_entry Vv O W c _
  hin c := slab_in Vv O W c _ _
  hout c := slab_out Vv O W c
  hexit c := slab_exit Vv O W c

end Region

/-! ## The region's ghost state and its funding -/

/-- The region's ghost state on device `d`, funded at launch: its staging cells' launch state and the duty tokens of
    the transfers its pipeline issues. -/
def slabGhost (d : Dev nD) : sProp 𝕄 :=
  iprop(Pipeline.cellsGhost (Pipeline.pin (pcfgs (F := F)) slabAdm) EP 0 d ∗ Pipeline.toksInit (Pipeline.pin (pcfgs (F := F)) slabAdm) EP 0 d)

/-- The element of the staging cells' algebra it is funded from: the rounds library's launch element at the program's
    staging cells and the pipeline's transfers. -/
def uP : UK := initOf (Pipeline.cells (nD := nD) (τ := τ) cfgs cellOf_inj) (Pipeline.launchToks (nD := nD) (τ := τ) cfgs cellOf_inj)

/-- The funding: the one pipeline's ghost state on every device. -/
theorem slabGhost_fund : (BI.own (EP (F := F) uP) : sProp 𝕄) ⊢ |==> bigSep Finset.univ fun d : Dev nD => slabGhost (F := F) d := by
  have h1 : ∀ (Ψ : Fin 1 → sProp 𝕄), bigSep Finset.univ Ψ = Ψ 0 := fun Ψ =>
    bigSep_univ_eq_bigSepL [(0 : Fin 1)] (by decide) (by decide) Ψ
  have hcomb : iprop((bigSep Finset.univ fun c : Dev nD => bigSep Finset.univ fun p : Fin 1 => Pipeline.cellsGhost cfgs (EP (F := F)) p c)
        ∗ (bigSep Finset.univ fun c : Dev nD => bigSep Finset.univ fun p : Fin 1 => (Pipeline.toksInit cfgs (EP (F := F)) p c : sProp 𝕄)))
      ⊢ bigSep Finset.univ fun d : Dev nD => slabGhost (F := F) d := by
    simp only [h1]
    exact Entails.of_eq rfl
  unfold uP
  iintro Hu
  imod (Pipeline.fund_ghost cfgs (EP (F := F)) cellOf_inj) $$ Hu with ⟨Hg, Ht⟩
  imodintro
  iapply hcomb
  isplitl [Hg]; · iexact Hg
  iexact Ht

/-! ## The call inside @main -/

/-- The staging cells are pairwise distinct, at the pinned configuration. -/
theorem slabCellOf_inj : Function.Injective (Pipeline.cellOf (nD := nD) (τ := τ) (Pipeline.pin (pcfgs (F := F)) slabAdm)) := cellOf_inj

set_option backward.isDefEq.respectTransparency.types false in
set_option maxHeartbeats 1600000 in
/-- The call with the slab's array at known contents `f`. -/
theorem slab_call_at (m : (ℓ : Loc nD τ sig) → Buf (Elt F) ℓ) (d : Dev nD) (O : CellTallies nD τ sig (HIx 1)) (W : Waits sig (HIx 1))
    (hO : ∀ g, O g none = 0) (Φ : PUnit → sProp 𝕄) (f : Buf (Elt F) (v0Loc d)) :
    iprop(levAts (K (F := F)).L (K (F := F)).lev ∗ boundary (T d)
        ∗ (a2Loc d ↦{fullShare} m (a2Loc d)) ∗ (a1Loc d ↦{fullShare} m (a1Loc d)) ∗ (v0Loc d ↦{fullShare} f)
        ∗ owes (T d) O W ∗ slabGhost d
        ∗ ((boundary (T d) ∗ (a2Loc d ↦{fullShare} m (a2Loc d)) ∗ (a1Loc d ↦{fullShare} m (a1Loc d)) ∗ (v0Loc d ↦{fullShare} slabV m d)
              ∗ ∃ W', ⌜∀ p ∈ W', p ∈ W ∨ p.2 = none⌝ ∗ owes (T d) O W') -∗ Φ ⟨⟩))
      ⊢ wp frame (wpE ((K (F := F)).defs (D (F := F))) 𝒱 (T d) none) Set.univ
          (Prog.lift (TpuEff.customCall (p := Proc.tc) (Λ := SparseCore.Sig (ΛP (F := F)) 1) (SparseCore.inner (Pipeline.entry 0)) ())) Φ := by
  have hne2 : a2Loc d ≠ v0Loc d := fun h =>
    StableHlo.devRef_ne_of_ne (show (main_arg2 : Ref sig .tc) ≠ main_v0 by decide) (congrArg Prod.snd h)
  have hne1 : a1Loc d ≠ v0Loc d := fun h =>
    StableHlo.devRef_ne_of_ne (show (main_arg1 : Ref sig .tc) ≠ main_v0 by decide) (congrArg Prod.snd h)
  -- the arrays as the region finds them: the launch's, but the slab's at `f`
  let Vv : (c : Dev nD) → (b : Ref sig .tc) → Buf (Elt F) ((c : Thread nD τ).loc b) :=
    fun c b => Function.update m (v0Loc d) f ((c : Thread nD τ).loc b)
  have e2 : Vv d main_arg2 = m (a2Loc d) := Function.update_of_ne hne2 _ _
  have e1 : Vv d main_arg1 = m (a1Loc d) := Function.update_of_ne hne1 _ _
  have e0 : Vv d main_v0 = f := Function.update_self _ _ _
  have hpre : slabPre Vv O W d
      = iprop((a2Loc d ↦{fullShare} m (a2Loc d)) ∗ (a1Loc d ↦{fullShare} m (a1Loc d)) ∗ (v0Loc d ↦{fullShare} f) ∗ owes (T d) O W) := by
    unfold slabPre; rw [e2, e1, e0]
  have hpost : slabPost Vv O W d
      = iprop((a2Loc d ↦{fullShare} m (a2Loc d)) ∗ (a1Loc d ↦{fullShare} m (a1Loc d)) ∗ (v0Loc d ↦{fullShare} slabV m d)
          ∗ ∃ W', ⌜∀ p ∈ W', p ∈ W ∨ p.2 = none⌝ ∗ owes (T d) O W') := by
    unfold slabPost slabV; rw [e2, e1]
  refine BIBase.Entails.trans ?_ (SparseCore.Cfg.wp_regionSeg_in_main (pcs := pcfgs (F := F)) (a := slabAdm) (pdats := slabDats Vv O W) (ι := none)
    (phinj := slabCellOf_inj) (EP := EP) (defs₀ := defs₀) (𝒱₀ := 𝒱₀) (L := (K (F := F)).L) (lv := (K (F := F)).lev) (K := K (F := F))
    (slabSeg Vv O W hO) d none (fun _ h => by cases h) Φ)
  show _ ⊢ iprop((iprop(boundary (T d) ∗ slabPost Vv O W d)
            -∗ wp frame (wpE (Pipeline.defs (pcfgs (F := F)) defs₀) 𝒱 (T d) none) Set.univ (.ret ⟨⟩) Φ)
        ∗ boundary (T d) ∗ slabPre Vv O W d ∗ levAts (K (F := F)).L (K (F := F)).lev
        ∗ Pipeline.cellsGhost (Pipeline.pin (pcfgs (F := F)) slabAdm) EP 0 d ∗ Pipeline.toksInit (Pipeline.pin (pcfgs (F := F)) slabAdm) EP 0 d)
  rw [hpre, hpost, wp_ret]
  unfold slabGhost
  iintro ⟨Hlev, Hb, H2, H1, H0, HO, ⟨Hcg, Htk⟩, HΦ⟩
  isplitl [HΦ]
  · iintro ⟨Hb, H2, H1, H0, HO⟩
    imodintro
    iapply HΦ
    isplitl [Hb]; · iexact Hb
    isplitl [H2]; · iexact H2
    isplitl [H1]; · iexact H1
    isplitl [H0]; · iexact H0
    iexact HO
  isplitl [Hb]; · iexact Hb
  isplitl [H2 H1 H0 HO]
  · isplitl [H2]; · iexact H2
    isplitl [H1]; · iexact H1
    isplitl [H0]; · iexact H0
    iexact HO
  isplitl [Hlev]; · iexact Hlev
  isplitl [Hcg]; · iexact Hcg
  iexact Htk

/-- THE REGION'S CALL inside @main: from the level facts, the core's boundary, the two tables at the launch's contents,
    the slab's array at anything, what the core owes (nothing at no call's index) and the region's ghost state, the call
    runs to the boundary, the tables as they were, the slab's array at the specification's slab of them, and what the
    core owed, its recorded waits grown by pairs at no call's index only. -/
theorem slab_call (m : (ℓ : Loc nD τ sig) → Buf (Elt F) ℓ) (d : Dev nD) (O : CellTallies nD τ sig (HIx 1)) (W : Waits sig (HIx 1))
    (hO : ∀ g, O g none = 0) (Φ : PUnit → sProp 𝕄) :
    iprop(levAts (K (F := F)).L (K (F := F)).lev ∗ boundary (T d)
        ∗ (a2Loc d ↦{fullShare} m (a2Loc d)) ∗ (a1Loc d ↦{fullShare} m (a1Loc d)) ∗ (∃ f, v0Loc d ↦{fullShare} f)
        ∗ owes (T d) O W ∗ slabGhost d
        ∗ ((boundary (T d) ∗ (a2Loc d ↦{fullShare} m (a2Loc d)) ∗ (a1Loc d ↦{fullShare} m (a1Loc d)) ∗ (v0Loc d ↦{fullShare} slabV m d)
              ∗ ∃ W', ⌜∀ p ∈ W', p ∈ W ∨ p.2 = none⌝ ∗ owes (T d) O W') -∗ Φ ⟨⟩))
      ⊢ wp frame (wpE ((K (F := F)).defs (D (F := F))) 𝒱 (T d) none) Set.univ
          (Prog.lift (TpuEff.customCall (p := Proc.tc) (Λ := SparseCore.Sig (ΛP (F := F)) 1) (SparseCore.inner (Pipeline.entry 0)) ())) Φ := by
  iintro ⟨Hlev, Hb, H2, H1, ⟨%f, H0⟩, HO, Hg, HΦ⟩
  iapply (slab_call_at m d O W hO Φ f)
  isplitl [Hlev]; · iexact Hlev
  isplitl [Hb]; · iexact Hb
  isplitl [H2]; · iexact H2
  isplitl [H1]; · iexact H1
  isplitl [H0]; · iexact H0
  isplitl [HO]; · iexact HO
  isplitl [Hg]; · iexact Hg
  iexact HΦ

end Cert.KernelX

end
-- ==== Proof.KernelX.Pieces.lean ====
/-
  How the slab and the result split among the 32 tiles and join again.

  Tile (c, s) holds the 16 channels starting at 32 s + 16 c. For c < 2 and s < 16 these 32 ranges of 16 channels are
  pairwise disjoint and cover the 512 channels: channel k lies in the range of s = k / 32, c = (k % 32) / 16 and in no
  other. So the slab is the disjoint union of the tiles' slices of it, and the result, batch entry by batch entry, is
  the disjoint union of the tiles' slices of each entry; a points-to on the whole array is the separating conjunction of
  the points-tos on the pieces, read in either direction.
-/
import proofs.«213528_g18287970746974_cont_8to1_881_28_alg».proof.Proof.KernelX.Common

noncomputable section

namespace Cert.KernelX

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The pieces as sets of indices -/

/-- Where batch entry b's slice starts: entry b, the tile's first channel, the whole grid. -/
theorem dstOff_eq (L : grid1.Coords) : ∀ b : Fin 16, dstOff L b = ![b.val, 32 * (L 1).val + 16 * (L 0).val, 0, 0]
  | ⟨0, _⟩ => k1_off2_eq L
  | ⟨1, _⟩ => k1_off3_eq L
  | ⟨2, _⟩ => k1_off4_eq L
  | ⟨3, _⟩ => k1_off5_eq L
  | ⟨4, _⟩ => k1_off6_eq L
  | ⟨5, _⟩ => k1_off7_eq L
  | ⟨6, _⟩ => k1_off8_eq L
  | ⟨7, _⟩ => k1_off9_eq L
  | ⟨8, _⟩ => k1_off10_eq L
  | ⟨9, _⟩ => k1_off11_eq L
  | ⟨10, _⟩ => k1_off12_eq L
  | ⟨11, _⟩ => k1_off13_eq L
  | ⟨12, _⟩ => k1_off14_eq L
  | ⟨13, _⟩ => k1_off15_eq L
  | ⟨14, _⟩ => k1_off16_eq L
  | ⟨15, _⟩ => k1_off17_eq L
  | ⟨_ + 16, h⟩ => absurd h (Nat.not_lt.2 (Nat.le_add_left _ _))

/-- A tile's slice of the slab is its rectangle of the whole array. -/
theorem srcSet_eq (L : grid1.Coords) :
    ((srcM L).view.set : Finset S512x50x50.Idx)
      = (Rect.unit (s := S512x50x50) (k1_off1 L) S16x50x50.size (k1_off1_inb L)).set :=
  View.set_slice_whole main_v0_scv _

/-- An index of the slab lies in a tile's slice exactly when its channel lies in the tile's range. -/
theorem mem_srcSet (L : grid1.Coords) (x : S512x50x50.Idx) :
    x ∈ ((srcM L).view.set : Finset S512x50x50.Idx)
      ↔ 32 * (L 1).val + 16 * (L 0).val ≤ (x 0).val ∧ (x 0).val < 32 * (L 1).val + 16 * (L 0).val + 16 := by
  rw [srcSet_eq, Rect.mem_set_unit, k1_off1_eq]
  constructor
  · intro h; exact h 0
  · intro h a
    match a with
    | ⟨0, _⟩ => exact h
    | ⟨1, h1⟩ =>
      have hx : (x ⟨1, h1⟩).val < 50 := (x ⟨1, h1⟩).isLt
      exact ⟨Nat.zero_le _, show (x ⟨1, h1⟩).val < 0 + 50 by omega⟩
    | ⟨2, h2⟩ =>
      have hx : (x ⟨2, h2⟩).val < 50 := (x ⟨2, h2⟩).isLt
      exact ⟨Nat.zero_le _, show (x ⟨2, h2⟩).val < 0 + 50 by omega⟩

/-- A tile's slice of a batch entry of the result is its rectangle of the whole array (the dropped axis of size one
    does not change which elements the slice holds). -/
theorem dstSet_eq (L : grid1.Coords) (b : Fin 16) :
    ((dstM L b).view.set : Finset S16x512x50x50.Idx)
      = (Rect.unit (s := S16x512x50x50) (dstOff L b) S1x16x50x50.size (dstOff_inb L b)).set :=
  (View.set_reshape _ _).trans (View.set_slice_whole main_v1_scv _)

/-- An index of the result lies in a tile's slice of batch entry b exactly when its batch coordinate is b and its
    channel lies in the tile's range. -/
theorem mem_dstSet (L : grid1.Coords) (b : Fin 16) (y : S16x512x50x50.Idx) :
    y ∈ ((dstM L b).view.set : Finset S16x512x50x50.Idx)
      ↔ (y 0).val = b.val ∧ 32 * (L 1).val + 16 * (L 0).val ≤ (y 1).val
          ∧ (y 1).val < 32 * (L 1).val + 16 * (L 0).val + 16 := by
  rw [dstSet_eq, Rect.mem_set_unit, dstOff_eq]
  constructor
  · intro h
    have h0 : b.val ≤ (y 0).val ∧ (y 0).val < b.val + 1 := h 0
    have h1 : 32 * (L 1).val + 16 * (L 0).val ≤ (y 1).val ∧ (y 1).val < 32 * (L 1).val + 16 * (L 0).val + 16 := h 1
    exact ⟨by omega, h1⟩
  · rintro ⟨h0, h1⟩ a
    match a with
    | ⟨0, ha⟩ =>
      have h0' : (y ⟨0, ha⟩).val = b.val := h0
      exact show b.val ≤ (y ⟨0, ha⟩).val ∧ (y ⟨0, ha⟩).val < b.val + 1 by omega
    | ⟨1, _⟩ => exact h1
    | ⟨2, ha⟩ =>
      have hy : (y ⟨2, ha⟩).val < 50 := (y ⟨2, ha⟩).isLt
      exact ⟨Nat.zero_le _, show (y ⟨2, ha⟩).val < 0 + 50 by omega⟩
    | ⟨3, ha⟩ =>
      have hy : (y ⟨3, ha⟩).val < 50 := (y ⟨3, ha⟩).isLt
      exact ⟨Nat.zero_le _, show (y ⟨3, ha⟩).val < 0 + 50 by omega⟩

/-! ## The 32 slices of the slab: disjoint, and all of it -/

/-- The slice of the slab of tile (c, s). -/
abbrev srcSet (t : Fin 2 × Fin 16) : Finset S512x50x50.Idx := (srcM (coordsV t.1 t.2)).view.set

theorem mem_srcSet' (t : Fin 2 × Fin 16) (x : S512x50x50.Idx) :
    x ∈ srcSet t ↔ 32 * t.2.val + 16 * t.1.val ≤ (x 0).val ∧ (x 0).val < 32 * t.2.val + 16 * t.1.val + 16 :=
  mem_srcSet (coordsV t.1 t.2) x

/-- Two tiles whose channel ranges share a channel are the same tile. -/
theorem tile_unique {c c' s s' k : Nat} (hc : c < 2) (hc' : c' < 2)
    (h : 32 * s + 16 * c ≤ k ∧ k < 32 * s + 16 * c + 16) (h' : 32 * s' + 16 * c' ≤ k ∧ k < 32 * s' + 16 * c' + 16) :
    c = c' ∧ s = s' := by
  omega

theorem src_disjoint : ∀ t ∈ (Finset.univ : Finset (Fin 2 × Fin 16)), ∀ t' ∈ (Finset.univ : Finset (Fin 2 × Fin 16)),
    t ≠ t' → Disjoint (srcSet t) (srcSet t') := by
  intro t _ t' _ hne
  refine Finset.disjoint_left.mpr fun x hx hx' => hne ?_
  have e := tile_unique t.1.isLt t'.1.isLt ((mem_srcSet' t x).mp hx) ((mem_srcSet' t' x).mp hx')
  exact Prod.ext (Fin.ext e.1) (Fin.ext e.2)

theorem src_cover : (Finset.univ : Finset (Fin 2 × Fin 16)).biUnion srcSet = Finset.univ := by
  refine Finset.eq_univ_iff_forall.mpr fun x => ?_
  have hx : (x 0).val < 512 := (x 0).isLt
  refine Finset.mem_biUnion.mpr ⟨(⟨(x 0).val % 32 / 16, by omega⟩, ⟨(x 0).val / 32, by omega⟩), Finset.mem_univ _,
    (mem_srcSet' _ x).mpr ?_⟩
  show 32 * ((x 0).val / 32) + 16 * ((x 0).val % 32 / 16) ≤ (x 0).val
    ∧ (x 0).val < 32 * ((x 0).val / 32) + 16 * ((x 0).val % 32 / 16) + 16
  constructor <;> omega

/-! ## The 32 × 16 slices of the result: disjoint, and all of it -/

/-- The slice of batch entry b of the result of tile (c, s). -/
abbrev dstSet (u : (Fin 2 × Fin 16) × Fin 16) : Finset S16x512x50x50.Idx := (dstM (coordsV u.1.1 u.1.2) u.2).view.set

theorem mem_dstSet' (u : (Fin 2 × Fin 16) × Fin 16) (y : S16x512x50x50.Idx) :
    y ∈ dstSet u ↔ (y 0).val = u.2.val ∧ 32 * u.1.2.val + 16 * u.1.1.val ≤ (y 1).val
      ∧ (y 1).val < 32 * u.1.2.val + 16 * u.1.1.val + 16 :=
  mem_dstSet (coordsV u.1.1 u.1.2) u.2 y

theorem dst_disjoint : ∀ u ∈ (Finset.univ : Finset ((Fin 2 × Fin 16) × Fin 16)),
    ∀ u' ∈ (Finset.univ : Finset ((Fin 2 × Fin 16) × Fin 16)), u ≠ u' → Disjoint (dstSet u) (dstSet u') := by
  intro u _ u' _ hne
  refine Finset.disjoint_left.mpr fun y hy hy' => hne ?_
  have h := (mem_dstSet' u y).mp hy
  have h' := (mem_dstSet' u' y).mp hy'
  have e := tile_unique u.1.1.isLt u'.1.1.isLt h.2 h'.2
  exact Prod.ext (Prod.ext (Fin.ext e.1) (Fin.ext e.2)) (Fin.ext (h.1.symm.trans h'.1))

theorem dst_cover : (Finset.univ : Finset ((Fin 2 × Fin 16) × Fin 16)).biUnion dstSet = Finset.univ := by
  refine Finset.eq_univ_iff_forall.mpr fun y => ?_
  have hy0 : (y 0).val < 16 := (y 0).isLt
  have hy1 : (y 1).val < 512 := (y 1).isLt
  refine Finset.mem_biUnion.mpr ⟨((⟨(y 1).val % 32 / 16, by omega⟩, ⟨(y 1).val / 32, by omega⟩), ⟨(y 0).val, hy0⟩),
    Finset.mem_univ _, (mem_dstSet' _ y).mpr ?_⟩
  show (y 0).val = (y 0).val ∧ 32 * ((y 1).val / 32) + 16 * ((y 1).val % 32 / 16) ≤ (y 1).val
    ∧ (y 1).val < 32 * ((y 1).val / 32) + 16 * ((y 1).val % 32 / 16) + 16
  refine ⟨rfl, ?_, ?_⟩ <;> omega

/-! ## A points-to on a whole array is the separating conjunction of the points-tos on the pieces -/

theorem v0_pieces (d : Dev nD) (g : Buf (Elt F) (v0Loc d)) :
    (v0Loc d ↦{fullShare} g : sProp 𝕄)
      = bigSep Finset.univ fun c : Fin 2 => bigSep Finset.univ fun i : Fin 16 => v0Loc d ↦[srcSet (c, i)]{fullShare} g := by
  have h : (v0Loc d ↦[(Finset.univ : Finset (Fin 2 × Fin 16)).biUnion srcSet]{fullShare} g : sProp 𝕄)
      = bigSep Finset.univ fun t : Fin 2 × Fin 16 => v0Loc d ↦[srcSet t]{fullShare} g :=
    pointsTo_biUnion Finset.univ (ℓ := v0Loc d) srcSet src_disjoint
  rw [src_cover] at h
  exact h.trans (bigSep_univ_prod fun t : Fin 2 × Fin 16 => (v0Loc d ↦[srcSet t]{fullShare} g : sProp 𝕄))

theorem v1_pieces (d : Dev nD) (g : Buf (Elt F) (v1Loc d)) :
    (v1Loc d ↦{fullShare} g : sProp 𝕄)
      = bigSep Finset.univ fun c : Fin 2 => bigSep Finset.univ fun i : Fin 16 => bigSep Finset.univ fun b : Fin 16 =>
          v1Loc d ↦[dstSet ((c, i), b)]{fullShare} g := by
  have h : (v1Loc d ↦[(Finset.univ : Finset ((Fin 2 × Fin 16) × Fin 16)).biUnion dstSet]{fullShare} g : sProp 𝕄)
      = bigSep Finset.univ fun u : (Fin 2 × Fin 16) × Fin 16 => v1Loc d ↦[dstSet u]{fullShare} g :=
    pointsTo_biUnion Finset.univ (ℓ := v1Loc d) dstSet dst_disjoint
  rw [dst_cover] at h
  refine h.trans ((bigSep_univ_prod fun u : (Fin 2 × Fin 16) × Fin 16 => (v1Loc d ↦[dstSet u]{fullShare} g : sProp 𝕄)).trans ?_)
  exact bigSep_univ_prod fun t : Fin 2 × Fin 16 =>
    (bigSep Finset.univ fun b : Fin 16 => v1Loc d ↦[dstSet (t, b)]{fullShare} g : sProp 𝕄)

/-- The result at unknown contents splits into pieces at unknown contents. -/
theorem v1_some_pieces (d : Dev nD) :
    iprop(∃ f, v1Loc d ↦{fullShare} f)
      ⊢ (bigSep Finset.univ fun c : Fin 2 => bigSep Finset.univ fun i : Fin 16 => bigSep Finset.univ fun b : Fin 16 =>
          iprop(∃ f, v1Loc d ↦[dstSet ((c, i), b)]{fullShare} f) : sProp 𝕄) := by
  refine exists_elim fun f => ?_
  rw [v1_pieces d f]
  exact bigSep_mono fun c _ => bigSep_mono fun i _ => bigSep_mono fun b _ =>
    exists_intro (Φ := fun f => (v1Loc d ↦[dstSet ((c, i), b)]{fullShare} f : sProp 𝕄)) f

/-- A conjunction under the two tile indices separates. -/
theorem bigSep2_sep (A B : Fin 2 → Fin 16 → sProp 𝕄) :
    (bigSep Finset.univ fun c : Fin 2 => bigSep Finset.univ fun i : Fin 16 => iprop(A c i ∗ B c i))
      = iprop((bigSep Finset.univ fun c : Fin 2 => bigSep Finset.univ fun i : Fin 16 => A c i)
          ∗ bigSep Finset.univ fun c : Fin 2 => bigSep Finset.univ fun i : Fin 16 => B c i) := by
  rw [← bigSep_sep']
  exact bigSep_congr fun c _ => bigSep_sep' _ _ _

/-! ## What the call's SparseCores are handed and hand back -/

theorem st_eq (m : (ℓ : Loc nD τ sig) → Buf (Elt F) ℓ) (d : Dev nD) :
    (bigSep Finset.univ fun c : Fin ((K (F := F)).nCore 0) => (P m).st 0 d c : sProp 𝕄)
      = bigSep Finset.univ fun c : Fin 2 => bigSep Finset.univ fun i : Fin 16 =>
          iprop((v0Loc d ↦[srcSet (c, i)]{fullShare} slabV m d)
            ∗ bigSep Finset.univ fun b : Fin 16 => iprop(∃ f, v1Loc d ↦[dstSet ((c, i), b)]{fullShare} f)) := rfl

theorem dn_eq (m : (ℓ : Loc nD τ sig) → Buf (Elt F) ℓ) (d : Dev nD) :
    (bigSep Finset.univ fun c : Fin ((K (F := F)).nCore 0) => (P m).dn 0 d c : sProp 𝕄)
      = bigSep Finset.univ fun c : Fin 2 => bigSep Finset.univ fun i : Fin 16 =>
          iprop((v0Loc d ↦[srcSet (c, i)]{fullShare} slabV m d)
            ∗ bigSep Finset.univ fun b : Fin 16 => v1Loc d ↦[dstSet ((c, i), b)]{fullShare} outV m d) := rfl

theorem st0_intro (m : (ℓ : Loc nD τ sig) → Buf (Elt F) ℓ) (d : Dev nD) :
    iprop((v0Loc d ↦{fullShare} slabV m d) ∗ (∃ f, v1Loc d ↦{fullShare} f))
      ⊢ (bigSep Finset.univ fun c : Fin ((K (F := F)).nCore 0) => (P m).st 0 d c : sProp 𝕄) := by
  rw [st_eq, bigSep2_sep, ← v0_pieces]
  iintro ⟨H0, H1⟩
  isplitl [H0]; · iexact H0
  iapply (v1_some_pieces d); iexact H1

theorem dn0_elim (m : (ℓ : Loc nD τ sig) → Buf (Elt F) ℓ) (d : Dev nD) :
    (bigSep Finset.univ fun c : Fin ((K (F := F)).nCore 0) => (P m).dn 0 d c : sProp 𝕄)
      ⊢ iprop((v0Loc d ↦{fullShare} slabV m d) ∗ (v1Loc d ↦{fullShare} outV m d)) := by
  rw [dn_eq, bigSep2_sep, ← v0_pieces, ← v1_pieces]

theorem vecSplit (m : (ℓ : Loc nD τ sig) → Buf (Elt F) ℓ) : (K (F := F)).VecSplit' (P m) 0 := by
  intro d c
  show (bigSep Finset.univ fun i : Fin ((K (F := F)).nSub 0) => goRes m d (tileL c i))
    ⊢ |={Set.univ}=> iprop((bigSep Finset.univ fun i : Fin ((K (F := F)).nSub 0) => goRes m d (tileL c i))
      ∗ ((bigSep Finset.univ fun i : Fin ((K (F := F)).nSub 0) => tdRes m d (tileL c i))
        -∗ bigSep Finset.univ fun i : Fin ((K (F := F)).nSub 0) => tdRes m d (tileL c i)))
  iintro H; imodintro
  isplitl [H]; · iexact H
  iintro H; iexact H

end Cert.KernelX

end
-- ==== Proof.KernelX.Run.lean ====
/-
  The kernel's run: the launch applied to the proofs of the parts — a tile's task, the TensorCore region that builds
  the slab, and the split of the two arrays among the tiles.
-/
import proofs.«213528_g18287970746974_cont_8to1_881_28_alg».proof.Proof.KernelX.Launch
import proofs.«213528_g18287970746974_cont_8to1_881_28_alg».proof.Proof.KernelX.TileBody
import proofs.«213528_g18287970746974_cont_8to1_881_28_alg».proof.Proof.KernelX.SlabRegion
import proofs.«213528_g18287970746974_cont_8to1_881_28_alg».proof.Proof.KernelX.Pieces

noncomputable section

namespace Cert.KernelX

open Cert.Kernel Cert.Kernel.Gen
open Idealize.ShloMosaic Idealize.SL.Sem

variable {F : FTy → Type} [FloatOps F]

/-- Every weakly fair execution of the device's threads — @main on the TensorCore, the two sequencers, the 32 tiles —
    terminates, nothing faulting, with the result at the specification of the launch's two weight tables and the three
    arguments unchanged. -/
theorem run [∀ e, Nonempty (Elt F e)] (m : (ℓ : Loc nD τ sig) → Buf (Elt F) ℓ) (ρ : Dev nD → PrngReg) :
    θ_run (Cert.Kernel.defs (F := F)) (Cert.Kernel.threads (F := F)) ⟨m, fun _ => 0, ρ⟩ (fun r => ∀ c : Dev nD,
      r.2.mem ((c.tc : Thread nD τ).loc main_v1) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of_parts m ρ (slabGhost (F := F)) uP (slabGhost_fund (F := F))
    (fun d L O W hO => tile_body m d L O W hO) (fun d O W hO Φ => slab_call m d O W hO Φ)
    (st0_intro m) (dn0_elim m) (vecSplit m)

end Cert.KernelX

end
-- ==== Proof.KernelIdealX.Common.lean ====
/-
  The program as the SparseCore launch theorem sees it, the ghost state, and what the handshakes of its one
  SparseCore call carry.

  The program: on the TensorCore, one region builds the slab (512 channels over a 50 × 50 grid) from the two weight
  tables; then one vector-subcore call on 2 SparseCores × 16 tiles: tile (c, s) takes the 16 channels starting at
  32 s + 16 c of the slab into its own memory and copies them to those channels of each of the 16 batch entries of the
  result. The 32 tiles' channel ranges are disjoint and cover the 512 channels, so each tile is handed exactly its 16
  channels of the slab and its 16 × 16 channels of the result, and hands them back with the result's at the
  specification's contents.
-/
import proofs.«213528_g18287970746974_cont_8to1_881_28_alg».proof.Defs
import Idealize.ShloMosaic.Lib.SparseCore.Launch
import Idealize.ShloMosaic.Lib.StableHlo.Run
import Idealize.ShloMosaic.Lib.Pipeline.Kit
import Idealize.ShloMosaic.Lib.Tactic
import proofs.«213528_g18287970746974_cont_8to1_881_28_alg».proof.Proof.Gen.KernelIdeal
import proofs.«213528_g18287970746974_cont_8to1_881_28_alg».proof.Proof.Gen.KernelIdeal.Skeleton
import proofs.«213528_g18287970746974_cont_8to1_881_28_alg».proof.Proof.Gen.KernelIdeal.Launch
import proofs.«213528_g18287970746974_cont_8to1_881_28_alg».proof.Proof.Spec

noncomputable section

namespace Cert.KernelIdealX

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore region's staging cells, the transfers' counters -/

abbrev UH : Type := URounds (GSem nD τ sig) ℕ
abbrev UK : Type := URounds (GSem nD τ sig) Unit
abbrev UU : Type := UH × (UK × Counters)

local notation "𝕄" => MT nD τ sig (HIx 1) (Elt F) ℕ UU ℕ

/-- The handshakes' rounds: the left factor. -/
abbrev EH : Emb UH (MT nD τ sig (HIx 1) (Elt F) ℕ UU ℕ) := embL
/-- The region's staging cells: the left factor of the right factor. -/
def EP : Emb UK (MT nD τ sig (HIx 1) (Elt F) ℕ UU ℕ) :=
  (Emb.inl : Emb UK (UK × Counters)).trans (embR : Emb (UK × Counters) (MT nD τ sig (HIx 1) (Elt F) ℕ UU ℕ))

instance EP_landsIn : (EP : Emb UK 𝕄).LandsIn (upEmb : UEmb _ 𝕄) := by unfold EP embR; infer_instance

/-! ## The launch memory and the arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev v0Loc (d : Dev nD) : Loc nD τ sig := (SparseCore.T d).loc main_v0
abbrev v1Loc (d : Dev nD) : Loc nD τ sig := (SparseCore.T d).loc main_v1

/-- The slab the region leaves, and the result the call leaves: the specification at the launch's weight tables
    (`main_arg2` the column table, `main_arg1` the row table). -/
def slabV (d : Dev nD) : Buf (Elt F) (v0Loc d) := Cert.Spec.slab (α := Elt F .f32) (m (a2Loc d)) (m (a1Loc d))
def outV (d : Dev nD) : Buf (Elt F) (v1Loc d) := Cert.Spec.out (α := Elt F .f32) (m (a2Loc d)) (m (a1Loc d))

/-! ## A tile's pieces, spelt as the kernel slices them -/

def coordsV (c : Fin (grid1.bound 0)) (s : Fin (grid1.bound 1)) : grid1.Coords :=
  fun | 0 => c | 1 => s | ⟨_ + 2, h⟩ => absurd h (Nat.not_lt.2 (Nat.le_add_left _ _))

/-- The tile's 16 channels of the slab. -/
abbrev srcM (L : grid1.Coords) : Memref sig .scVector .hbm S16x50x50 .f32 :=
  (Memref.whole main_v0_scv : Memref sig .scVector .hbm S512x50x50 .f32).slice (Rect.unit (s := S512x50x50) (k1_off1 L) S16x50x50.size (k1_off1_inb L)) (fun _ => rfl)

/-- Where the tile's channels of batch entry `b` start, as the kernel computes it. -/
abbrev dstOff (L : grid1.Coords) : Fin 16 → (Fin 4 → Nat)
  | ⟨0, _⟩ => k1_off2 L
  | ⟨1, _⟩ => k1_off3 L
  | ⟨2, _⟩ => k1_off4 L
  | ⟨3, _⟩ => k1_off5 L
  | ⟨4, _⟩ => k1_off6 L
  | ⟨5, _⟩ => k1_off7 L
  | ⟨6, _⟩ => k1_off8 L
  | ⟨7, _⟩ => k1_off9 L
  | ⟨8, _⟩ => k1_off10 L
  | ⟨9, _⟩ => k1_off11 L
  | ⟨10, _⟩ => k1_off12 L
  | ⟨11, _⟩ => k1_off13 L
  | ⟨12, _⟩ => k1_off14 L
  | ⟨13, _⟩ => k1_off15 L
  | ⟨14, _⟩ => k1_off16 L
  | ⟨15, _⟩ => k1_off17 L
  | ⟨_ + 16, h⟩ => absurd h (Nat.not_lt.2 (Nat.le_add_left _ _))

theorem dstOff_inb (L : grid1.Coords) : ∀ (b : Fin 16) (a : Fin 4), (dstOff L b) a + S1x16x50x50.size a ≤ S16x512x50x50.size a
  | ⟨0, _⟩ => k1_off2_inb L
  | ⟨1, _⟩ => k1_off3_inb L
  | ⟨2, _⟩ => k1_off4_inb L
  | ⟨3, _⟩ => k1_off5_inb L
  | ⟨4, _⟩ => k1_off6_inb L
  | ⟨5, _⟩ => k1_off7_inb L
  | ⟨6, _⟩ => k1_off8_inb L
  | ⟨7, _⟩ => k1_off9_inb L
  | ⟨8, _⟩ => k1_off10_inb L
  | ⟨9, _⟩ => k1_off11_inb L
  | ⟨10, _⟩ => k1_off12_inb L
  | ⟨11, _⟩ => k1_off13_inb L
  | ⟨12, _⟩ => k1_off14_inb L
  | ⟨13, _⟩ => k1_off15_inb L
  | ⟨14, _⟩ => k1_off16_inb L
  | ⟨15, _⟩ => k1_off17_inb L
  | ⟨_ + 16, h⟩ => absurd h (Nat.not_lt.2 (Nat.le_add_left _ _))

/-- The tile's 16 channels of batch entry `b` of the result. -/
abbrev dstM (L : grid1.Coords) (b : Fin 16) : Memref sig .scVector .hbm S16x50x50 .f32 :=
  ((Memref.whole main_v1_scv : Memref sig .scVector .hbm S16x512x50x50 .f32).slice (Rect.unit (s := S16x512x50x50) (dstOff L b) S1x16x50x50.size (dstOff_inb L b)) (fun _ => rfl)).squeeze S16x50x50 squeezes_S1x16x50x50_S16x50x50

/-- What a tile is handed: its channels of the slab at the slab's contents, its channels of every batch entry of the
    result at whatever they hold; -/
def goRes (d : Dev nD) (L : grid1.Coords) : sProp 𝕄 :=
  iprop((v0Loc d ↦[(srcM L).view.set]{fullShare} slabV m d)
    ∗ bigSep Finset.univ fun b : Fin 16 => iprop(∃ f, v1Loc d ↦[(dstM L b).view.set]{fullShare} f))
/-- and what it hands back: the same, the result's channels at the specification. -/
def tdRes (d : Dev nD) (L : grid1.Coords) : sProp 𝕄 :=
  iprop((v0Loc d ↦[(srcM L).view.set]{fullShare} slabV m d)
    ∗ bigSep Finset.univ fun b : Fin 16 => v1Loc d ↦[(dstM L b).view.set]{fullShare} outV m d)

/-- The tile (c, i) of call 0 as a grid point. -/
abbrev tileL (c : Fin ((K (F := F)).nCore 0)) (i : Fin ((K (F := F)).nSub 0)) : grid1.Coords :=
  coordsV (Fin.cast nCore_zero c) (Fin.cast nSub_zero i)

/-- Call 0's payloads: a SparseCore is handed its 16 tiles' pieces and hands them back; the kernel consumes nothing of
    the launch's. -/
def P : (K (F := F)).Pay (nD := nD) (Val := Elt F) (Name := ℕ) (U := UU) where
  st := fun q d c => match q with | 0 => bigSep Finset.univ fun i : Fin ((K (F := F)).nSub 0) => goRes m d (tileL c i)
  dn := fun q d c => match q with | 0 => bigSep Finset.univ fun i : Fin ((K (F := F)).nSub 0) => tdRes m d (tileL c i)
  go := fun q d c i => match q with | 0 => goRes m d (tileL c i)
  td := fun q d c i => match q with | 0 => tdRes m d (tileL c i)
  x := fun _ _ => iprop(emp)

instance goRes_storable (d : Dev nD) (L : grid1.Coords) : BI.Storable (upEmb : UEmb _ 𝕄) (goRes m d L) := by
  unfold goRes; infer_instance
instance tdRes_storable (d : Dev nD) (L : grid1.Coords) : BI.Storable (upEmb : UEmb _ 𝕄) (tdRes m d L) := by
  unfold tdRes; infer_instance

instance P_storable : (P (F := F) m).IsStorable where
  st q d c := match q with | 0 => (inferInstance : BI.Storable (upEmb : UEmb _ 𝕄) (bigSep Finset.univ fun i : Fin ((K (F := F)).nSub 0) => goRes m d (tileL c i)))
  dn q d c := match q with | 0 => (inferInstance : BI.Storable (upEmb : UEmb _ 𝕄) (bigSep Finset.univ fun i : Fin ((K (F := F)).nSub 0) => tdRes m d (tileL c i)))
  go q d c i := match q with | 0 => (inferInstance : BI.Storable (upEmb : UEmb _ 𝕄) (goRes m d (tileL c i)))
  td q d c i := match q with | 0 => (inferInstance : BI.Storable (upEmb : UEmb _ 𝕄) (tdRes m d (tileL c i)))

end Cert.KernelIdealX

end
-- ==== Proof.KernelIdealX.Launch.lean ====
/-
  The launch: the program's run from the proofs of its parts.

  The parts proved elsewhere enter as hypotheses, each stated here once: a tile's task (`TileBodyStmt`), the
  TensorCore region that builds the slab (`SlabCallStmt`, with the ghost state it is funded from), and how the two
  arrays split among the tiles and join again (`St0Stmt`, `Dn0Stmt`). From them: the launch theorem's obligation
  for the one vector-subcore call, the launch element of the ghost state, @main on the TensorCore — the region, then
  the call —, how the final memory reads the claim, and the run: every weakly fair execution of the device's threads
  terminates with the result at the specification and the three arguments unchanged.
-/
import proofs.«213528_g18287970746974_cont_8to1_881_28_alg».proof.Proof.KernelIdealX.Common

noncomputable section

namespace Cert.KernelIdealX

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The parts, as statements -/

/-- A tile's task at grid point `L`: from its pieces of the two arrays, its scoped storage and what it owes, the
    kernel's body runs to the pieces with the result's at the specification. -/
def TileBodyStmt : Prop :=
  ∀ (d : Dev nD) (L : grid1.Coords) (O : CellTallies nD τ sig (HIx 1)) (W : Waits sig (HIx 1)), (∀ g, O g none = 0) →
    iprop(levAts (K (F := F)).L (K (F := F)).lev ∗ emp ∗ goRes m d L
        ∗ scopedBufs (V d ((L 0).castLE hcore1) ((L 1).castLE hsub1)) ∗ scopedSems0 (V d ((L 0).castLE hcore1) ((L 1).castLE hsub1))
        ∗ owes (V d ((L 0).castLE hcore1) ((L 1).castLE hsub1)) O W)
      ⊢ wp frame (wpE (defs₀ (F := F)) 𝒱₀ (V d ((L 0).castLE hcore1) ((L 1).castLE hsub1)) none) Set.univ
          (cc1__bcast_body L (Memref.whole main_v0_scv) (Memref.isWhole_whole _) (Memref.whole main_v1_scv) (Memref.isWhole_whole _)
            (Memref.whole cc1_scratch0) (Memref.isWhole_whole _) cc1_scratch1 cc1_scoped0)
          fun _ => iprop(tdRes m d L ∗ scopedBufs (V d ((L 0).castLE hcore1) ((L 1).castLE hsub1)) ∗ scopedSems0 (V d ((L 0).castLE hcore1) ((L 1).castLE hsub1))
            ∗ ∃ W', ⌜∀ p ∈ W', p ∈ W ∨ p.2 = none⌝ ∗ owes (V d ((L 0).castLE hcore1) ((L 1).castLE hsub1)) O W')

/-- The TensorCore region, entered from @main with the region's ghost state `SG d`: the slab ends at the
    specification, the weight tables are kept, the TensorCore owes what it owed. -/
def SlabCallStmt (SG : Dev nD → sProp 𝕄) : Prop :=
  ∀ (d : Dev nD) (O : CellTallies nD τ sig (HIx 1)) (W : Waits sig (HIx 1)), (∀ g, O g none = 0) → ∀ (Φ : PUnit → sProp 𝕄),
    iprop(levAts (K (F := F)).L (K (F := F)).lev ∗ boundary (T d)
        ∗ (a2Loc d ↦{fullShare} m (a2Loc d)) ∗ (a1Loc d ↦{fullShare} m (a1Loc d)) ∗ (∃ f, v0Loc d ↦{fullShare} f)
        ∗ owes (T d) O W ∗ SG d
        ∗ ((boundary (T d) ∗ (a2Loc d ↦{fullShare} m (a2Loc d)) ∗ (a1Loc d ↦{fullShare} m (a1Loc d)) ∗ (v0Loc d ↦{fullShare} slabV m d)
              ∗ ∃ W', ⌜∀ p ∈ W', p ∈ W ∨ p.2 = none⌝ ∗ owes (T d) O W') -∗ Φ ⟨⟩))
      ⊢ wp frame (wpE ((K (F := F)).defs (D (F := F))) 𝒱 (T d) none) Set.univ
          (Prog.lift (TpuEff.customCall (p := Proc.tc) (Λ := SparseCore.Sig (ΛP (F := F)) 1) (SparseCore.inner (Pipeline.entry 0)) ())) Φ

/-- The call's operands, for both SparseCores, out of the two arrays whole; -/
def St0Stmt : Prop :=
  ∀ d : Dev nD, iprop((v0Loc d ↦{fullShare} slabV m d) ∗ (∃ f, v1Loc d ↦{fullShare} f))
      ⊢ (bigSep Finset.univ fun c : Fin ((K (F := F)).nCore 0) => (P m).st 0 d c : sProp 𝕄)
/-- and the arrays whole again out of its results. -/
def Dn0Stmt : Prop :=
  ∀ d : Dev nD, (bigSep Finset.univ fun c : Fin ((K (F := F)).nCore 0) => (P m).dn 0 d c : sProp 𝕄)
      ⊢ iprop((v0Loc d ↦{fullShare} slabV m d) ∗ (v1Loc d ↦{fullShare} outV m d))

/-! ## The launch theorem's obligation for the call -/

theorem defs₀_vector (c : Fin τ.nSC) (s : Fin τ.nSub) :
    defs₀ (F := F) (.scVector c s) 1 ()
      = SparseCore.onTile hcore1 hsub1 (fun c s => cc1__bcast_body (coordsV c s)
          (Memref.whole main_v0_scv) (Memref.isWhole_whole _) (Memref.whole main_v1_scv) (Memref.isWhole_whole _)
          (Memref.whole cc1_scratch0) (Memref.isWhole_whole _) cc1_scratch1 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htile : TileBodyStmt m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (htile d (coordsV ⟨_, hc.1⟩ ⟨_, hc.2⟩) O W hO).trans (wp_mono frame _ _ fun _ => obl_post)

/-! ## The launch element: the handshakes' rounds and the region's cells; nothing of the SparseCore kernel's own -/

def u₀ (uP : UK) : UU := (initOf (K (F := F)).hsCells (K (F := F)).hsToks, (uP, 1))

omit [FloatOps F] in
theorem bigSep_emp' {I : Type} (s : Finset I) : (bigSep s fun _ => iprop(emp)) = (iprop(emp) : sProp 𝕄) := bigSep_emp_const s

theorem hu₀ (SG : Dev nD → sProp 𝕄) (uP : UK)
    (hfund : (BI.own ((EP (F := F)) uP) : sProp 𝕄) ⊢ |==> bigSep Finset.univ SG) :
    (ownU (u₀ (F := F) uP) : sProp 𝕄)
      ⊢ |={Set.univ}=> iprop(BI.own (EH (initOf (K (F := F)).hsCells (K (F := F)).hsToks)) ∗ (bigSep Finset.univ SG)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UK × Counters) 𝕄) uP (1 : Counters)) $$ HR
  icases H2 with ⟨HP, -⟩
  imod (show (BI.own (((Emb.inl : Emb UK (UK × Counters)).trans (embR : Emb (UK × Counters) 𝕄)) uP) : sProp 𝕄) ⊢ |==> bigSep Finset.univ SG from hfund) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2)
          ∗ (v0Loc d ↦{fullShare} W main_v0) ∗ (v1Loc d ↦{fullShare} W main_v1)) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

omit [FloatOps F] in
/-- What the TensorCore owes before call 0 is all at a call's index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

omit [FloatOps F] in
/-- The TensorCore's state before call 0 opens on what it owes. -/
theorem tcSt_split (d : Dev nD) (n : ℕ) : ∃ R : sProp 𝕄,
    (K (F := F)).tcSt (EH (F := F)) d n
      = iprop((∃ W, ⌜(K (F := F)).WBelow (T d) W (8 * n)⌝ ∗ owes (T d) ((K (F := F)).Otc d n) W) ∗ R) := ⟨_, rfl⟩

/-- What @main leaves the claim: the arguments at their launch contents, the result at the specification. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (v1Loc d ↦{fullShare} outV m d))

/-- @main on device `d`'s TensorCore: the region (the slab from the two tables), then the call (the slab and the
    result to the tiles and back); the arguments kept throughout. -/
theorem hmain (SG : Dev nD → sProp 𝕄) (hslab : SlabCallStmt m SG) (hst : St0Stmt m) (hdn : Dn0Stmt m)
    (κ : GSem nD τ sig → ℕ) (d : Dev nD) :
    iprop((K (F := F)).ctx EH (P m) κ ∗ (K (F := F)).tcSt EH d 0 ∗ (K (F := F)).tcRes m ρ d ∗ SG d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_split (F := F) d 0
  unfold SparseCore.Cfg.tcRes
  rw [unscopedBufs_eq, hR]
  simp only [main, wp_bind, wp_pure]
  iintro ⟨#Hctx, ⟨⟨%W, %hW, HO⟩, HR⟩, ⟨Hb, ⟨H0, H1, H2, Hv0, Hv1⟩, Hsems, Hprng⟩, HG⟩
  ihave Hlev := ((K (F := F)).ctx_levAts (EH := EH) (P := P m) κ) $$ Hctx
  iapply (hslab d ((K (F := F)).Otc d 0) W (Otc_none d 0) _) $$ [Hlev Hb H2 H1 Hv0 HO HG HR H0 Hv1]
  isplitl [Hlev]; · iexact Hlev
  isplitl [Hb]; · iexact Hb
  isplitl [H2]; · iexact H2
  isplitl [H1]; · iexact H1
  isplitl [Hv0]; · iexists _; iexact Hv0
  isplitl [HO]; · iexact HO
  isplitl [HG]; · iexact HG
  iintro ⟨Hb, H2, H1, Hv0, %W', %hW', HO⟩
  iapply ((K (F := F)).wp_run (D (F := F)) 𝒱 (EH := EH) (P := P m) κ d 0) $$ [HO HR Hv0 Hv1 H0 H1 H2]
  isplitr; · iexact Hctx
  isplitl [HO HR]
  · rw [show (K (F := F)).tcSt (EH (F := F)) d ((0 : Fin 1) : ℕ) = _ from hR]
    isplitl [HO]
    · iexists W'; isplitr
      · ipureintro; intro p hp
        rcases hW' p hp with h | h
        · exact hW p h
        · rw [h, SparseCore.Cfg.lev_none]
      · iexact HO
    · iexact HR
  isplitl [Hv0 Hv1]
  · iapply (hst d)
    isplitl [Hv0]; · iexact Hv0
    iexists _; iexact Hv1
  iintro ⟨Hst, Hdn⟩
  ihave Hd := (hdn d) $$ Hdn
  icases Hd with ⟨-, Hv1⟩
  imodintro
  isplitl [Hst]; · iexact Hst
  isplitl [H0]; · iexact H0
  isplitl [H1]; · iexact H1
  isplitl [H2]; · iexact H2
  iexact Hv1

/-! ## How the final memory reads the claim -/

def fq (d : Dev nD) (s' : Phys nD τ sig (Elt F)) : Prop :=
  s'.mem.mem (v1Loc d) = outV m d ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨H0, H1, H2, Hv1⟩, HSI⟩
  ihave E0 := (persistent_entails_right (SI_pointsTo_agree (st := s') (ℓ := a0Loc d) (I := Finset.univ) (q := fullShare) (f := m (a0Loc d)))) $$ [HSI H0]
  · isplitl [HSI] <;> iassumption
  icases E0 with ⟨%h0, HSI, -⟩
  ihave E1 := (persistent_entails_right (SI_pointsTo_agree (st := s') (ℓ := a1Loc d) (I := Finset.univ) (q := fullShare) (f := m (a1Loc d)))) $$ [HSI H1]
  · isplitl [HSI] <;> iassumption
  icases E1 with ⟨%h1, HSI, -⟩
  ihave E2 := (persistent_entails_right (SI_pointsTo_agree (st := s') (ℓ := a2Loc d) (I := Finset.univ) (q := fullShare) (f := m (a2Loc d)))) $$ [HSI H2]
  · isplitl [HSI] <;> iassumption
  icases E2 with ⟨%h2, HSI, -⟩
  ihave E3 := (SI_pointsTo_agree (st := s') (ℓ := v1Loc d) (I := Finset.univ) (q := fullShare) (f := outV m d)) $$ [HSI Hv1]
  · isplitl [HSI] <;> iassumption
  icases E3 with %h3
  ipureintro
  exact ⟨funext fun i => h3 i (Finset.mem_univ i), funext fun i => h0 i (Finset.mem_univ i), funext fun i => h1 i (Finset.mem_univ i),
    funext fun i => h2 i (Finset.mem_univ i)⟩

/-! ## The program's run -/

/-- Every final memory has the result at the specification of the launch's weight tables and the three arguments at
    their launch contents, on every device. -/
def QC : PUnit × MemSt nD τ sig (Elt F) → Prop := fun r => ∀ c : Dev nD,
  r.2.mem (v1Loc c) = outV m c ∧ r.2.mem (a0Loc c) = m (a0Loc c) ∧ r.2.mem (a1Loc c) = m (a1Loc c) ∧ r.2.mem (a2Loc c) = m (a2Loc c)

theorem run_of_parts [∀ e, Nonempty (Elt F e)] (SG : Dev nD → sProp 𝕄) (uP : UK)
    (hfund : (BI.own ((EP (F := F)) uP) : sProp 𝕄) ⊢ |==> bigSep Finset.univ SG)
    (htile : TileBodyStmt m) (hslab : SlabCallStmt m SG) (hst : St0Stmt m) (hdn : Dn0Stmt m)
    (hsplit : (K (F := F)).VecSplit' (P m) 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m htile)
    (fun q _ => match q with | 0 => SparseCore.Cfg.VecSplit.of_plain hsplit)
    m ρ main SG (FIN m) (u₀ (F := F) uP) (sep_elim_left.trans (hu₀ m SG uP hfund)) (hmain m ρ SG hslab hst hdn) (fq m) (hfin m) (QC m)
    (fun _ h c => h c)

end Cert.KernelIdealX

end
-- ==== Proof.KernelIdealX.TileBody.lean ====
/-
  One tile's task, at a symbolic grid point, for any float instance.

  Tile (c, s) is handed its 16 channels of the slab (channels 32 s + 16 c …) at the slab's contents and the same 16
  channels of each of the 16 batch entries of the result at whatever they hold. It copies its channels of the slab into
  its own vector memory and waits for the copy; it then starts sixteen copies of that memory, one to its channels of each
  batch entry, all on ONE semaphore, and waits sixteen times on it. Nothing reads or writes the vector memory or any
  destination between the first start and the last wait, so the sixteen copies are one counted batch: the first fifteen
  waits learn nothing, the sixteenth learns that every copy has landed and hands everything back.

  The value: after the first copy the vector memory holds the slab read through the tile's slice; after copy b the
  tile's slice of batch entry b holds that. Both slices start at the same channel, and every batch entry of the
  specification is the slab, so on the slice's own elements the result holds the specification.
-/
import proofs.«213528_g18287970746974_cont_8to1_881_28_alg».proof.Proof.KernelIdealX.Common
import Idealize.ShloMosaic.Lib.Batch

noncomputable section

namespace Cert.KernelIdealX

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile's own semaphores and vector memory -/

section Tile

variable (d : Dev nD) (c : Fin τ.nSC) (j : Fin τ.nSub)

/-- The tile's two DMA cells: the one the first copy lands on, and the one the sixteen copies share. -/
abbrev cellA : GSem nD τ sig := (V d c j, .dma cc1_scoped0.sem)
abbrev cellB : GSem nD τ sig := (V d c j, .dma cc1_scratch1.sem)

/-- The tile's own semaphores at zero: the two cells, and the rest. -/
theorem ownSems0_V :
    (ownSems0 (V d c j) : sProp 𝕄)
      = iprop(semVal (cellA d c j) 0 ∗ semVal (cellB d c j) 0
          ∗ bigSep (((ownCells (V d c j)).erase (cellA d c j)).erase (cellB d c j)) fun g => semVal g 0) := by
  unfold SparseCore.Cfg.ownSems0
  rw [SparseCore.bigSep_erase' ((mem_ownCells (g := cellA d c j)).mpr ⟨rfl, by
      show (SemLoc.dma cc1_scoped0.sem : SemLoc sig).isScoped .scVector = true; decide⟩),
    SparseCore.bigSep_erase' (Finset.mem_erase.mpr ⟨by simp [cellA, cellB]; decide, (mem_ownCells (g := cellB d c j)).mpr ⟨rfl, by
      show (SemLoc.dma cc1_scratch1.sem : SemLoc sig).isScoped .scVector = true; decide⟩⟩)]

/-- The tile's own buffers: its vector memory at some contents, and the rest. -/
theorem ownBufs_V :
    (ownBufs (V d c j) : sProp 𝕄)
      = iprop((∃ f, (V d c j).loc cc1_scratch0 ↦{fullShare} f)
          ∗ bigSep ((ownRefs (τ := τ) (.scVector c j)).erase ((Proc.scVector c j).devRef cc1_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector c j)
    (b := (Proc.scVector c j).devRef cc1_scratch0) rfl)

end Tile

/-! ## The tile's pieces through its own memrefs

The slab and the result are the TensorCore's arrays; a tile addresses them through its slice memrefs, whose location is
the same array and whose elements are the slice's. -/

section Spell

variable (d : Dev nD) (c : Fin τ.nSC) (j : Fin τ.nSub) (L : grid1.Coords)

/-- The tile's channels of the slab, through the slice memref. -/
theorem pts_src (f : Buf (Elt F) (v0Loc d)) :
    ((srcM L).view.loc (V d c j) ↦[(srcM L).view.set]{fullShare} f : sProp 𝕄) = v0Loc d ↦[(srcM L).view.set]{fullShare} f := rfl

/-- The tile's channels of batch entry `b`, likewise. -/
theorem pts_dst (b : Fin 16) (f : Buf (Elt F) (v1Loc d)) :
    ((dstM L b).view.loc (V d c j) ↦[(dstM L b).view.set]{fullShare} f : sProp 𝕄) = v1Loc d ↦[(dstM L b).view.set]{fullShare} f := rfl

/-- The tile's vector memory, whole. -/
theorem pts_scr (f : Buf (Elt F) ((V d c j).loc cc1_scratch0)) :
    ((Memref.whole cc1_scratch0 : Memref sig .scVector .vmem S16x50x50 .f32).view.loc (V d c j) ↦{fullShare} f : sProp 𝕄)
      = (V d c j).loc cc1_scratch0 ↦{fullShare} f := rfl

end Spell

/-! ## The value -/

section Value

variable (m : (ℓ : Loc nD τ sig) → Buf (Elt F) ℓ) (d : Dev nD) (L : grid1.Coords)

/-- Where the tile's channels of batch entry `b` start, in closed form: batch coordinate `b`, channel
    `32 s + 16 c`, the grid's origin. -/
theorem dstOff_closed : ∀ b : Fin 16, dstOff L b = ![b.val, 32 * (L 1).val + 16 * (L 0).val, 0, 0]
  | ⟨0, _⟩ => k1_off2_eq L
  | ⟨1, _⟩ => k1_off3_eq L
  | ⟨2, _⟩ => k1_off4_eq L
  | ⟨3, _⟩ => k1_off5_eq L
  | ⟨4, _⟩ => k1_off6_eq L
  | ⟨5, _⟩ => k1_off7_eq L
  | ⟨6, _⟩ => k1_off8_eq L
  | ⟨7, _⟩ => k1_off9_eq L
  | ⟨8, _⟩ => k1_off10_eq L
  | ⟨9, _⟩ => k1_off11_eq L
  | ⟨10, _⟩ => k1_off12_eq L
  | ⟨11, _⟩ => k1_off13_eq L
  | ⟨12, _⟩ => k1_off14_eq L
  | ⟨13, _⟩ => k1_off15_eq L
  | ⟨14, _⟩ => k1_off16_eq L
  | ⟨15, _⟩ => k1_off17_eq L
  | ⟨_ + 16, h⟩ => absurd h (Nat.not_lt.2 (Nat.le_add_left _ _))

/-- An index of the tile's slice of batch entry `b`: the slice's rectangle at the index behind the batch coordinate 0
    (the squeezed axis put back). -/
theorem dst_emb (b : Fin 16) (y : S16x50x50.Idx) :
    ((dstM L b).view.emb y : S16x512x50x50.Idx)
      = (Rect.unit (s := S16x512x50x50) (dstOff L b) S1x16x50x50.size (dstOff_inb L b)).emb (Fin.cons (⟨0, Nat.one_pos⟩ : Fin 1) y) := by
  show (Rect.unit (s := S16x512x50x50) (dstOff L b) S1x16x50x50.size (dstOff_inb L b)).emb
      (Shape.reshapeEquiv squeezes_S1x16x50x50_S16x50x50.numel_eq y) = _
  rw [Shape.reshapeEquiv_cons_one]
  rfl

/-- THE INDEX FACT: the result's specification at an index of the tile's slice of batch entry `b` is the slab's at the
    same index of the tile's slice of the slab — both slices start at channel `32 s + 16 c`, and every batch entry of the
    specification is the slab. -/
theorem out_dst_emb (b : Fin 16) (y : S16x50x50.Idx) :
    outV m d ((dstM L b).view.emb y) = slabV m d ((srcM L).view.emb y) := by
  rw [dst_emb]
  unfold outV slabV Cert.Spec.out
  refine congrArg _ (funext fun a => Fin.ext ?_)
  have hk := k1_off1_eq L
  have hb := dstOff_closed L b
  fin_cases a
  · show dstOff L b 1 + 1 * (y 0 : ℕ) = k1_off1 L 0 + 1 * (y 0 : ℕ); rw [hk, hb]; rfl
  · show dstOff L b 2 + 1 * (y 1 : ℕ) = k1_off1 L 1 + 1 * (y 1 : ℕ); rw [hk, hb]; rfl
  · show dstOff L b 3 + 1 * (y 2 : ℕ) = k1_off1 L 2 + 1 * (y 2 : ℕ); rw [hk, hb]; rfl

/-- What the scratch holds after the first copy, read back: the slab at the tile's slice. -/
theorem payload_eq (c : Fin τ.nSC) (j : Fin τ.nSub) (fs : Buf (Elt F) ((Memref.whole cc1_scratch0 : Memref sig .scVector .vmem S16x50x50 .f32).view.loc (V d c j))) (y : S16x50x50.Idx) :
    (ReadAs.same : ReadAs (Elt F) S16x50x50 .f32 S16x50x50 .f32).apply
        ((Memref.whole cc1_scratch0 : Memref sig .scVector .vmem S16x50x50 .f32).view.read (Elt F)
          (View.write (Elt F) (Memref.whole cc1_scratch0 : Memref sig .scVector .vmem S16x50x50 .f32).view fs
            ((ReadAs.same : ReadAs (Elt F) S16x50x50 .f32 S16x50x50 .f32).apply ((srcM L).view.read (Elt F) (slabV m d))) Finset.univ)) y
      = slabV m d ((srcM L).view.emb y) := by
  show (Memref.whole cc1_scratch0 : Memref sig .scVector .vmem S16x50x50 .f32).view.read (Elt F) _ y = _
  rw [View.read_apply, View.write_emb_of_mem _ _ (Finset.mem_univ y)]
  rfl

/-- A batch entry's slice after the copy lands, on the slice's own elements: the specification. -/
theorem landed_eq (c : Fin τ.nSC) (j : Fin τ.nSub) (b : Fin 16) (g : Buf (Elt F) (v1Loc d)) (w : S16x50x50.Idx → Elt F .f32)
    (hw : ∀ y, w y = slabV m d ((srcM L).view.emb y)) :
    ((dstM L b).view.loc (V d c j) ↦[(dstM L b).view.set]{fullShare} (dstM L b).view.writes (Elt F) g [⟨Rect.whole S16x50x50, w⟩] : sProp 𝕄)
      = v1Loc d ↦[(dstM L b).view.set]{fullShare} outV m d := by
  refine pointsTo_congr fun i hi => ?_
  obtain ⟨y, -, rfl⟩ := Finset.mem_map.mp hi
  have h1 := View.read_writes_cons_emb (dstM L b).view g (Rect.whole S16x50x50) w [] y
  rw [Rect.emb_whole_apply, View.read_apply] at h1
  rw [out_dst_emb, ← hw]
  exact (cast_eq _ _).symm.trans h1

end Value

/-! ## The waits recorded, and sixteen pieces one by one -/

/-- A wait at the kernels' own index recorded: the waits recorded beyond `W` are all at that index. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- Sixteen pieces, one by one. -/
theorem bigSep16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  (bigSep_univ_eq_bigSepL [0, 1, 2, 3, 4, 5, 6, 7, 8, 9, 10, 11, 12, 13, 14, 15] (by decide) (by decide) Φ).trans rfl

/-! ## The tile's task -/

abbrev cV (L : grid1.Coords) : Fin τ.nSC := (L 0).castLE hcore1
abbrev jV (L : grid1.Coords) : Fin τ.nSub := (L 1).castLE hsub1

theorem tile_body [FloatOps F] (m : (ℓ : Loc nD τ sig) → Buf (Elt F) ℓ) (d : Dev nD) (L : grid1.Coords) (O : CellTallies nD τ sig (HIx 1)) (W : Waits sig (HIx 1)) (hO : ∀ g, O g none = 0) :
    iprop(levAts (K (F := F)).L (K (F := F)).lev ∗ emp ∗ goRes m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__bcast_body L (Memref.whole main_v0_scv) (Memref.isWhole_whole _) (Memref.whole main_v1_scv) (Memref.isWhole_whole _) (Memref.whole cc1_scratch0) (Memref.isWhole_whole _) cc1_scratch1 cc1_scoped0)
          fun _ => iprop(tdRes m d L ∗ scopedBufs (V d (cV L) (jV L)) ∗ scopedSems0 (V d (cV L) (jV L))
            ∗ ∃ W', ⌜∀ p ∈ W', p ∈ W ∨ p.2 = none⌝ ∗ owes (V d (cV L) (jV L)) O W') := by
  -- the sixteen copies on the shared semaphore are ONE counted batch, all reading the vector memory
  have _plan : Transfers.BatchOf (V d (cV L) (jV L)) (SemLoc.dma (sig := sig) cc1_scratch1.sem) 16 (windows := true) := trivial
  simp only [cc1__bcast_body_eq_skeleton]; unfold cc1__bcast_body_skel
  rw [(K (F := F)).scopedBufs_V facts d (cV L) (jV L), SparseCore.Cfg.scopedSems0_V (Val := Elt F) d (cV L) (jV L), ownSems0_V, ownBufs_V]
  unfold goRes
  rw [bigSep16]
  iintro ⟨#Hlv, -, ⟨Hsrc, ⟨%g0, Hd0⟩, ⟨%g1, Hd1⟩, ⟨%g2, Hd2⟩, ⟨%g3, Hd3⟩, ⟨%g4, Hd4⟩, ⟨%g5, Hd5⟩, ⟨%g6, Hd6⟩, ⟨%g7, Hd7⟩, ⟨%g8, Hd8⟩, ⟨%g9, Hd9⟩, ⟨%g10, Hd10⟩, ⟨%g11, Hd11⟩, ⟨%g12, Hd12⟩, ⟨%g13, Hd13⟩, ⟨%g14, Hd14⟩, ⟨%g15, Hd15⟩⟩,
    ⟨⟨%fs, Hs⟩, Hbufs⟩, ⟨HsemA, HsemB, Hsems⟩, HO⟩
  -- every wait is at the kernels' own index, where the tile owes nothing
  ihave Hmw := ((K (F := F)).mayWaits_none (thr := V d (cV L) (jV L)) hO) $$ Hlv
  -- the pieces through the tile's own memrefs
  ihave Hsrc' := (Entails.of_eq (pts_src (F := F) d (cV L) (jV L) L _).symm) $$ Hsrc
  ihave Hd0' := (Entails.of_eq (pts_dst (F := F) d (cV L) (jV L) L 0 _).symm) $$ Hd0
  ihave Hd1' := (Entails.of_eq (pts_dst (F := F) d (cV L) (jV L) L 1 _).symm) $$ Hd1
  ihave Hd2' := (Entails.of_eq (pts_dst (F := F) d (cV L) (jV L) L 2 _).symm) $$ Hd2
  ihave Hd3' := (Entails.of_eq (pts_dst (F := F) d (cV L) (jV L) L 3 _).symm) $$ Hd3
  ihave Hd4' := (Entails.of_eq (pts_dst (F := F) d (cV L) (jV L) L 4 _).symm) $$ Hd4
  ihave Hd5' := (Entails.of_eq (pts_dst (F := F) d (cV L) (jV L) L 5 _).symm) $$ Hd5
  ihave Hd6' := (Entails.of_eq (pts_dst (F := F) d (cV L) (jV L) L 6 _).symm) $$ Hd6
  ihave Hd7' := (Entails.of_eq (pts_dst (F := F) d (cV L) (jV L) L 7 _).symm) $$ Hd7
  ihave Hd8' := (Entails.of_eq (pts_dst (F := F) d (cV L) (jV L) L 8 _).symm) $$ Hd8
  ihave Hd9' := (Entails.of_eq (pts_dst (F := F) d (cV L) (jV L) L 9 _).symm) $$ Hd9
  ihave Hd10' := (Entails.of_eq (pts_dst (F := F) d (cV L) (jV L) L 10 _).symm) $$ Hd10
  ihave Hd11' := (Entails.of_eq (pts_dst (F := F) d (cV L) (jV L) L 11 _).symm) $$ Hd11
  ihave Hd12' := (Entails.of_eq (pts_dst (F := F) d (cV L) (jV L) L 12 _).symm) $$ Hd12
  ihave Hd13' := (Entails.of_eq (pts_dst (F := F) d (cV L) (jV L) L 13 _).symm) $$ Hd13
  ihave Hd14' := (Entails.of_eq (pts_dst (F := F) d (cV L) (jV L) L 14 _).symm) $$ Hd14
  ihave Hd15' := (Entails.of_eq (pts_dst (F := F) d (cV L) (jV L) L 15 _).symm) $$ Hd15
  ihave Hs' := (Entails.of_eq (pts_scr (F := F) d (cV L) (jV L) _).symm) $$ Hs
  -- the run: the first copy and its wait; the sixteen copies; fifteen waits that learn nothing, the sixteenth that
  -- hands back every destination at the vector memory's contents written through its slice
  sl_exec
  sl_step
  -- what was copied is the slab at the tile's slice; on each destination's own elements that is the specification
  have hw : ∀ y, tile_body.sl.dma1 m d L fs y = slabV m d ((srcM L).view.emb y) := payload_eq (F := F) m d L (cV L) (jV L) fs
  ihave Hd0'' := (Entails.of_eq (landed_eq (F := F) m d L (cV L) (jV L) 0 g0 _ hw)) $$ Hd0'
  ihave Hd1'' := (Entails.of_eq (landed_eq (F := F) m d L (cV L) (jV L) 1 g1 _ hw)) $$ Hd1'
  ihave Hd2'' := (Entails.of_eq (landed_eq (F := F) m d L (cV L) (jV L) 2 g2 _ hw)) $$ Hd2'
  ihave Hd3'' := (Entails.of_eq (landed_eq (F := F) m d L (cV L) (jV L) 3 g3 _ hw)) $$ Hd3'
  ihave Hd4'' := (Entails.of_eq (landed_eq (F := F) m d L (cV L) (jV L) 4 g4 _ hw)) $$ Hd4'
  ihave Hd5'' := (Entails.of_eq (landed_eq (F := F) m d L (cV L) (jV L) 5 g5 _ hw)) $$ Hd5'
  ihave Hd6'' := (Entails.of_eq (landed_eq (F := F) m d L (cV L) (jV L) 6 g6 _ hw)) $$ Hd6'
  ihave Hd7'' := (Entails.of_eq (landed_eq (F := F) m d L (cV L) (jV L) 7 g7 _ hw)) $$ Hd7'
  ihave Hd8'' := (Entails.of_eq (landed_eq (F := F) m d L (cV L) (jV L) 8 g8 _ hw)) $$ Hd8'
  ihave Hd9'' := (Entails.of_eq (landed_eq (F := F) m d L (cV L) (jV L) 9 g9 _ hw)) $$ Hd9'
  ihave Hd10'' := (Entails.of_eq (landed_eq (F := F) m d L (cV L) (jV L) 10 g10 _ hw)) $$ Hd10'
  ihave Hd11'' := (Entails.of_eq (landed_eq (F := F) m d L (cV L) (jV L) 11 g11 _ hw)) $$ Hd11'
  ihave Hd12'' := (Entails.of_eq (landed_eq (F := F) m d L (cV L) (jV L) 12 g12 _ hw)) $$ Hd12'
  ihave Hd13'' := (Entails.of_eq (landed_eq (F := F) m d L (cV L) (jV L) 13 g13 _ hw)) $$ Hd13'
  ihave Hd14'' := (Entails.of_eq (landed_eq (F := F) m d L (cV L) (jV L) 14 g14 _ hw)) $$ Hd14'
  ihave Hd15'' := (Entails.of_eq (landed_eq (F := F) m d L (cV L) (jV L) 15 g15 _ hw)) $$ Hd15'
  unfold tdRes
  rw [bigSep16]
  isplitl [Hsrc' Hd0'' Hd1'' Hd2'' Hd3'' Hd4'' Hd5'' Hd6'' Hd7'' Hd8'' Hd9'' Hd10'' Hd11'' Hd12'' Hd13'' Hd14'' Hd15'']
  · isplitl [Hsrc']; · iexact Hsrc'
    isplitl [Hd0'']; · iexact Hd0''
    isplitl [Hd1'']; · iexact Hd1''
    isplitl [Hd2'']; · iexact Hd2''
    isplitl [Hd3'']; · iexact Hd3''
    isplitl [Hd4'']; · iexact Hd4''
    isplitl [Hd5'']; · iexact Hd5''
    isplitl [Hd6'']; · iexact Hd6''
    isplitl [Hd7'']; · iexact Hd7''
    isplitl [Hd8'']; · iexact Hd8''
    isplitl [Hd9'']; · iexact Hd9''
    isplitl [Hd10'']; · iexact Hd10''
    isplitl [Hd11'']; · iexact Hd11''
    isplitl [Hd12'']; · iexact Hd12''
    isplitl [Hd13'']; · iexact Hd13''
    isplitl [Hd14'']; · iexact Hd14''
    iexact Hd15''
  isplitl [Hs' Hbufs]
  · isplitl [Hs']; · iexists _; iexact Hs'
    iexact Hbufs
  isplitl [HsemA HsemB Hsems]
  · isplitl [HsemA]; · iexact HsemA
    isplitl [HsemB]; · iexact HsemB
    iexact Hsems
  iexists _
  isplitr
  rotate_left
  · iexact HO
  · ipureintro
    repeat (first | exact fun p hp => Or.inl hp | refine waits_insert _ ?_)

end Cert.KernelIdealX

end
-- ==== Proof.KernelIdealX.SlabBody.lean ====
/-
  The TensorCore region that builds the slab: the kernel body's triple and the value it leaves.

  The body loads the two 50 × 256 weight tables whole, transposes each, and stores two blocks of 256 channels over the
  50 × 50 grid into the slab's buffer: channels [0, 256) hold the first table's entry (j, k) at channel k, row i, column
  j (broadcast along the rows), channels [256, 512) the second table's entry (i, k) (broadcast along the columns). The
  two stores tile the buffer, so what the body leaves is a function of the two tables alone, and that function is the
  specification's slab.
-/
import proofs.«213528_g18287970746974_cont_8to1_881_28_alg».proof.Proof.KernelIdealX.Common
import proofs.«213528_g18287970746974_cont_8to1_881_28_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdealX

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

/-! ## The body's accesses -/

/-- A weight table, whole. -/
abbrev slabRTab : Rect S50x256 := Rect.unit (s := S50x256) ![0, 0] S50x256.size inb_S50x256_S50x256_0_0
/-- Channels [0, 256) of the slab, -/
abbrev slabRLo : Rect S512x50x50 := Rect.unit (s := S512x50x50) ![0, 0, 0] S256x50x50.size inb_S512x50x50_S256x50x50_0_0_0
/-- and channels [256, 512). -/
abbrev slabRHi : Rect S512x50x50 := Rect.unit (s := S512x50x50) ![256, 0, 0] S256x50x50.size inb_S512x50x50_S256x50x50_256_0_0

/-- What the body leaves in the slab's buffer, from the two tables' buffers as read: its two stores as pieces, the
    last first. -/
def slabOut (x0 x1 : Vec F S50x256 .f32) : Vec F S512x50x50 .f32 :=
  View.canon [⟨slabRHi, k0_pay2 (View.ld x1 slabRTab)⟩, ⟨slabRLo, k0_pay1 (View.ld x0 slabRTab)⟩]

/-- The two stores tile the buffer, so they cover it. -/
theorem slab_cover (p1 p0 : Vec F S256x50x50 .f32) (y : S512x50x50.Idx) :
    ∃ pc ∈ ([⟨slabRHi, p1⟩, ⟨slabRLo, p0⟩] : List (View.Piece (Elt F) S512x50x50 .f32)), y ∈ pc.1.set :=
  View.cover_of_tiled [⟨slabRHi, p1⟩, ⟨slabRLo, p0⟩] S256x50x50.size (by rfl) y

set_option maxHeartbeats 1000000 in
/-- The body on whole staging memrefs, the tables' at read contents and the slab's at anything, runs to the
    continuation with the tables' as they were and the slab's at `slabOut` of them. -/
theorem slab_kernel (c : Dev nD) (E : Set ℕ) (arg0 : Memref sig .tc .vmem S50x256 .f32) (harg0 : arg0.IsWhole) (arg1 : Memref sig .tc .vmem S50x256 .f32) (harg1 : arg1.IsWhole) (arg2 : Memref sig .tc .vmem S512x50x50 .f32) (harg2 : arg2.IsWhole)
    (x0 x1 : Vec F S50x256 .f32) (Kc : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (slabOut x0 x1)) -∗ Kc ⟨⟩))
      ⊢ wp frame (wpE (defs₀ (F := F)) Variants.none (c : Thread nD τ) none) E (cc0__slab_body arg0 harg0 arg1 harg1 arg2 harg2) Kc := by
  simp only [cc0__slab_body_eq_skeleton]; unfold cc0__slab_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (slab_cover _ _)

/-! ## The value the two stores leave -/

open Idealize.ShloMosaic.ValueIdx in
/-- The first store's payload at channel `k`, row `i`, column `j` is the table's entry `(j, k)`: a transpose, the unit
    axis added between the two, and the broadcast along it. -/
theorem slabPay1_apply (v : Vec F S50x256 .f32) (x : S256x50x50.Idx) :
    k0_pay1 v x = v (ix2 (n0 := 50) (n1 := 256) ⟨(x 2).val, (x 2).isLt⟩ ⟨(x 0).val, (x 0).isLt⟩) := by
  have h0 : (x 0).val < 256 := (x 0).isLt
  have h1 : (x 1).val < 50 := (x 1).isLt
  have h2 : (x 2).val < 50 := (x 2).isLt
  simp only [k0_pay1]
  refine (broadcastTo_apply _ _ x (fun a => match a with | ⟨0, _⟩ => ⟨(x 0).val, h0⟩ | ⟨1, _⟩ => ⟨0, Nat.one_pos⟩ | ⟨2, _⟩ => ⟨(x 2).val, h2⟩)
    (fun a => match a with
      | ⟨0, _⟩ => by show (x 0).val = if (256 : Nat) = 1 then 0 else (x 0).val; rfl
      | ⟨1, _⟩ => by show (0 : Nat) = if (1 : Nat) = 1 then 0 else (x 1).val; rfl
      | ⟨2, _⟩ => by show (x 2).val = if (50 : Nat) = 1 then 0 else (x 2).val; rfl)).trans ?_
  rw [shapeCast_self]
  refine (shapeCast_apply _ _ _ (fun a => match a with | ⟨0, _⟩ => ⟨(x 0).val, h0⟩ | ⟨1, _⟩ => ⟨(x 2).val, h2⟩)
    (by rw [Shape.rowMajor_val_two, Shape.rowMajor_val_three]
        show (x 0).val * 50 + (x 2).val = ((x 0).val * 1 + 0) * 50 + (x 2).val
        omega)).trans ?_
  exact transpose_apply _ _ _ _ _ (fun b => match b with | ⟨0, _⟩ => rfl | ⟨1, _⟩ => rfl)

open Idealize.ShloMosaic.ValueIdx in
/-- The second store's payload at channel `k`, row `i`, column `j` is the table's entry `(i, k)`: a transpose, a
    trailing unit axis, and the broadcast along it. -/
theorem slabPay2_apply (v : Vec F S50x256 .f32) (x : S256x50x50.Idx) :
    k0_pay2 v x = v (ix2 (n0 := 50) (n1 := 256) ⟨(x 1).val, (x 1).isLt⟩ ⟨(x 0).val, (x 0).isLt⟩) := by
  have h0 : (x 0).val < 256 := (x 0).isLt
  have h1 : (x 1).val < 50 := (x 1).isLt
  have h2 : (x 2).val < 50 := (x 2).isLt
  simp only [k0_pay2]
  refine (broadcastTo_apply _ _ x (fun a => match a with | ⟨0, _⟩ => ⟨(x 0).val, h0⟩ | ⟨1, _⟩ => ⟨(x 1).val, h1⟩ | ⟨2, _⟩ => ⟨0, Nat.one_pos⟩)
    (fun a => match a with
      | ⟨0, _⟩ => by show (x 0).val = if (256 : Nat) = 1 then 0 else (x 0).val; rfl
      | ⟨1, _⟩ => by show (x 1).val = if (50 : Nat) = 1 then 0 else (x 1).val; rfl
      | ⟨2, _⟩ => by show (0 : Nat) = if (1 : Nat) = 1 then 0 else (x 2).val; rfl)).trans ?_
  rw [shapeCast_self]
  refine (shapeCast_apply _ _ _ (fun a => match a with | ⟨0, _⟩ => ⟨(x 0).val, h0⟩ | ⟨1, _⟩ => ⟨(x 1).val, h1⟩)
    (by rw [Shape.rowMajor_val_two, Shape.rowMajor_val_three]
        show (x 0).val * 50 + (x 1).val = ((x 0).val * 50 + (x 1).val) * 1 + 0
        omega)).trans ?_
  exact transpose_apply _ _ _ _ _ (fun b => match b with | ⟨0, _⟩ => rfl | ⟨1, _⟩ => rfl)

/-- Both loads read the whole table. -/
theorem slabZeros2 : (![0, 0] : Fin 2 → Nat) = fun _ => 0 := funext fun a => by fin_cases a <;> rfl

open Idealize.ShloMosaic.ValueIdx in
/-- The specification under the first store: channel `k < 256`. -/
theorem slab_at_lo {α : Type} (cw rw : S50x256.Idx → α) (x : S256x50x50.Idx) :
    Cert.Spec.slab cw rw (slabRLo.emb x) = cw (ix2 (n0 := 50) (n1 := 256) ⟨(x 2).val, (x 2).isLt⟩ ⟨(x 0).val, (x 0).isLt⟩) := by
  have h0 : (x 0).val < 256 := (x 0).isLt
  have h1 : (x 1).val < 50 := (x 1).isLt
  have h2 : (x 2).val < 50 := (x 2).isLt
  have e : slabRLo.emb x = ix3 (n0 := 512) (n1 := 50) (n2 := 50) ⟨(x 0).val, by omega⟩ ⟨(x 1).val, h1⟩ ⟨(x 2).val, h2⟩ := by
    funext a; apply Fin.ext
    match a with
    | ⟨0, _⟩ => show 0 + 1 * (x 0).val = (x 0).val; omega
    | ⟨1, _⟩ => show 0 + 1 * (x 1).val = (x 1).val; omega
    | ⟨2, _⟩ => show 0 + 1 * (x 2).val = (x 2).val; omega
  rw [e, Cert.Spec.slab_lo cw rw _ _ _ (show (x 0).val < 256 from h0)]

open Idealize.ShloMosaic.ValueIdx in
/-- The specification under the second store: channel `256 + k`. -/
theorem slab_at_hi {α : Type} (cw rw : S50x256.Idx → α) (x : S256x50x50.Idx) :
    Cert.Spec.slab cw rw (slabRHi.emb x) = rw (ix2 (n0 := 50) (n1 := 256) ⟨(x 1).val, (x 1).isLt⟩ ⟨(x 0).val, (x 0).isLt⟩) := by
  have h0 : (x 0).val < 256 := (x 0).isLt
  have h1 : (x 1).val < 50 := (x 1).isLt
  have h2 : (x 2).val < 50 := (x 2).isLt
  have e : slabRHi.emb x = ix3 (n0 := 512) (n1 := 50) (n2 := 50) ⟨256 + (x 0).val, by omega⟩ ⟨(x 1).val, h1⟩ ⟨(x 2).val, h2⟩ := by
    funext a; apply Fin.ext
    match a with
    | ⟨0, _⟩ => show 256 + 1 * (x 0).val = 256 + (x 0).val; omega
    | ⟨1, _⟩ => show 0 + 1 * (x 1).val = (x 1).val; omega
    | ⟨2, _⟩ => show 0 + 1 * (x 2).val = (x 2).val; omega
  rw [e, Cert.Spec.slab_hi cw rw _ _ _ (show ¬ (256 + (x 0).val < 256) by omega)]
  refine congrArg rw ?_
  funext a; apply Fin.ext
  match a with
  | ⟨0, _⟩ => rfl
  | ⟨1, _⟩ => show 256 + (x 0).val - 256 = (x 0).val; omega

/-- WHAT THE BODY LEAVES IS THE SLAB of the two tables as read. -/
theorem slabOut_eq (x0 x1 : Vec F S50x256 .f32) : slabOut x0 x1 = Cert.Spec.slab x0 x1 := by
  funext y
  unfold slabOut
  rw [View.ld_unit_zero slabZeros2, View.ld_unit_zero slabZeros2]
  refine View.canon_apply_of_pieces (Cert.Spec.slab x0 x1) _ ?_ y (slab_cover _ _ y)
  intro pc hpc x
  rcases List.mem_cons.mp hpc with rfl | hpc
  · show k0_pay2 x1 x = Cert.Spec.slab x0 x1 (slabRHi.emb x)
    rw [slabPay2_apply, slab_at_hi]
  rcases List.mem_cons.mp hpc with rfl | hpc
  · show k0_pay1 x0 x = Cert.Spec.slab x0 x1 (slabRLo.emb x)
    rw [slabPay1_apply, slab_at_lo]
  nomatch hpc

end Cert.KernelIdealX

end
-- ==== Proof.KernelIdealX.SlabDat.lean ====
/-
  The TensorCore region that builds the slab: the pipeline's proof data, the body obligation, and the slab's array
  after the region.

  The region is one gridless pipeline over three whole-array windows: the two weight tables are fetched, the slab is
  written back. At its one point the body finds each table's block in its staging buffer and leaves the slab's at what
  its two stores make of them; the write-back then covers the whole array, which therefore ends at the specification's
  slab of the two tables as the region found them. The tables are never written. The data is stated for any contents of
  the core's arrays at entry, any tallies the core owes and any set of waits it has recorded: the region's transfers
  complete on its own staging cells, so what the core owes passes through unchanged.
-/
import proofs.«213528_g18287970746974_cont_8to1_881_28_alg».proof.Proof.KernelIdealX.SlabBody

set_option maxRecDepth 16384

noncomputable section

namespace Cert.KernelIdealX

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

/-- The region prefetches no table. -/
abbrev slabAdm : (p : Fin 1) → (pcfgs (F := F) p).Adm := fun p => (cfgs p).toPCfg_adm

section Data

variable (Vv : (c : Dev nD) → (b : Ref sig .tc) → Buf (Elt F) ((c : Thread nD τ).loc b))
  (O : CellTallies nD τ sig (HIx 1)) (W : Waits sig (HIx 1))

/-! ## The windows' blocks -/

/-- Window `w`'s block at point `t`, read off its array as the region finds it. -/
def slabBlk (c : Dev nD) (w : Fin cfg0.W) (t : Fin cfg0.N) : ((cfg0.win w).xblock (cfg0.grid.coords t)).Idx → Elt F (cfg0.win w).elt :=
  ((cfg0.win w).blk t).view.read (Elt F) (Vv c (Pipeline.arrRef spec0 w))

/-! ## The proof data -/

/-- The region's proof data on core `c`: the arrays as the region finds them; after the body each table's buffer at
    its block and the slab's at what the two stores leave; between points only the scoped buffers the region does not
    stage; the core owes `O` throughout, and its recorded waits stay within `W` and the pairs at no call's index. -/
def slabDats (_ : Fin 1) (c : Dev nD) : Dat τ (Elt F) (HIx 1) ℕ UU ℕ cfg0 c where
  A w := Vv c (Pipeline.arrRef spec0 w)
  after w t := match w with
    | ⟨0, _⟩ => slabBlk Vv c 0 t
    | ⟨1, _⟩ => slabBlk Vv c 1 t
    | ⟨2, _⟩ => slabOut (slabBlk Vv c 0 t) (slabBlk Vv c 1 t)
  Φ _ := Pipeline.scopedRest spec0 c
  q _ := fullShare
  owed _ := O
  recorded _ := {p | p ∈ W ∨ p.2 = none}

theorem slabA_eq (c : Dev nD) (w : Fin cfg0.W) : (slabDats Vv O W 0 c).A w = Vv c (Pipeline.arrRef spec0 w) := by
  dsimp only [slabDats]

theorem slabAfter0 (c : Dev nD) (t : Fin cfg0.N) : (slabDats Vv O W 0 c).after 0 t = slabBlk Vv c 0 t := by dsimp only [slabDats]
theorem slabAfter1 (c : Dev nD) (t : Fin cfg0.N) : (slabDats Vv O W 0 c).after 1 t = slabBlk Vv c 1 t := by dsimp only [slabDats]
theorem slabAfter2 (c : Dev nD) (t : Fin cfg0.N) : (slabDats Vv O W 0 c).after 2 t = slabOut (slabBlk Vv c 0 t) (slabBlk Vv c 1 t) := by dsimp only [slabDats]

/-- Each table's buffer holds its block when the body runs: the window is fetched at the one point. -/
theorem slabBefore0 (c : Dev nD) (t : Fin cfg0.N) (d) : (slabDats Vv O W 0 c).before 0 t d = slabBlk Vv c 0 t := by
  unfold Dat.before; rw [if_pos (fetch0_0 t)]; unfold Dat.fetched Dat.blockOf slabBlk; rw [slabA_eq]; rfl
theorem slabBefore1 (c : Dev nD) (t : Fin cfg0.N) (d) : (slabDats Vv O W 0 c).before 1 t d = slabBlk Vv c 1 t := by
  unfold Dat.before; rw [if_pos (fetch0_1 t)]; unfold Dat.fetched Dat.blockOf slabBlk; rw [slabA_eq]; rfl

/-! ## The body obligation -/

/-- The body at the one point: the tables' buffers hold their blocks, the body's triple applies; the invariant and what
    the core owes pass through unread. -/
theorem slab_body_at (c : Dev nD) (t : Fin cfg0.N) :
    iprop((slabDats Vv O W 0 c).Φ t.castSucc ∗ (slabDats Vv O W 0 c).owesAt none t.castSucc
        ∗ (∃ d, owns (c : Thread nD τ) (st0_0 t) fullShare ((slabDats Vv O W 0 c).before 0 t d))
        ∗ (∃ d, owns (c : Thread nD τ) (st0_1 t) fullShare ((slabDats Vv O W 0 c).before 1 t d))
        ∗ (∃ d, owns (c : Thread nD τ) (st0_2 t) fullShare ((slabDats Vv O W 0 c).before 2 t d)))
      ⊢ wp frame (wpE (defs₀ (F := F)) Variants.none (c : Thread nD τ) none) Set.univ (bodyAt0 t) (fun _ =>
          iprop((slabDats Vv O W 0 c).Φ t.succ ∗ (slabDats Vv O W 0 c).owesAt none t.succ
            ∗ owns (c : Thread nD τ) (st0_0 t) fullShare ((slabDats Vv O W 0 c).after 0 t)
            ∗ owns (c : Thread nD τ) (st0_1 t) fullShare ((slabDats Vv O W 0 c).after 1 t)
            ∗ owns (c : Thread nD τ) (st0_2 t) fullShare ((slabDats Vv O W 0 c).after 2 t))) := by
  simp only [slabBefore0, slabBefore1]
  rw [show (slabDats Vv O W 0 c).Φ t.succ = (slabDats Vv O W 0 c).Φ t.castSucc from rfl,
    show (slabDats Vv O W 0 c).owesAt none t.succ = (slabDats Vv O W 0 c).owesAt none t.castSucc from rfl,
    slabAfter0, slabAfter1, slabAfter2]
  unfold bodyAt0
  iintro ⟨HΦ, Ho, ⟨%d0, H0⟩, ⟨%d1, H1⟩, ⟨%d2, H2⟩⟩
  iapply (slab_kernel c Set.univ _ _ _ _ _ _ (slabBlk Vv c 0 t) (slabBlk Vv c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation. -/
theorem slab_body_obligation (c : Dev nD) : BodyObligation (slabDats Vv O W 0 c) (defs₀ (F := F)) Variants.none none Set.univ := fun t => by
  rw [bigSep_W0, bigSep_W0]
  exact slab_body_at Vv O W c t

/-! ## The slab's array after the region -/

/-- The whole-array windows read their arrays as they are. -/
theorem slabBlk0_eq (c : Dev nD) (t : Fin cfg0.N) : slabBlk Vv c 0 t = Vv c main_arg2 := by
  funext j
  show Vv c main_arg2 (((cfg0.win 0).blk t).view.emb j) = Vv c main_arg2 j
  refine congrArg (Vv c main_arg2) (funext fun a => Fin.ext ?_)
  match a with
  | ⟨0, _⟩ => show 0 * 50 + 1 * (j 0).val = (j 0).val; omega
  | ⟨1, _⟩ => show 0 * 256 + 1 * (j 1).val = (j 1).val; omega
theorem slabBlk1_eq (c : Dev nD) (t : Fin cfg0.N) : slabBlk Vv c 1 t = Vv c main_arg1 := by
  funext j
  show Vv c main_arg1 (((cfg0.win 1).blk t).view.emb j) = Vv c main_arg1 j
  refine congrArg (Vv c main_arg1) (funext fun a => Fin.ext ?_)
  match a with
  | ⟨0, _⟩ => show 0 * 50 + 1 * (j 0).val = (j 0).val; omega
  | ⟨1, _⟩ => show 0 * 256 + 1 * (j 1).val = (j 1).val; omega

/-- What the one point writes back is the specification's slab of the two tables, read through the window. -/
theorem slabFlushed_eq (c : Dev nD) (t : Fin cfg0.N) :
    (slabDats Vv O W 0 c).flushed 2 t = ((cfg0.win 2).blk t).view.read (Elt F) (Cert.Spec.slab (α := Elt F .f32) (Vv c main_arg2) (Vv c main_arg1)) := by
  show (cfg0.win 2).cut (grid0.coords t) ((slabDats Vv O W 0 c).after 2 t) = _
  rw [slabAfter2, slabBlk0_eq, slabBlk1_eq, slabOut_eq]
  funext j
  show Cert.Spec.slab (α := Elt F .f32) (Vv c main_arg2) (Vv c main_arg1) ((cfg0.win 2).xinj (grid0.coords t) j)
    = Cert.Spec.slab (α := Elt F .f32) (Vv c main_arg2) (Vv c main_arg1) (((cfg0.win 2).blk t).view.emb j)
  refine congrArg _ (funext fun a => Fin.ext ?_)
  match a with
  | ⟨0, _⟩ => show (j 0).val = 0 * 512 + 1 * (j 0).val; omega
  | ⟨1, _⟩ => show (j 1).val = 0 * 50 + 1 * (j 1).val; omega
  | ⟨2, _⟩ => show (j 2).val = 0 * 50 + 1 * (j 2).val; omega

/-- The one block is the whole array. -/
theorem slabCovered (c : Dev nD) (i : ((cfg0.win 2).arr.view.loc (c : Thread nD τ)).2.ty.Idx) :
    ∃ t : Fin cfg0.N, (cfg0.win 2).flush t = true ∧ i ∈ ((cfg0.win 2).blk t).view.set := by
  refine ⟨t0_0, flush0_2 t0_0, ?_⟩
  show i ∈ ((View.whole main_v0).slice (win0_2.rect t0_0)).set
  rw [View.set_slice_whole, Rect.mem_set_unit]
  intro a
  have hi := (i a).isLt
  match a with
  | ⟨0, _⟩ => show 0 * 512 ≤ (i 0).val ∧ (i 0).val < 0 * 512 + 512; have h : (i 0).val < 512 := (i 0).isLt; omega
  | ⟨1, _⟩ => show 0 * 50 ≤ (i 1).val ∧ (i 1).val < 0 * 50 + 50; have h : (i 1).val < 50 := (i 1).isLt; omega
  | ⟨2, _⟩ => show 0 * 50 ≤ (i 2).val ∧ (i 2).val < 0 * 50 + 50; have h : (i 2).val < 50 := (i 2).isLt; omega

/-- THE SLAB'S ARRAY AFTER THE REGION is the specification's slab of the two tables as the region found them. -/
theorem slabFinal2 (c : Dev nD) : (slabDats Vv O W 0 c).arrAt 2 cfg0.N = Cert.Spec.slab (α := Elt F .f32) (Vv c main_arg2) (Vv c main_arg1) :=
  (slabDats Vv O W 0 c).arrAt_eq_of_cover 2 _ (fun t _ => slabFlushed_eq Vv O W c t) (slabCovered c)

/-- The tables' arrays are never written back. -/
theorem slabFinal0 (c : Dev nD) : (slabDats Vv O W 0 c).arrAt 0 cfg0.N = Vv c main_arg2 :=
  ((slabDats Vv O W 0 c).arrAt_in 0 rfl _).trans (slabA_eq Vv O W c 0)
theorem slabFinal1 (c : Dev nD) : (slabDats Vv O W 0 c).arrAt 1 cfg0.N = Vv c main_arg1 :=
  ((slabDats Vv O W 0 c).arrAt_in 1 rfl _).trans (slabA_eq Vv O W c 1)

end Data

end Cert.KernelIdealX

end
-- ==== Proof.KernelIdealX.SlabRegion.lean ====
/-
  The TensorCore region that builds the slab, as a step of @main.

  @main calls the region through the SparseCore launch's extension of the body table. The region is given to the
  pipeline library as its record of a kernel region: the decided layout, the body obligation, the evidence that the core
  may wait on its staging cells (they are waited on at no call's index, which sits below everything the core owes
  during the region: it owes only the start signals of the calls to come), and the entry and exit entailments around the
  thread states. The record's rule, read at the call @main makes, gives the step: from the core's boundary, the two
  tables, the slab's array at anything, what the core owes and the region's ghost state, the call runs to the boundary,
  the tables unchanged and the slab's array at the specification's slab of them. The ghost state is the staging cells'
  launch state and the pipeline's duty tokens, funded from the rounds library's launch element.
-/
import proofs.«213528_g18287970746974_cont_8to1_881_28_alg».proof.Proof.KernelIdealX.SlabDat
import proofs.«213528_g18287970746974_cont_8to1_881_28_alg».proof.Proof.LibInnerCall
import Idealize.ShloMosaic.Lib.Pipeline.Regions

set_option maxRecDepth 16384

noncomputable section

namespace Cert.KernelIdealX

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

section Region

variable (Vv : (c : Dev nD) → (b : Ref sig .tc) → Buf (Elt F) ((c : Thread nD τ).loc b))
  (O : CellTallies nD τ sig (HIx 1)) (W : Waits sig (HIx 1))

/-! ## The region's thread states -/

/-- What core `c` enters the region with: the three arrays of the pipeline at their entry contents, and what it owes. -/
def slabPre (c : Dev nD) : sProp 𝕄 :=
  iprop((a2Loc c ↦{fullShare} Vv c main_arg2) ∗ (a1Loc c ↦{fullShare} Vv c main_arg1) ∗ (v0Loc c ↦{fullShare} Vv c main_v0)
    ∗ owes (T c) O W)

/-- What it leaves with: the tables as they were, the slab's array at the specification's slab of them, and what it
    owes, its recorded waits grown by pairs at no call's index only. -/
def slabPost (c : Dev nD) : sProp 𝕄 :=
  iprop((a2Loc c ↦{fullShare} Vv c main_arg2) ∗ (a1Loc c ↦{fullShare} Vv c main_arg1)
    ∗ (v0Loc c ↦{fullShare} Cert.Spec.slab (α := Elt F .f32) (Vv c main_arg2) (Vv c main_arg1))
    ∗ ∃ W', ⌜∀ p ∈ W', p ∈ W ∨ p.2 = none⌝ ∗ owes (T c) O W')

/-- The pipeline's three arrays, one by one. -/
theorem slabArrays_eq (c : Dev nD) (G : (w : Fin cfg0.W) → Buf (Elt F) ((cfg0.win w).arr.view.loc (c : Thread nD τ))) :
    (slabDats Vv O W 0 c).arrays G
      = iprop((a2Loc c ↦{fullShare} G 0) ∗ (a1Loc c ↦{fullShare} G 1) ∗ (v0Loc c ↦{fullShare} G 2)) := by
  rw [Pipeline.arrays_eq cfgs (slabDats Vv O W) 0 c arr_whole0 ((slabDats Vv O W 0 c).share_full fun _ => rfl) G, bigSep_W0]

/-- ENTRY: the arrays at the proof data's entry contents, no table, what the core owes within the proof data's bound. -/
theorem slab_entry (c : Dev nD) (R : sProp 𝕄) :
    iprop(slabPre Vv O W c ∗ R ∗ levAts (K (F := F)).L (K (F := F)).lev)
      ⊢ |={Set.univ}=> iprop((slabDats Vv O W 0 c).arrays ((slabDats Vv O W 0 c).arrAt · 0)
          ∗ Pipeline.prefHeld (pcfgs (F := F) 0).pre c (fun _ => fullShare) (slabAdm (F := F) 0).1
          ∗ (slabDats Vv O W 0 c).owesAt none 0 ∗ (BI.emp : sProp 𝕄) ∗ (BI.emp : sProp 𝕄)) := by
  rw [slabArrays_eq]
  unfold slabPre
  iintro ⟨⟨H2, H1, H0, HO⟩, -, -⟩
  imodintro
  isplitl [H2 H1 H0]
  · isplitl [H2]; · iexact H2
    isplitl [H1]; · iexact H1
    iexact H0
  isplitr
  · unfold Pipeline.prefHeld; rw [show (Finset.univ : Finset (Fin 0)) = ∅ from rfl, BI.bigSep_empty]; iempintro
  isplitl [HO]
  · unfold Pipeline.Dat.owesAt Pipeline.owesWithin
    iexists W; isplitr
    · ipureintro; exact fun p hp => Or.inl (Or.inl (Finset.mem_coe.mp hp))
    iexact HO
  isplitl [] <;> iempintro

/-- EXIT: the arrays at their final contents and what the core owes make the state the region leaves. -/
theorem slab_exit (c : Dev nD) :
    iprop((slabDats Vv O W 0 c).arrays ((slabDats Vv O W 0 c).arrAt · cfg0.N) ∗ (slabDats Vv O W 0 c).owesAt none (Fin.last cfg0.N)
        ∗ (BI.emp : sProp 𝕄) ∗ (BI.emp : sProp 𝕄))
      ⊢ |={Set.univ}=> slabPost Vv O W c := by
  rw [slabArrays_eq, slabFinal0, slabFinal1, slabFinal2]
  unfold slabPost Pipeline.Dat.owesAt Pipeline.owesWithin
  iintro ⟨⟨H2, H1, H0⟩, ⟨%W', %hW', HO⟩, -, -⟩
  imodintro
  isplitl [H2]; · iexact H2
  isplitl [H1]; · iexact H1
  isplitl [H0]; · iexact H0
  iexists W'; isplitr
  · ipureintro
    intro p hp
    rcases hW' (Finset.mem_coe.mpr hp) with h | ⟨w, s, rfl⟩
    · exact h
    · exact Or.inr rfl
  iexact HO

/-- The invariant at the first point is the scoped buffers the region does not stage; -/
theorem slab_in (c : Dev nD) (A B : sProp 𝕄) : iprop(A ∗ B ∗ Pipeline.scopedRest spec0 c) ⊢ (slabDats Vv O W 0 c).Φ 0 := by
  rw [show (slabDats Vv O W 0 c).Φ 0 = Pipeline.scopedRest spec0 c from rfl]
  iintro ⟨-, -, Hr⟩
  iexact Hr

/-- and at the last point it gives them back (the kernel has no semaphore of its own). -/
theorem slab_out (c : Dev nD) :
    (slabDats Vv O W 0 c).Φ (Fin.last cfg0.N)
      ⊢ iprop((BI.emp : sProp 𝕄) ∗ Pipeline.ownSems0 (fun k : PEmpty => (k.elim : SemLoc sig)) c ∗ Pipeline.scopedRest spec0 c) := by
  rw [show (slabDats Vv O W 0 c).Φ (Fin.last cfg0.N) = Pipeline.scopedRest spec0 c from rfl]
  unfold Pipeline.ownSems0
  rw [show (Finset.univ : Finset PEmpty) = ∅ from rfl, BI.bigSep_empty]
  iintro Hr
  isplitr; · iempintro
  isplitr; · iempintro
  iexact Hr

variable (hO : ∀ g, O g none = 0)

-- the library's record is stated over the pinned configuration: matching it takes unfolding plain definitions in a type
set_option backward.isDefEq.respectTransparency.types false in
/-- THE REGION as the pipeline library's record: the decided layout, no semaphore of the kernel's own, the body
    obligation, the wait evidence (every staging cell is waited on at no call's index, below everything the core
    owes), and the entry and exit above; nothing enters the invariant and nothing bypasses the region. -/
def slabSeg : Pipeline.RegionSeg (pcfgs (F := F)) slabAdm (slabDats Vv O W) none defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := (slab_body_obligation Vv O W c).loose
  hwaits c := Pipeline.cellsWaits_intro (Pipeline.pin (pcfgs (F := F)) slabAdm) (slabDats Vv O W) none 0 c
    fun w s t => (K (F := F)).mayWait_none _ hO
  pre := slabPre Vv O W
  post := slabPost Vv O W
  X _ := BI.emp
  Y _ := BI.emp
  Z _ := BI.emp
  hentry c := slab_entry Vv O W c _
  hin c := slab_in Vv O W c _ _
  hout c := slab_out Vv O W c
  hexit c := slab_exit Vv O W c

end Region

/-! ## The region's ghost state and its funding -/

/-- The region's ghost state on device `d`, funded at launch: its staging cells' launch state and the duty tokens of
    the transfers its pipeline issues. -/
def slabGhost (d : Dev nD) : sProp 𝕄 :=
  iprop(Pipeline.cellsGhost (Pipeline.pin (pcfgs (F := F)) slabAdm) EP 0 d ∗ Pipeline.toksInit (Pipeline.pin (pcfgs (F := F)) slabAdm) EP 0 d)

/-- The element of the staging cells' algebra it is funded from: the rounds library's launch element at the program's
    staging cells and the pipeline's transfers. -/
def uP : UK := initOf (Pipeline.cells (nD := nD) (τ := τ) cfgs cellOf_inj) (Pipeline.launchToks (nD := nD) (τ := τ) cfgs cellOf_inj)

/-- The funding: the one pipeline's ghost state on every device. -/
theorem slabGhost_fund : (BI.own (EP (F := F) uP) : sProp 𝕄) ⊢ |==> bigSep Finset.univ fun d : Dev nD => slabGhost (F := F) d := by
  have h1 : ∀ (Ψ : Fin 1 → sProp 𝕄), bigSep Finset.univ Ψ = Ψ 0 := fun Ψ =>
    bigSep_univ_eq_bigSepL [(0 : Fin 1)] (by decide) (by decide) Ψ
  have hcomb : iprop((bigSep Finset.univ fun c : Dev nD => bigSep Finset.univ fun p : Fin 1 => Pipeline.cellsGhost cfgs (EP (F := F)) p c)
        ∗ (bigSep Finset.univ fun c : Dev nD => bigSep Finset.univ fun p : Fin 1 => (Pipeline.toksInit cfgs (EP (F := F)) p c : sProp 𝕄)))
      ⊢ bigSep Finset.univ fun d : Dev nD => slabGhost (F := F) d := by
    simp only [h1]
    exact Entails.of_eq rfl
  unfold uP
  iintro Hu
  imod (Pipeline.fund_ghost cfgs (EP (F := F)) cellOf_inj) $$ Hu with ⟨Hg, Ht⟩
  imodintro
  iapply hcomb
  isplitl [Hg]; · iexact Hg
  iexact Ht

/-! ## The call inside @main -/

/-- The staging cells are pairwise distinct, at the pinned configuration. -/
theorem slabCellOf_inj : Function.Injective (Pipeline.cellOf (nD := nD) (τ := τ) (Pipeline.pin (pcfgs (F := F)) slabAdm)) := cellOf_inj

set_option backward.isDefEq.respectTransparency.types false in
set_option maxHeartbeats 1600000 in
/-- The call with the slab's array at known contents `f`. -/
theorem slab_call_at (m : (ℓ : Loc nD τ sig) → Buf (Elt F) ℓ) (d : Dev nD) (O : CellTallies nD τ sig (HIx 1)) (W : Waits sig (HIx 1))
    (hO : ∀ g, O g none = 0) (Φ : PUnit → sProp 𝕄) (f : Buf (Elt F) (v0Loc d)) :
    iprop(levAts (K (F := F)).L (K (F := F)).lev ∗ boundary (T d)
        ∗ (a2Loc d ↦{fullShare} m (a2Loc d)) ∗ (a1Loc d ↦{fullShare} m (a1Loc d)) ∗ (v0Loc d ↦{fullShare} f)
        ∗ owes (T d) O W ∗ slabGhost d
        ∗ ((boundary (T d) ∗ (a2Loc d ↦{fullShare} m (a2Loc d)) ∗ (a1Loc d ↦{fullShare} m (a1Loc d)) ∗ (v0Loc d ↦{fullShare} slabV m d)
              ∗ ∃ W', ⌜∀ p ∈ W', p ∈ W ∨ p.2 = none⌝ ∗ owes (T d) O W') -∗ Φ ⟨⟩))
      ⊢ wp frame (wpE ((K (F := F)).defs (D (F := F))) 𝒱 (T d) none) Set.univ
          (Prog.lift (TpuEff.customCall (p := Proc.tc) (Λ := SparseCore.Sig (ΛP (F := F)) 1) (SparseCore.inner (Pipeline.entry 0)) ())) Φ := by
  have hne2 : a2Loc d ≠ v0Loc d := fun h =>
    StableHlo.devRef_ne_of_ne (show (main_arg2 : Ref sig .tc) ≠ main_v0 by decide) (congrArg Prod.snd h)
  have hne1 : a1Loc d ≠ v0Loc d := fun h =>
    StableHlo.devRef_ne_of_ne (show (main_arg1 : Ref sig .tc) ≠ main_v0 by decide) (congrArg Prod.snd h)
  -- the arrays as the region finds them: the launch's, but the slab's at `f`
  let Vv : (c : Dev nD) → (b : Ref sig .tc) → Buf (Elt F) ((c : Thread nD τ).loc b) :=
    fun c b => Function.update m (v0Loc d) f ((c : Thread nD τ).loc b)
  have e2 : Vv d main_arg2 = m (a2Loc d) := Function.update_of_ne hne2 _ _
  have e1 : Vv d main_arg1 = m (a1Loc d) := Function.update_of_ne hne1 _ _
  have e0 : Vv d main_v0 = f := Function.update_self _ _ _
  have hpre : slabPre Vv O W d
      = iprop((a2Loc d ↦{fullShare} m (a2Loc d)) ∗ (a1Loc d ↦{fullShare} m (a1Loc d)) ∗ (v0Loc d ↦{fullShare} f) ∗ owes (T d) O W) := by
    unfold slabPre; rw [e2, e1, e0]
  have hpost : slabPost Vv O W d
      = iprop((a2Loc d ↦{fullShare} m (a2Loc d)) ∗ (a1Loc d ↦{fullShare} m (a1Loc d)) ∗ (v0Loc d ↦{fullShare} slabV m d)
          ∗ ∃ W', ⌜∀ p ∈ W', p ∈ W ∨ p.2 = none⌝ ∗ owes (T d) O W') := by
    unfold slabPost slabV; rw [e2, e1]
  refine BIBase.Entails.trans ?_ (SparseCore.Cfg.wp_regionSeg_in_main (pcs := pcfgs (F := F)) (a := slabAdm) (pdats := slabDats Vv O W) (ι := none)
    (phinj := slabCellOf_inj) (EP := EP) (defs₀ := defs₀) (𝒱₀ := 𝒱₀) (L := (K (F := F)).L) (lv := (K (F := F)).lev) (K := K (F := F))
    (slabSeg Vv O W hO) d none (fun _ h => by cases h) Φ)
  show _ ⊢ iprop((iprop(boundary (T d) ∗ slabPost Vv O W d)
            -∗ wp frame (wpE (Pipeline.defs (pcfgs (F := F)) defs₀) 𝒱 (T d) none) Set.univ (.ret ⟨⟩) Φ)
        ∗ boundary (T d) ∗ slabPre Vv O W d ∗ levAts (K (F := F)).L (K (F := F)).lev
        ∗ Pipeline.cellsGhost (Pipeline.pin (pcfgs (F := F)) slabAdm) EP 0 d ∗ Pipeline.toksInit (Pipeline.pin (pcfgs (F := F)) slabAdm) EP 0 d)
  rw [hpre, hpost, wp_ret]
  unfold slabGhost
  iintro ⟨Hlev, Hb, H2, H1, H0, HO, ⟨Hcg, Htk⟩, HΦ⟩
  isplitl [HΦ]
  · iintro ⟨Hb, H2, H1, H0, HO⟩
    imodintro
    iapply HΦ
    isplitl [Hb]; · iexact Hb
    isplitl [H2]; · iexact H2
    isplitl [H1]; · iexact H1
    isplitl [H0]; · iexact H0
    iexact HO
  isplitl [Hb]; · iexact Hb
  isplitl [H2 H1 H0 HO]
  · isplitl [H2]; · iexact H2
    isplitl [H1]; · iexact H1
    isplitl [H0]; · iexact H0
    iexact HO
  isplitl [Hlev]; · iexact Hlev
  isplitl [Hcg]; · iexact Hcg
  iexact Htk

/-- THE REGION'S CALL inside @main: from the level facts, the core's boundary, the two tables at the launch's contents,
    the slab's array at anything, what the core owes (nothing at no call's index) and the region's ghost state, the call
    runs to the boundary, the tables as they were, the slab's array at the specification's slab of them, and what the
    core owed, its recorded waits grown by pairs at no call's index only. -/
theorem slab_call (m : (ℓ : Loc nD τ sig) → Buf (Elt F) ℓ) (d : Dev nD) (O : CellTallies nD τ sig (HIx 1)) (W : Waits sig (HIx 1))
    (hO : ∀ g, O g none = 0) (Φ : PUnit → sProp 𝕄) :
    iprop(levAts (K (F := F)).L (K (F := F)).lev ∗ boundary (T d)
        ∗ (a2Loc d ↦{fullShare} m (a2Loc d)) ∗ (a1Loc d ↦{fullShare} m (a1Loc d)) ∗ (∃ f, v0Loc d ↦{fullShare} f)
        ∗ owes (T d) O W ∗ slabGhost d
        ∗ ((boundary (T d) ∗ (a2Loc d ↦{fullShare} m (a2Loc d)) ∗ (a1Loc d ↦{fullShare} m (a1Loc d)) ∗ (v0Loc d ↦{fullShare} slabV m d)
              ∗ ∃ W', ⌜∀ p ∈ W', p ∈ W ∨ p.2 = none⌝ ∗ owes (T d) O W') -∗ Φ ⟨⟩))
      ⊢ wp frame (wpE ((K (F := F)).defs (D (F := F))) 𝒱 (T d) none) Set.univ
          (Prog.lift (TpuEff.customCall (p := Proc.tc) (Λ := SparseCore.Sig (ΛP (F := F)) 1) (SparseCore.inner (Pipeline.entry 0)) ())) Φ := by
  iintro ⟨Hlev, Hb, H2, H1, ⟨%f, H0⟩, HO, Hg, HΦ⟩
  iapply (slab_call_at m d O W hO Φ f)
  isplitl [Hlev]; · iexact Hlev
  isplitl [Hb]; · iexact Hb
  isplitl [H2]; · iexact H2
  isplitl [H1]; · iexact H1
  isplitl [H0]; · iexact H0
  isplitl [HO]; · iexact HO
  isplitl [Hg]; · iexact Hg
  iexact HΦ

end Cert.KernelIdealX

end
-- ==== Proof.KernelIdealX.Pieces.lean ====
/-
  How the slab and the result split among the 32 tiles and join again.

  Tile (c, s) holds the 16 channels starting at 32 s + 16 c. For c < 2 and s < 16 these 32 ranges of 16 channels are
  pairwise disjoint and cover the 512 channels: channel k lies in the range of s = k / 32, c = (k % 32) / 16 and in no
  other. So the slab is the disjoint union of the tiles' slices of it, and the result, batch entry by batch entry, is
  the disjoint union of the tiles' slices of each entry; a points-to on the whole array is the separating conjunction of
  the points-tos on the pieces, read in either direction.
-/
import proofs.«213528_g18287970746974_cont_8to1_881_28_alg».proof.Proof.KernelIdealX.Common

noncomputable section

namespace Cert.KernelIdealX

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The pieces as sets of indices -/

/-- Where batch entry b's slice starts: entry b, the tile's first channel, the whole grid. -/
theorem dstOff_eq (L : grid1.Coords) : ∀ b : Fin 16, dstOff L b = ![b.val, 32 * (L 1).val + 16 * (L 0).val, 0, 0]
  | ⟨0, _⟩ => k1_off2_eq L
  | ⟨1, _⟩ => k1_off3_eq L
  | ⟨2, _⟩ => k1_off4_eq L
  | ⟨3, _⟩ => k1_off5_eq L
  | ⟨4, _⟩ => k1_off6_eq L
  | ⟨5, _⟩ => k1_off7_eq L
  | ⟨6, _⟩ => k1_off8_eq L
  | ⟨7, _⟩ => k1_off9_eq L
  | ⟨8, _⟩ => k1_off10_eq L
  | ⟨9, _⟩ => k1_off11_eq L
  | ⟨10, _⟩ => k1_off12_eq L
  | ⟨11, _⟩ => k1_off13_eq L
  | ⟨12, _⟩ => k1_off14_eq L
  | ⟨13, _⟩ => k1_off15_eq L
  | ⟨14, _⟩ => k1_off16_eq L
  | ⟨15, _⟩ => k1_off17_eq L
  | ⟨_ + 16, h⟩ => absurd h (Nat.not_lt.2 (Nat.le_add_left _ _))

/-- A tile's slice of the slab is its rectangle of the whole array. -/
theorem srcSet_eq (L : grid1.Coords) :
    ((srcM L).view.set : Finset S512x50x50.Idx)
      = (Rect.unit (s := S512x50x50) (k1_off1 L) S16x50x50.size (k1_off1_inb L)).set :=
  View.set_slice_whole main_v0_scv _

/-- An index of the slab lies in a tile's slice exactly when its channel lies in the tile's range. -/
theorem mem_srcSet (L : grid1.Coords) (x : S512x50x50.Idx) :
    x ∈ ((srcM L).view.set : Finset S512x50x50.Idx)
      ↔ 32 * (L 1).val + 16 * (L 0).val ≤ (x 0).val ∧ (x 0).val < 32 * (L 1).val + 16 * (L 0).val + 16 := by
  rw [srcSet_eq, Rect.mem_set_unit, k1_off1_eq]
  constructor
  · intro h; exact h 0
  · intro h a
    match a with
    | ⟨0, _⟩ => exact h
    | ⟨1, h1⟩ =>
      have hx : (x ⟨1, h1⟩).val < 50 := (x ⟨1, h1⟩).isLt
      exact ⟨Nat.zero_le _, show (x ⟨1, h1⟩).val < 0 + 50 by omega⟩
    | ⟨2, h2⟩ =>
      have hx : (x ⟨2, h2⟩).val < 50 := (x ⟨2, h2⟩).isLt
      exact ⟨Nat.zero_le _, show (x ⟨2, h2⟩).val < 0 + 50 by omega⟩

/-- A tile's slice of a batch entry of the result is its rectangle of the whole array (the dropped axis of size one
    does not change which elements the slice holds). -/
theorem dstSet_eq (L : grid1.Coords) (b : Fin 16) :
    ((dstM L b).view.set : Finset S16x512x50x50.Idx)
      = (Rect.unit (s := S16x512x50x50) (dstOff L b) S1x16x50x50.size (dstOff_inb L b)).set :=
  (View.set_reshape _ _).trans (View.set_slice_whole main_v1_scv _)

/-- An index of the result lies in a tile's slice of batch entry b exactly when its batch coordinate is b and its
    channel lies in the tile's range. -/
theorem mem_dstSet (L : grid1.Coords) (b : Fin 16) (y : S16x512x50x50.Idx) :
    y ∈ ((dstM L b).view.set : Finset S16x512x50x50.Idx)
      ↔ (y 0).val = b.val ∧ 32 * (L 1).val + 16 * (L 0).val ≤ (y 1).val
          ∧ (y 1).val < 32 * (L 1).val + 16 * (L 0).val + 16 := by
  rw [dstSet_eq, Rect.mem_set_unit, dstOff_eq]
  constructor
  · intro h
    have h0 : b.val ≤ (y 0).val ∧ (y 0).val < b.val + 1 := h 0
    have h1 : 32 * (L 1).val + 16 * (L 0).val ≤ (y 1).val ∧ (y 1).val < 32 * (L 1).val + 16 * (L 0).val + 16 := h 1
    exact ⟨by omega, h1⟩
  · rintro ⟨h0, h1⟩ a
    match a with
    | ⟨0, ha⟩ =>
      have h0' : (y ⟨0, ha⟩).val = b.val := h0
      exact show b.val ≤ (y ⟨0, ha⟩).val ∧ (y ⟨0, ha⟩).val < b.val + 1 by omega
    | ⟨1, _⟩ => exact h1
    | ⟨2, ha⟩ =>
      have hy : (y ⟨2, ha⟩).val < 50 := (y ⟨2, ha⟩).isLt
      exact ⟨Nat.zero_le _, show (y ⟨2, ha⟩).val < 0 + 50 by omega⟩
    | ⟨3, ha⟩ =>
      have hy : (y ⟨3, ha⟩).val < 50 := (y ⟨3, ha⟩).isLt
      exact ⟨Nat.zero_le _, show (y ⟨3, ha⟩).val < 0 + 50 by omega⟩

/-! ## The 32 slices of the slab: disjoint, and all of it -/

/-- The slice of the slab of tile (c, s). -/
abbrev srcSet (t : Fin 2 × Fin 16) : Finset S512x50x50.Idx := (srcM (coordsV t.1 t.2)).view.set

theorem mem_srcSet' (t : Fin 2 × Fin 16) (x : S512x50x50.Idx) :
    x ∈ srcSet t ↔ 32 * t.2.val + 16 * t.1.val ≤ (x 0).val ∧ (x 0).val < 32 * t.2.val + 16 * t.1.val + 16 :=
  mem_srcSet (coordsV t.1 t.2) x

/-- Two tiles whose channel ranges share a channel are the same tile. -/
theorem tile_unique {c c' s s' k : Nat} (hc : c < 2) (hc' : c' < 2)
    (h : 32 * s + 16 * c ≤ k ∧ k < 32 * s + 16 * c + 16) (h' : 32 * s' + 16 * c' ≤ k ∧ k < 32 * s' + 16 * c' + 16) :
    c = c' ∧ s = s' := by
  omega

theorem src_disjoint : ∀ t ∈ (Finset.univ : Finset (Fin 2 × Fin 16)), ∀ t' ∈ (Finset.univ : Finset (Fin 2 × Fin 16)),
    t ≠ t' → Disjoint (srcSet t) (srcSet t') := by
  intro t _ t' _ hne
  refine Finset.disjoint_left.mpr fun x hx hx' => hne ?_
  have e := tile_unique t.1.isLt t'.1.isLt ((mem_srcSet' t x).mp hx) ((mem_srcSet' t' x).mp hx')
  exact Prod.ext (Fin.ext e.1) (Fin.ext e.2)

theorem src_cover : (Finset.univ : Finset (Fin 2 × Fin 16)).biUnion srcSet = Finset.univ := by
  refine Finset.eq_univ_iff_forall.mpr fun x => ?_
  have hx : (x 0).val < 512 := (x 0).isLt
  refine Finset.mem_biUnion.mpr ⟨(⟨(x 0).val % 32 / 16, by omega⟩, ⟨(x 0).val / 32, by omega⟩), Finset.mem_univ _,
    (mem_srcSet' _ x).mpr ?_⟩
  show 32 * ((x 0).val / 32) + 16 * ((x 0).val % 32 / 16) ≤ (x 0).val
    ∧ (x 0).val < 32 * ((x 0).val / 32) + 16 * ((x 0).val % 32 / 16) + 16
  constructor <;> omega

/-! ## The 32 × 16 slices of the result: disjoint, and all of it -/

/-- The slice of batch entry b of the result of tile (c, s). -/
abbrev dstSet (u : (Fin 2 × Fin 16) × Fin 16) : Finset S16x512x50x50.Idx := (dstM (coordsV u.1.1 u.1.2) u.2).view.set

theorem mem_dstSet' (u : (Fin 2 × Fin 16) × Fin 16) (y : S16x512x50x50.Idx) :
    y ∈ dstSet u ↔ (y 0).val = u.2.val ∧ 32 * u.1.2.val + 16 * u.1.1.val ≤ (y 1).val
      ∧ (y 1).val < 32 * u.1.2.val + 16 * u.1.1.val + 16 :=
  mem_dstSet (coordsV u.1.1 u.1.2) u.2 y

theorem dst_disjoint : ∀ u ∈ (Finset.univ : Finset ((Fin 2 × Fin 16) × Fin 16)),
    ∀ u' ∈ (Finset.univ : Finset ((Fin 2 × Fin 16) × Fin 16)), u ≠ u' → Disjoint (dstSet u) (dstSet u') := by
  intro u _ u' _ hne
  refine Finset.disjoint_left.mpr fun y hy hy' => hne ?_
  have h := (mem_dstSet' u y).mp hy
  have h' := (mem_dstSet' u' y).mp hy'
  have e := tile_unique u.1.1.isLt u'.1.1.isLt h.2 h'.2
  exact Prod.ext (Prod.ext (Fin.ext e.1) (Fin.ext e.2)) (Fin.ext (h.1.symm.trans h'.1))

theorem dst_cover : (Finset.univ : Finset ((Fin 2 × Fin 16) × Fin 16)).biUnion dstSet = Finset.univ := by
  refine Finset.eq_univ_iff_forall.mpr fun y => ?_
  have hy0 : (y 0).val < 16 := (y 0).isLt
  have hy1 : (y 1).val < 512 := (y 1).isLt
  refine Finset.mem_biUnion.mpr ⟨((⟨(y 1).val % 32 / 16, by omega⟩, ⟨(y 1).val / 32, by omega⟩), ⟨(y 0).val, hy0⟩),
    Finset.mem_univ _, (mem_dstSet' _ y).mpr ?_⟩
  show (y 0).val = (y 0).val ∧ 32 * ((y 1).val / 32) + 16 * ((y 1).val % 32 / 16) ≤ (y 1).val
    ∧ (y 1).val < 32 * ((y 1).val / 32) + 16 * ((y 1).val % 32 / 16) + 16
  refine ⟨rfl, ?_, ?_⟩ <;> omega

/-! ## A points-to on a whole array is the separating conjunction of the points-tos on the pieces -/

theorem v0_pieces (d : Dev nD) (g : Buf (Elt F) (v0Loc d)) :
    (v0Loc d ↦{fullShare} g : sProp 𝕄)
      = bigSep Finset.univ fun c : Fin 2 => bigSep Finset.univ fun i : Fin 16 => v0Loc d ↦[srcSet (c, i)]{fullShare} g := by
  have h : (v0Loc d ↦[(Finset.univ : Finset (Fin 2 × Fin 16)).biUnion srcSet]{fullShare} g : sProp 𝕄)
      = bigSep Finset.univ fun t : Fin 2 × Fin 16 => v0Loc d ↦[srcSet t]{fullShare} g :=
    pointsTo_biUnion Finset.univ (ℓ := v0Loc d) srcSet src_disjoint
  rw [src_cover] at h
  exact h.trans (bigSep_univ_prod fun t : Fin 2 × Fin 16 => (v0Loc d ↦[srcSet t]{fullShare} g : sProp 𝕄))

theorem v1_pieces (d : Dev nD) (g : Buf (Elt F) (v1Loc d)) :
    (v1Loc d ↦{fullShare} g : sProp 𝕄)
      = bigSep Finset.univ fun c : Fin 2 => bigSep Finset.univ fun i : Fin 16 => bigSep Finset.univ fun b : Fin 16 =>
          v1Loc d ↦[dstSet ((c, i), b)]{fullShare} g := by
  have h : (v1Loc d ↦[(Finset.univ : Finset ((Fin 2 × Fin 16) × Fin 16)).biUnion dstSet]{fullShare} g : sProp 𝕄)
      = bigSep Finset.univ fun u : (Fin 2 × Fin 16) × Fin 16 => v1Loc d ↦[dstSet u]{fullShare} g :=
    pointsTo_biUnion Finset.univ (ℓ := v1Loc d) dstSet dst_disjoint
  rw [dst_cover] at h
  refine h.trans ((bigSep_univ_prod fun u : (Fin 2 × Fin 16) × Fin 16 => (v1Loc d ↦[dstSet u]{fullShare} g : sProp 𝕄)).trans ?_)
  exact bigSep_univ_prod fun t : Fin 2 × Fin 16 =>
    (bigSep Finset.univ fun b : Fin 16 => v1Loc d ↦[dstSet (t, b)]{fullShare} g : sProp 𝕄)

/-- The result at unknown contents splits into pieces at unknown contents. -/
theorem v1_some_pieces (d : Dev nD) :
    iprop(∃ f, v1Loc d ↦{fullShare} f)
      ⊢ (bigSep Finset.univ fun c : Fin 2 => bigSep Finset.univ fun i : Fin 16 => bigSep Finset.univ fun b : Fin 16 =>
          iprop(∃ f, v1Loc d ↦[dstSet ((c, i), b)]{fullShare} f) : sProp 𝕄) := by
  refine exists_elim fun f => ?_
  rw [v1_pieces d f]
  exact bigSep_mono fun c _ => bigSep_mono fun i _ => bigSep_mono fun b _ =>
    exists_intro (Φ := fun f => (v1Loc d ↦[dstSet ((c, i), b)]{fullShare} f : sProp 𝕄)) f

/-- A conjunction under the two tile indices separates. -/
theorem bigSep2_sep (A B : Fin 2 → Fin 16 → sProp 𝕄) :
    (bigSep Finset.univ fun c : Fin 2 => bigSep Finset.univ fun i : Fin 16 => iprop(A c i ∗ B c i))
      = iprop((bigSep Finset.univ fun c : Fin 2 => bigSep Finset.univ fun i : Fin 16 => A c i)
          ∗ bigSep Finset.univ fun c : Fin 2 => bigSep Finset.univ fun i : Fin 16 => B c i) := by
  rw [← bigSep_sep']
  exact bigSep_congr fun c _ => bigSep_sep' _ _ _

/-! ## What the call's SparseCores are handed and hand back -/

theorem st_eq (m : (ℓ : Loc nD τ sig) → Buf (Elt F) ℓ) (d : Dev nD) :
    (bigSep Finset.univ fun c : Fin ((K (F := F)).nCore 0) => (P m).st 0 d c : sProp 𝕄)
      = bigSep Finset.univ fun c : Fin 2 => bigSep Finset.univ fun i : Fin 16 =>
          iprop((v0Loc d ↦[srcSet (c, i)]{fullShare} slabV m d)
            ∗ bigSep Finset.univ fun b : Fin 16 => iprop(∃ f, v1Loc d ↦[dstSet ((c, i), b)]{fullShare} f)) := rfl

theorem dn_eq (m : (ℓ : Loc nD τ sig) → Buf (Elt F) ℓ) (d : Dev nD) :
    (bigSep Finset.univ fun c : Fin ((K (F := F)).nCore 0) => (P m).dn 0 d c : sProp 𝕄)
      = bigSep Finset.univ fun c : Fin 2 => bigSep Finset.univ fun i : Fin 16 =>
          iprop((v0Loc d ↦[srcSet (c, i)]{fullShare} slabV m d)
            ∗ bigSep Finset.univ fun b : Fin 16 => v1Loc d ↦[dstSet ((c, i), b)]{fullShare} outV m d) := rfl

theorem st0_intro (m : (ℓ : Loc nD τ sig) → Buf (Elt F) ℓ) (d : Dev nD) :
    iprop((v0Loc d ↦{fullShare} slabV m d) ∗ (∃ f, v1Loc d ↦{fullShare} f))
      ⊢ (bigSep Finset.univ fun c : Fin ((K (F := F)).nCore 0) => (P m).st 0 d c : sProp 𝕄) := by
  rw [st_eq, bigSep2_sep, ← v0_pieces]
  iintro ⟨H0, H1⟩
  isplitl [H0]; · iexact H0
  iapply (v1_some_pieces d); iexact H1

theorem dn0_elim (m : (ℓ : Loc nD τ sig) → Buf (Elt F) ℓ) (d : Dev nD) :
    (bigSep Finset.univ fun c : Fin ((K (F := F)).nCore 0) => (P m).dn 0 d c : sProp 𝕄)
      ⊢ iprop((v0Loc d ↦{fullShare} slabV m d) ∗ (v1Loc d ↦{fullShare} outV m d)) := by
  rw [dn_eq, bigSep2_sep, ← v0_pieces, ← v1_pieces]

theorem vecSplit (m : (ℓ : Loc nD τ sig) → Buf (Elt F) ℓ) : (K (F := F)).VecSplit' (P m) 0 := by
  intro d c
  show (bigSep Finset.univ fun i : Fin ((K (F := F)).nSub 0) => goRes m d (tileL c i))
    ⊢ |={Set.univ}=> iprop((bigSep Finset.univ fun i : Fin ((K (F := F)).nSub 0) => goRes m d (tileL c i))
      ∗ ((bigSep Finset.univ fun i : Fin ((K (F := F)).nSub 0) => tdRes m d (tileL c i))
        -∗ bigSep Finset.univ fun i : Fin ((K (F := F)).nSub 0) => tdRes m d (tileL c i)))
  iintro H; imodintro
  isplitl [H]; · iexact H
  iintro H; iexact H

end Cert.KernelIdealX

end
-- ==== Proof.KernelIdealX.Run.lean ====
/-
  The kernel's run: the launch applied to the proofs of the parts — a tile's task, the TensorCore region that builds
  the slab, and the split of the two arrays among the tiles.
-/
import proofs.«213528_g18287970746974_cont_8to1_881_28_alg».proof.Proof.KernelIdealX.Launch
import proofs.«213528_g18287970746974_cont_8to1_881_28_alg».proof.Proof.KernelIdealX.TileBody
import proofs.«213528_g18287970746974_cont_8to1_881_28_alg».proof.Proof.KernelIdealX.SlabRegion
import proofs.«213528_g18287970746974_cont_8to1_881_28_alg».proof.Proof.KernelIdealX.Pieces

noncomputable section

namespace Cert.KernelIdealX

open Cert.KernelIdeal Cert.KernelIdeal.Gen
open Idealize.ShloMosaic Idealize.SL.Sem

variable {F : FTy → Type} [FloatOps F]

/-- Every weakly fair execution of the device's threads — @main on the TensorCore, the two sequencers, the 32 tiles —
    terminates, nothing faulting, with the result at the specification of the launch's two weight tables and the three
    arguments unchanged. -/
theorem run [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ (fun r => ∀ c : Dev nD,
      r.2.mem ((c.tc : Thread nD τ).loc main_v1) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of_parts m ρ (slabGhost (F := F)) uP (slabGhost_fund (F := F))
    (fun d L O W hO => tile_body m d L O W hO) (fun d O W hO Φ => slab_call m d O W hO Φ)
    (st0_intro m) (dn0_elim m) (vecSplit m)

end Cert.KernelIdealX

end
-- ==== Proof.RefRunOps.lean ====
/-
  The reference program as a straight line of host operations.

  The program builds two index vectors 0, 1, …, 49, looks each up in a weight table (one table of 50 × 256 entries per
  vector) through an outlined "take" function, spreads the first looked-up table over the rows and the second over the
  columns of a 50 × 50 grid, joins the two along the feature axis, moves the feature axis in front and repeats the
  result for each of the 16 batch entries. The take function is itself a straight line of 23 operations: the index
  vector is corrected for negative entries (an entry below zero has the table's length added), every entry is tested
  for lying in the table, the table's rows are gathered at the corrected entries, and a row whose entry was out of
  range is replaced by a fill value.

  Here the two calls are written out at their call sites over the buffers each call names, which makes the whole program
  a list of 56 operations; the program is shown equal to that list run in order, and therefore every execution ends
  with each buffer holding the fold of the operations' functions over the initial contents. The fold at the result
  buffer is then named as one function of the two tables, and the three argument buffers are never written.
-/
import proofs.«213528_g18287970746974_cont_8to1_881_28_alg».proof.ReferenceIdeal
import proofs.«213528_g18287970746974_cont_8to1_881_28_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem
  Idealize.ShloMosaic.StableHlo

variable {F : FTy → Type} [FloatOps F]

/-- The 56 operations in program order: the two index vectors; the 23 operations of the first lookup (into the column
    table), the 23 of the second (into the row table); then the two spreads over the grid (two steps each: a unit axis
    is inserted, then widened), the join along the feature axis, the move of that axis to the front and the repetition
    over the batch (again two steps). -/
abbrev ops : List (HloOp τ sig (Elt F)) :=
  [ nullary main_v0 (iotaInDim S50 32 0),
    nullary main_v1 (iotaInDim S50 32 0),
    TRef.nullary main_call0.c (constantI S_ 32 0#32),
    TRef.unary main_call0.c main_call0.v0 (broadcastInDim S50 ![] bcast_S_S50),
    TRef.binary (.of main_v0) main_call0.v0 main_call0.v1 (cmpi .slt),
    TRef.nullary main_call0.c_0 (constantI S_ 32 50#32),
    TRef.unary main_call0.c_0 main_call0.v2 (broadcastInDim S50 ![] bcast_S_S50),
    TRef.binary (.of main_v0) main_call0.v2 main_call0.v3 addi,
    TRef.ternary main_call0.v1 main_call0.v3 (.of main_v0) main_call0.call0.v0 select,
    TRef.unary main_call0.call0.v0 main_call0.v5 (broadcastInDim S50x1 ![0] bcast_S50_S50x1_0),
    TRef.nullary main_call0.c_1 (constantI S1 32 49#32),
    TRef.nullary main_call0.c_2 (constantI S_ 32 0#32),
    TRef.unary main_call0.c_2 main_call0.v6 (broadcastInDim S50x1 ![] bcast_S_S50x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S50x1 ![0, 1] bcast_S1x1_S50x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S50x1_S50_d1 h_S_),
    TRef.binary (.of main_arg2) main_call0.v5 main_call0.v13 (fun x i => Host.gather gather_S50x256_S50x1_S50x256_1_0_n_n_0_1_1256 x i),
    TRef.unary main_call0.v12 main_call0.v14 (broadcastInDim S50x256 ![0] bcast_S50_S50x256_0),
    TRef.nullary main_call0.cst (constant S_ .f32 0x7FC00000#32),
    TRef.unary main_call0.cst main_call0.v15 (broadcastInDim S50x256 ![] bcast_S_S50x256),
    TRef.ternary main_call0.v14 main_call0.v13 main_call0.v15 main_call0.v16 select,
    TRef.nullary main_call1.c (constantI S_ 32 0#32),
    TRef.unary main_call1.c main_call1.v0 (broadcastInDim S50 ![] bcast_S_S50),
    TRef.binary (.of main_v1) main_call1.v0 main_call1.v1 (cmpi .slt),
    TRef.nullary main_call1.c_0 (constantI S_ 32 50#32),
    TRef.unary main_call1.c_0 main_call1.v2 (broadcastInDim S50 ![] bcast_S_S50),
    TRef.binary (.of main_v1) main_call1.v2 main_call1.v3 addi,
    TRef.ternary main_call1.v1 main_call1.v3 (.of main_v1) main_call1.call0.v0 select,
    TRef.unary main_call1.call0.v0 main_call1.v5 (broadcastInDim S50x1 ![0] bcast_S50_S50x1_0),
    TRef.nullary main_call1.c_1 (constantI S1 32 49#32),
    TRef.nullary main_call1.c_2 (constantI S_ 32 0#32),
    TRef.unary main_call1.c_2 main_call1.v6 (broadcastInDim S50x1 ![] bcast_S_S50x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S50x1 ![0, 1] bcast_S1x1_S50x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S50x1_S50_d1 h_S_),
    TRef.binary (.of main_arg1) main_call1.v5 main_call1.v13 (fun x i => Host.gather gather_S50x256_S50x1_S50x256_1_0_n_n_0_1_1256 x i),
    TRef.unary main_call1.v12 main_call1.v14 (broadcastInDim S50x256 ![0] bcast_S50_S50x256_0),
    TRef.nullary main_call1.cst (constant S_ .f32 0x7FC00000#32),
    TRef.unary main_call1.cst main_call1.v15 (broadcastInDim S50x256 ![] bcast_S_S50x256),
    TRef.ternary main_call1.v14 main_call1.v13 main_call1.v15 main_call1.v16 select,
    unary main_v2 main_v4 (broadcastInDim S1x50x256 ![1, 2] bcast_S50x256_S1x50x256_1_2 : (⟨S50x256, .f32⟩ : BufTy).Contents (Elt F) → (⟨S1x50x256, .f32⟩ : BufTy).Contents (Elt F)),
    unary main_v4 main_v5 (broadcastInDim S50x50x256 ![0, 1, 2] bcast_S1x50x256_S50x50x256_0_1_2 : (⟨S1x50x256, .f32⟩ : BufTy).Contents (Elt F) → (⟨S50x50x256, .f32⟩ : BufTy).Contents (Elt F)),
    unary main_v3 main_v6 (broadcastInDim S50x1x256 ![0, 2] bcast_S50x256_S50x1x256_0_2 : (⟨S50x256, .f32⟩ : BufTy).Contents (Elt F) → (⟨S50x1x256, .f32⟩ : BufTy).Contents (Elt F)),
    unary main_v6 main_v7 (broadcastInDim S50x50x256 ![0, 1, 2] bcast_S50x1x256_S50x50x256_0_1_2 : (⟨S50x1x256, .f32⟩ : BufTy).Contents (Elt F) → (⟨S50x50x256, .f32⟩ : BufTy).Contents (Elt F)),
    binary main_v5 main_v7 main_v8 ((fun a b => concatenate S50x50x512 2 [⟨S50x50x256, a⟩, ⟨S50x50x256, b⟩] concatenates_S50x50x256_S50x50x256_S50x50x512_d2) : (⟨S50x50x256, .f32⟩ : BufTy).Contents (Elt F) → (⟨S50x50x256, .f32⟩ : BufTy).Contents (Elt F) → (⟨S50x50x512, .f32⟩ : BufTy).Contents (Elt F)),
    unary main_v8 main_v9 ((transpose S512x50x50 [2, 0, 1] · transposes_S50x50x512_S512x50x50_2_0_1) : (⟨S50x50x512, .f32⟩ : BufTy).Contents (Elt F) → (⟨S512x50x50, .f32⟩ : BufTy).Contents (Elt F)),
    unary main_v9 main_v10 (broadcastInDim S1x512x50x50 ![1, 2, 3] bcast_S512x50x50_S1x512x50x50_1_2_3 : (⟨S512x50x50, .f32⟩ : BufTy).Contents (Elt F) → (⟨S1x512x50x50, .f32⟩ : BufTy).Contents (Elt F)),
    unary main_v10 main_v11 (broadcastInDim S16x512x50x50 ![0, 1, 2, 3] bcast_S1x512x50x50_S16x512x50x50_0_1_2_3 : (⟨S1x512x50x50, .f32⟩ : BufTy).Contents (Elt F) → (⟨S16x512x50x50, .f32⟩ : BufTy).Contents (Elt F)) ]

-- fifty-six sequencing steps are re-associated one inside the other
set_option maxRecDepth 2048 in
/-- The program is that list run in order: unfolding the two lookups (and the selection each contains) at their call
    sites leaves one chain of steps on either side. -/
theorem main_eq (c : Dev nD) : main (F := F) c = seq ops := by
  simp only [main, fn_take.body, fn_where.body, seq, bind_assoc, pure_bind]

/-- No buffer of the program is scoped to a region. -/
theorem scopedRefs_eq : (Finset.univ.filter fun b : Ref sig .tc => b.isScoped) = ∅ := by decide
/-- The program has no semaphore, scoped or not. -/
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., unary_bufs_sub .., binary_bufs_sub .., unary_bufs_sub .., unary_bufs_sub .., unary_bufs_sub ..⟩

/-- Every execution of the program terminates, and every buffer then holds the fold of the 56 operations over what
    the buffers held at the start. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result buffer, as a function of the two tables -/

/-- An index vector with its negative entries moved up by the table's length 50 (the other entries kept). -/
def fixIdx (idx : (⟨S50, .i32⟩ : BufTy).Contents (Elt F)) : (⟨S50, .i32⟩ : BufTy).Contents (Elt F) :=
  select (cmpi .slt idx (broadcastInDim S50 ![] bcast_S_S50 (constantI S_ 32 0#32)))
    (addi idx (broadcastInDim S50 ![] bcast_S_S50 (constantI S_ 32 50#32))) idx

/-- The corrected index vector as a column of 50 one-entry rows: the start indices the gather reads. -/
def startIdx (idx : (⟨S50, .i32⟩ : BufTy).Contents (Elt F)) : (⟨S50x1, .i32⟩ : BufTy).Contents (Elt F) :=
  broadcastInDim S50x1 ![0] bcast_S50_S50x1_0 (fixIdx idx)

/-- Per entry, whether the corrected index lies in the table: at least 0 and at most 49, the conjunction taken over
    the one component of each start index. -/
def inRange (idx : (⟨S50, .i32⟩ : BufTy).Contents (Elt F)) : (⟨S50, .i1⟩ : BufTy).Contents (Elt F) :=
  Host.reduce IntOp.andi
    (andi (cmpi .sge (startIdx idx) (broadcastInDim S50x1 ![] bcast_S_S50x1 (constantI S_ 32 0#32)))
      (cmpi .sle (startIdx idx) (broadcastInDim S50x1 ![0, 1] bcast_S1x1_S50x1_0_1
        (broadcastInDim S1x1 ![1] bcast_S1_S1x1_1 (constantI S1 32 49#32)))))
    (constantI S_ 1 1#1) reducesTo_S50x1_S50_d1 h_S_

/-- The lookup: row `i` of the result is the table's row at the corrected entry `i` of the index vector where that
    entry lies in the table, and the fill value elsewhere. -/
def take (tab : (⟨S50x256, .f32⟩ : BufTy).Contents (Elt F)) (idx : (⟨S50, .i32⟩ : BufTy).Contents (Elt F)) : (⟨S50x256, .f32⟩ : BufTy).Contents (Elt F) :=
  select (broadcastInDim S50x256 ![0] bcast_S50_S50x256_0 (inRange (F := F) idx))
    (Host.gather gather_S50x256_S50x1_S50x256_1_0_n_n_0_1_1256 tab (startIdx (F := F) idx))
    (broadcastInDim S50x256 ![] bcast_S_S50x256 (constant S_ .f32 0x7FC00000#32))

/-- The looked-up column table spread over the rows of the grid: entry (i, j, ·) is row j of the lookup. -/
def overRows (cw : (⟨S50x256, .f32⟩ : BufTy).Contents (Elt F)) : (⟨S50x50x256, .f32⟩ : BufTy).Contents (Elt F) :=
  broadcastInDim S50x50x256 ![0, 1, 2] bcast_S1x50x256_S50x50x256_0_1_2
    (broadcastInDim S1x50x256 ![1, 2] bcast_S50x256_S1x50x256_1_2 (take cw (iotaInDim S50 32 0)))

/-- The looked-up row table spread over the columns of the grid: entry (i, j, ·) is row i of the lookup. -/
def overCols (rw : (⟨S50x256, .f32⟩ : BufTy).Contents (Elt F)) : (⟨S50x50x256, .f32⟩ : BufTy).Contents (Elt F) :=
  broadcastInDim S50x50x256 ![0, 1, 2] bcast_S50x1x256_S50x50x256_0_1_2
    (broadcastInDim S50x1x256 ![0, 2] bcast_S50x256_S50x1x256_0_2 (take rw (iotaInDim S50 32 0)))

/-- The two spreads joined along the feature axis, that axis moved in front: 512 channels over the grid. -/
def slab (cw rw : (⟨S50x256, .f32⟩ : BufTy).Contents (Elt F)) : (⟨S512x50x50, .f32⟩ : BufTy).Contents (Elt F) :=
  transpose S512x50x50 [2, 0, 1]
    (concatenate S50x50x512 2 [⟨S50x50x256, overRows cw⟩, ⟨S50x50x256, overCols rw⟩]
      concatenates_S50x50x256_S50x50x256_S50x50x512_d2)
    transposes_S50x50x512_S512x50x50_2_0_1

/-- What the program leaves in its result buffer, as a function of the column table and the row table: the slab once
    per batch entry. -/
def result (cw rw : (⟨S50x256, .f32⟩ : BufTy).Contents (Elt F)) : (⟨S16x512x50x50, .f32⟩ : BufTy).Contents (Elt F) :=
  broadcastInDim S16x512x50x50 ![0, 1, 2, 3] bcast_S1x512x50x50_S16x512x50x50_0_1_2_3
    (broadcastInDim S1x512x50x50 ![1, 2, 3] bcast_S512x50x50_S1x512x50x50_1_2_3 (slab cw rw))

/-! ## The fold at the result buffer is that function -/

/-- The operations up to the two spreads (52 of them) … -/
abbrev opsHead : List (HloOp τ sig (Elt F)) :=
  [ nullary main_v0 (iotaInDim S50 32 0),
    nullary main_v1 (iotaInDim S50 32 0),
    TRef.nullary main_call0.c (constantI S_ 32 0#32),
    TRef.unary main_call0.c main_call0.v0 (broadcastInDim S50 ![] bcast_S_S50),
    TRef.binary (.of main_v0) main_call0.v0 main_call0.v1 (cmpi .slt),
    TRef.nullary main_call0.c_0 (constantI S_ 32 50#32),
    TRef.unary main_call0.c_0 main_call0.v2 (broadcastInDim S50 ![] bcast_S_S50),
    TRef.binary (.of main_v0) main_call0.v2 main_call0.v3 addi,
    TRef.ternary main_call0.v1 main_call0.v3 (.of main_v0) main_call0.call0.v0 select,
    TRef.unary main_call0.call0.v0 main_call0.v5 (broadcastInDim S50x1 ![0] bcast_S50_S50x1_0),
    TRef.nullary main_call0.c_1 (constantI S1 32 49#32),
    TRef.nullary main_call0.c_2 (constantI S_ 32 0#32),
    TRef.unary main_call0.c_2 main_call0.v6 (broadcastInDim S50x1 ![] bcast_S_S50x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S50x1 ![0, 1] bcast_S1x1_S50x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S50x1_S50_d1 h_S_),
    TRef.binary (.of main_arg2) main_call0.v5 main_call0.v13 (fun x i => Host.gather gather_S50x256_S50x1_S50x256_1_0_n_n_0_1_1256 x i),
    TRef.unary main_call0.v12 main_call0.v14 (broadcastInDim S50x256 ![0] bcast_S50_S50x256_0),
    TRef.nullary main_call0.cst (constant S_ .f32 0x7FC00000#32),
    TRef.unary main_call0.cst main_call0.v15 (broadcastInDim S50x256 ![] bcast_S_S50x256),
    TRef.ternary main_call0.v14 main_call0.v13 main_call0.v15 main_call0.v16 select,
    TRef.nullary main_call1.c (constantI S_ 32 0#32),
    TRef.unary main_call1.c main_call1.v0 (broadcastInDim S50 ![] bcast_S_S50),
    TRef.binary (.of main_v1) main_call1.v0 main_call1.v1 (cmpi .slt),
    TRef.nullary main_call1.c_0 (constantI S_ 32 50#32),
    TRef.unary main_call1.c_0 main_call1.v2 (broadcastInDim S50 ![] bcast_S_S50),
    TRef.binary (.of main_v1) main_call1.v2 main_call1.v3 addi,
    TRef.ternary main_call1.v1 main_call1.v3 (.of main_v1) main_call1.call0.v0 select,
    TRef.unary main_call1.call0.v0 main_call1.v5 (broadcastInDim S50x1 ![0] bcast_S50_S50x1_0),
    TRef.nullary main_call1.c_1 (constantI S1 32 49#32),
    TRef.nullary main_call1.c_2 (constantI S_ 32 0#32),
    TRef.unary main_call1.c_2 main_call1.v6 (broadcastInDim S50x1 ![] bcast_S_S50x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S50x1 ![0, 1] bcast_S1x1_S50x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S50x1_S50_d1 h_S_),
    TRef.binary (.of main_arg1) main_call1.v5 main_call1.v13 (fun x i => Host.gather gather_S50x256_S50x1_S50x256_1_0_n_n_0_1_1256 x i),
    TRef.unary main_call1.v12 main_call1.v14 (broadcastInDim S50x256 ![0] bcast_S50_S50x256_0),
    TRef.nullary main_call1.cst (constant S_ .f32 0x7FC00000#32),
    TRef.unary main_call1.cst main_call1.v15 (broadcastInDim S50x256 ![] bcast_S_S50x256),
    TRef.ternary main_call1.v14 main_call1.v13 main_call1.v15 main_call1.v16 select,
    unary main_v2 main_v4 (broadcastInDim S1x50x256 ![1, 2] bcast_S50x256_S1x50x256_1_2 : (⟨S50x256, .f32⟩ : BufTy).Contents (Elt F) → (⟨S1x50x256, .f32⟩ : BufTy).Contents (Elt F)),
    unary main_v4 main_v5 (broadcastInDim S50x50x256 ![0, 1, 2] bcast_S1x50x256_S50x50x256_0_1_2 : (⟨S1x50x256, .f32⟩ : BufTy).Contents (Elt F) → (⟨S50x50x256, .f32⟩ : BufTy).Contents (Elt F)),
    unary main_v3 main_v6 (broadcastInDim S50x1x256 ![0, 2] bcast_S50x256_S50x1x256_0_2 : (⟨S50x256, .f32⟩ : BufTy).Contents (Elt F) → (⟨S50x1x256, .f32⟩ : BufTy).Contents (Elt F)),
    unary main_v6 main_v7 (broadcastInDim S50x50x256 ![0, 1, 2] bcast_S50x1x256_S50x50x256_0_1_2 : (⟨S50x1x256, .f32⟩ : BufTy).Contents (Elt F) → (⟨S50x50x256, .f32⟩ : BufTy).Contents (Elt F)) ]

/-- … and the four that follow: the join, the move of the feature axis, the repetition over the batch. -/
abbrev opsTail : List (HloOp τ sig (Elt F)) :=
  [ binary main_v5 main_v7 main_v8 ((fun a b => concatenate S50x50x512 2 [⟨S50x50x256, a⟩, ⟨S50x50x256, b⟩] concatenates_S50x50x256_S50x50x256_S50x50x512_d2) : (⟨S50x50x256, .f32⟩ : BufTy).Contents (Elt F) → (⟨S50x50x256, .f32⟩ : BufTy).Contents (Elt F) → (⟨S50x50x512, .f32⟩ : BufTy).Contents (Elt F)),
    unary main_v8 main_v9 ((transpose S512x50x50 [2, 0, 1] · transposes_S50x50x512_S512x50x50_2_0_1) : (⟨S50x50x512, .f32⟩ : BufTy).Contents (Elt F) → (⟨S512x50x50, .f32⟩ : BufTy).Contents (Elt F)),
    unary main_v9 main_v10 (broadcastInDim S1x512x50x50 ![1, 2, 3] bcast_S512x50x50_S1x512x50x50_1_2_3 : (⟨S512x50x50, .f32⟩ : BufTy).Contents (Elt F) → (⟨S1x512x50x50, .f32⟩ : BufTy).Contents (Elt F)),
    unary main_v10 main_v11 (broadcastInDim S16x512x50x50 ![0, 1, 2, 3] bcast_S1x512x50x50_S16x512x50x50_0_1_2_3 : (⟨S1x512x50x50, .f32⟩ : BufTy).Contents (Elt F) → (⟨S16x512x50x50, .f32⟩ : BufTy).Contents (Elt F)) ]

/-- The list is the two parts one after the other. -/
theorem ops_split : (ops : List (HloOp τ sig (Elt F))) = opsHead ++ opsTail := rfl

/-- Folding over two lists in a row is folding over the second from where the first ends. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 8192 in
/-- After the first part the buffer of the first spread holds the column table's spread: each operation's result is
    read at its own buffer and skipped at every other, and the typed buffer references of the two lookups' operations
    carry their contents unchanged. -/
theorem head_v5 (V : Valuation τ sig (Elt F)) :
    after opsHead V (main_v5 : DevRef τ sig) = overRows (V (main_arg2 : DevRef τ sig)) := by
  simp (disch := decide) only [after_cons, after_nil, TRef.nullary, TRef.unary, TRef.binary, TRef.ternary, TRef.of, TRef.toBuf, TRef.ofBuf, cast_eq,
    nullary_result', unary_result', binary_result', ternary_result',
    nullary_result_ne', unary_result_ne', binary_result_ne', ternary_result_ne']
  rfl

set_option maxRecDepth 8192 in
/-- After the first part the buffer of the second spread holds the row table's spread. -/
theorem head_v7 (V : Valuation τ sig (Elt F)) :
    after opsHead V (main_v7 : DevRef τ sig) = overCols (V (main_arg1 : DevRef τ sig)) := by
  simp (disch := decide) only [after_cons, after_nil, TRef.nullary, TRef.unary, TRef.binary, TRef.ternary, TRef.of, TRef.toBuf, TRef.ofBuf, cast_eq,
    nullary_result', unary_result', binary_result', ternary_result',
    nullary_result_ne', unary_result_ne', binary_result_ne', ternary_result_ne']
  rfl

/-- The last four operations put in the result buffer the join of the two spreads' buffers, its feature axis moved to
    the front, repeated over the batch. -/
theorem tail_v11 (W : Valuation τ sig (Elt F)) :
    after opsTail W (main_v11 : DevRef τ sig)
      = broadcastInDim S16x512x50x50 ![0, 1, 2, 3] bcast_S1x512x50x50_S16x512x50x50_0_1_2_3
          (broadcastInDim S1x512x50x50 ![1, 2, 3] bcast_S512x50x50_S1x512x50x50_1_2_3
            (transpose S512x50x50 [2, 0, 1]
              (concatenate S50x50x512 2 [⟨S50x50x256, W (main_v5 : DevRef τ sig)⟩, ⟨S50x50x256, W (main_v7 : DevRef τ sig)⟩]
                concatenates_S50x50x256_S50x50x256_S50x50x512_d2)
              transposes_S50x50x512_S512x50x50_2_0_1)) := by
  simp (disch := decide) only [after_cons, after_nil, TRef.nullary, TRef.unary, TRef.binary, TRef.ternary, TRef.of, TRef.toBuf, TRef.ofBuf, cast_eq,
    nullary_result', unary_result', binary_result', ternary_result',
    nullary_result_ne', unary_result_ne', binary_result_ne', ternary_result_ne']

/-- The fold of all 56 operations at the result buffer is the composed function of the two tables. -/
theorem after_v11 (V : Valuation τ sig (Elt F)) :
    after ops V (main_v11 : DevRef τ sig) = result (V (main_arg2 : DevRef τ sig)) (V (main_arg1 : DevRef τ sig)) := by
  rw [ops_split, after_append, tail_v11, head_v5, head_v7]
  rfl

set_option maxRecDepth 8192 in
/-- No operation writes the mask argument … -/
theorem after_arg0 (V : Valuation τ sig (Elt F)) : after ops V (main_arg0 : DevRef τ sig) = V (main_arg0 : DevRef τ sig) := by
  simp (disch := decide) only [after_cons, after_nil, TRef.nullary, TRef.unary, TRef.binary, TRef.ternary, TRef.of, TRef.toBuf, TRef.ofBuf, cast_eq,
    nullary_result', unary_result', binary_result', ternary_result',
    nullary_result_ne', unary_result_ne', binary_result_ne', ternary_result_ne']

set_option maxRecDepth 8192 in
/-- … nor the row table … -/
theorem after_arg1 (V : Valuation τ sig (Elt F)) : after ops V (main_arg1 : DevRef τ sig) = V (main_arg1 : DevRef τ sig) := by
  simp (disch := decide) only [after_cons, after_nil, TRef.nullary, TRef.unary, TRef.binary, TRef.ternary, TRef.of, TRef.toBuf, TRef.ofBuf, cast_eq,
    nullary_result', unary_result', binary_result', ternary_result',
    nullary_result_ne', unary_result_ne', binary_result_ne', ternary_result_ne']

set_option maxRecDepth 8192 in
/-- … nor the column table. -/
theorem after_arg2 (V : Valuation τ sig (Elt F)) : after ops V (main_arg2 : DevRef τ sig) = V (main_arg2 : DevRef τ sig) := by
  simp (disch := decide) only [after_cons, after_nil, TRef.nullary, TRef.unary, TRef.binary, TRef.ternary, TRef.of, TRef.toBuf, TRef.ofBuf, cast_eq,
    nullary_result', unary_result', binary_result', ternary_result',
    nullary_result_ne', unary_result_ne', binary_result_ne', ternary_result_ne']

/-- Every execution of the program terminates with the result buffer at the composed function of the two tables'
    initial contents and the three arguments as they were. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
          = result (m ((c.tc : Thread nD τ).loc main_arg2)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v11).trans (after_v11 _), (h c main_arg0).trans (after_arg0 _),
      (h c main_arg1).trans (after_arg1 _), (h c main_arg2).trans (after_arg2 _)⟩)
    (run_after m ρ)

end Cert.RefRun

end
-- ==== Proof.RefRunValue.lean ====
/-
  The function the reference program computes is the specification function.

  The program's result was named as a composition of whole-array operations on the two tables. Here that composition is
  read at one index at a time. The lookup's index vectors hold 0, 1, …, 49, each entry a valid row number of a 50-row
  table: so the correction for negative entries changes nothing, the range test succeeds for every entry, the gather
  reads row i for entry i, and the selection never takes the fill value — the lookup returns its table unchanged. The two
  spreads then read the column table at the grid column and the row table at the grid row; the join along the feature
  axis puts the first in channels below 256 and the second in the channels from 256 on; the move of the feature axis to
  the front and the repetition over the batch only rename coordinates.
-/
import proofs.«213528_g18287970746974_cont_8to1_881_28_alg».proof.Proof.RefRunOps
import proofs.«213528_g18287970746974_cont_8to1_881_28_alg».proof.Proof.Spec
import Idealize.ShloMosaic.Lib.IdealHost
import Idealize.ShloMosaic.Lib.Pipeline.Value
import Idealize.ShloMosaic.PureOps.Reduce

noncomputable section

namespace Cert.RefRun

open Cert.ReferenceIdeal Cert.ReferenceIdeal.Gen Idealize.ShloMosaic Idealize.ShloMosaic.ValueIdx

variable {F : FTy → Type} [FloatOps F]

/-! ## Words: the entries 0 … 49 of the index vectors -/

/-- None of 0 … 49 is negative as a signed 32-bit word. -/
theorem word_slt : ∀ n : Fin 50, IntOp.cmpi .slt (BitVec.ofNat 32 n.val) 0#32 = 0#1 := by decide
/-- Each of 0 … 49 is at least 0 as a signed 32-bit word. -/
theorem word_sge : ∀ n : Fin 50, IntOp.cmpi .sge (BitVec.ofNat 32 n.val) 0#32 = 1#1 := by decide
/-- Each of 0 … 49 is at most 49 as a signed 32-bit word. -/
theorem word_sle : ∀ n : Fin 50, IntOp.cmpi .sle (BitVec.ofNat 32 n.val) 49#32 = 1#1 := by decide
/-- Read back as a signed number and clamped into 0 … 49, the word of `n` is `n`. -/
theorem word_clamp : ∀ n : Fin 50, min (BitVec.ofNat 32 n.val).toInt.toNat (50 - 1) = n.val := by decide

/-- A conjunction of ones, taken from one, is one. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-! ## The lookup at the index vector 0, 1, …, 49 is the table -/

/-- No entry of 0, 1, …, 49 is negative, so the correction keeps every entry. -/
theorem fixIdx_iota (j : S50.Idx) : fixIdx (F := F) (iotaInDim S50 32 0) j = BitVec.ofNat 32 (j 0).val := by
  show Scalar.select (IntOp.cmpi .slt (BitVec.ofNat 32 (j 0).val) 0#32) _ (BitVec.ofNat 32 (j 0).val) = _
  rw [word_slt (j 0), select_zero]

/-- Start index `i` is the word of `i`. -/
theorem startIdx_iota (i : S50x1.Idx) : startIdx (F := F) (iotaInDim S50 32 0) i = BitVec.ofNat 32 (i 0).val := by
  unfold startIdx
  rw [broadcastInDim_apply _ _ _ i (ix1 (n := 50) ⟨(i 0).val, (i 0).isLt⟩) (fun a => match a with | ⟨0, _⟩ => rfl), fixIdx_iota]

/-- Every entry lies in the table. -/
theorem inRange_iota (j : S50.Idx) : inRange (F := F) (iotaInDim S50 32 0) j = 1#1 := by
  unfold inRange
  rw [Host.reduce_eq_foldl]
  refine foldl_andi_ones _ _ fun i _ => ?_
  show IntOp.andi (IntOp.cmpi .sge (startIdx (F := F) (iotaInDim S50 32 0) i) 0#32)
    (IntOp.cmpi .sle (startIdx (F := F) (iotaInDim S50 32 0) i) 49#32) = 1#1
  rw [startIdx_iota, word_sge (i 0), word_sle (i 0)]
  decide

/-! ## The gather at an index -/

/-- Row `y 0`, feature `y 1` of the gathered table is the table's entry at the row that start index `y 0` names — read as
    a signed number and clamped into 0 … 49 — and the same feature: the row axis is collapsed (one row per start index),
    the feature axis is taken whole. -/
theorem gather_rows_apply {α : Type} (x : S50x256.Idx → α) (idx : IVec S50x1 32) (y : S50x256.Idx) :
    Host.gather gather_S50x256_S50x1_S50x256_1_0_n_n_0_1_1256 x idx y
      = x (ix2 (n0 := 50) (n1 := 256)
          ⟨min (idx (ix2 (n0 := 50) (n1 := 1) ⟨(y 0).val, (y 0).isLt⟩ ⟨0, Nat.one_pos⟩)).toInt.toNat (50 - 1), by omega⟩
          ⟨(y 1).val, (y 1).isLt⟩) := by
  unfold Host.gather
  congr 1
  funext a
  refine Fin.ext ?_
  match a with
  | ⟨0, _⟩ =>
    show gather_S50x256_S50x1_S50x256_1_0_n_n_0_1_1256.start y idx 0
      + gather_S50x256_S50x1_S50x256_1_0_n_n_0_1_1256.batchCoord y 0
      + gather_S50x256_S50x1_S50x256_1_0_n_n_0_1_1256.offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50x256_S50x1_S50x256_1_0_n_n_0_1_1256.startIndexMap from List.mem_singleton.mpr rfl)]
    have hsi : gather_S50x256_S50x1_S50x256_1_0_n_n_0_1_1256.siIdx y
        ⟨List.idxOf (0 : Fin 2) gather_S50x256_S50x1_S50x256_1_0_n_n_0_1_1256.startIndexMap,
          List.idxOf_lt_length_iff.2 (List.mem_singleton.mpr rfl)⟩
        = ix2 (n0 := 50) (n1 := 1) ⟨(y 0).val, (y 0).isLt⟩ ⟨0, Nat.one_pos⟩ := by
      funext b; refine Fin.ext ?_
      match b with
      | ⟨0, _⟩ => rfl
      | ⟨1, _⟩ => rfl
    rw [hsi]
    rfl
  | ⟨1, _⟩ =>
    show gather_S50x256_S50x1_S50x256_1_0_n_n_0_1_1256.start y idx 1
      + gather_S50x256_S50x1_S50x256_1_0_n_n_0_1_1256.batchCoord y 1
      + gather_S50x256_S50x1_S50x256_1_0_n_n_0_1_1256.offCoord y 1 = _
    rw [GatherDims.batchCoord_eq_zero _ _ _ List.not_mem_nil]
    unfold GatherDims.start
    rw [dif_neg (show (1 : Fin 2) ∉ gather_S50x256_S50x1_S50x256_1_0_n_n_0_1_1256.startIndexMap from by decide)]
    simp only [Nat.add_zero, Nat.zero_add]
    unfold GatherDims.offCoord
    rw [dif_pos (show (1 : Fin 2) ∈ gather_S50x256_S50x1_S50x256_1_0_n_n_0_1_1256.sKept from by decide)]
    rfl

/-- At the index vector 0, 1, …, 49 the lookup returns the table: every entry lies in the table, so no row is replaced by
    the fill value, and the gather reads row `i` at entry `i`. -/
theorem take_iota (tab : S50x256.Idx → Elt F .f32) (y : S50x256.Idx) :
    take (F := F) tab (iotaInDim S50 32 0) y = tab y := by
  unfold take
  rw [select_apply,
    broadcastInDim_apply _ _ _ y (ix1 (n := 50) ⟨(y 0).val, (y 0).isLt⟩) (fun a => match a with | ⟨0, _⟩ => rfl),
    inRange_iota, select_one, gather_rows_apply]
  congr 1
  funext a
  match a with
  | ⟨0, _⟩ =>
    refine Fin.ext ?_
    show min (startIdx (F := F) (iotaInDim S50 32 0) (ix2 (n0 := 50) (n1 := 1) ⟨(y 0).val, (y 0).isLt⟩ ⟨0, Nat.one_pos⟩)).toInt.toNat
      (50 - 1) = (y 0).val
    rw [startIdx_iota]
    exact word_clamp (y 0)
  | ⟨1, _⟩ => rfl

/-! ## The spreads, the slab and the result at an index -/

/-- Entry (i, j, k) of the column table's spread is the table's entry (j, k). -/
theorem overRows_apply (cw : S50x256.Idx → Elt F .f32) (i j : Fin 50) (k : Fin 256) :
    overRows (F := F) cw (ix3 i j k) = cw (ix2 j k) := by
  unfold overRows
  rw [broadcastInDim_apply _ _ _ (ix3 i j k) (ix3 (0 : Fin 1) j k)
      (fun a => match a with | ⟨0, _⟩ => rfl | ⟨1, _⟩ => rfl | ⟨2, _⟩ => rfl),
    broadcastInDim_apply _ _ _ (ix3 (0 : Fin 1) j k) (ix2 j k) (fun a => match a with | ⟨0, _⟩ => rfl | ⟨1, _⟩ => rfl),
    take_iota]

/-- Entry (i, j, k) of the row table's spread is the table's entry (i, k). -/
theorem overCols_apply (rw : S50x256.Idx → Elt F .f32) (i j : Fin 50) (k : Fin 256) :
    overCols (F := F) rw (ix3 i j k) = rw (ix2 i k) := by
  unfold overCols
  rw [broadcastInDim_apply _ _ _ (ix3 i j k) (ix3 i (0 : Fin 1) k)
      (fun a => match a with | ⟨0, _⟩ => rfl | ⟨1, _⟩ => rfl | ⟨2, _⟩ => rfl),
    broadcastInDim_apply _ _ _ (ix3 i (0 : Fin 1) k) (ix2 i k) (fun a => match a with | ⟨0, _⟩ => rfl | ⟨1, _⟩ => rfl),
    take_iota]

/-- Channel `c` of the slab at grid point (i, j) is entry (i, j, c) of the two spreads joined along the features. -/
theorem slab_apply (cw rw : S50x256.Idx → Elt F .f32) (c : Fin 512) (i j : Fin 50) :
    slab (F := F) cw rw (ix3 c i j)
      = concatenate S50x50x512 2 [⟨S50x50x256, overRows (F := F) cw⟩, ⟨S50x50x256, overCols (F := F) rw⟩]
          concatenates_S50x50x256_S50x50x256_S50x50x512_d2 (ix3 i j c) := by
  unfold slab
  exact transpose_apply _ _ _ (ix3 c i j) (ix3 i j c) (fun b => match b with | ⟨0, _⟩ => rfl | ⟨1, _⟩ => rfl | ⟨2, _⟩ => rfl)

/-- A channel below 256 reads the column table at the grid column. -/
theorem slab_lo (cw rw : S50x256.Idx → Elt F .f32) (c : Fin 512) (i j : Fin 50) (h : c.val < 256) :
    slab (F := F) cw rw (ix3 c i j) = cw (ix2 j ⟨c.val, h⟩) := by
  rw [slab_apply,
    concatenate_pair_apply_left (2 : Fin 3) (overRows (F := F) cw) (overCols (F := F) rw)
      concatenates_S50x50x256_S50x50x256_S50x50x512_d2 (ix3 i j c) rfl (ix3 i j ⟨c.val, h⟩)
      (fun b => match b with | ⟨0, _⟩ => rfl | ⟨1, _⟩ => rfl | ⟨2, _⟩ => rfl),
    overRows_apply]

/-- A channel from 256 on reads the row table at the grid row, 256 features further back. -/
theorem slab_hi (cw rw : S50x256.Idx → Elt F .f32) (c : Fin 512) (i j : Fin 50) (h : ¬ c.val < 256) :
    slab (F := F) cw rw (ix3 c i j) = rw (ix2 i ⟨c.val - 256, by have := c.isLt; omega⟩) := by
  rw [slab_apply,
    concatenate_pair_apply_right (2 : Fin 3) (overRows (F := F) cw) (overCols (F := F) rw)
      concatenates_S50x50x256_S50x50x256_S50x50x512_d2 (ix3 i j c) rfl rfl
      (ix3 i j ⟨c.val - 256, by have := c.isLt; omega⟩)
      (fun b hb => match b, hb with
        | ⟨0, _⟩, _ => rfl
        | ⟨1, _⟩, _ => rfl
        | ⟨2, _⟩, hb => absurd rfl hb)
      (by show c.val - 256 + 256 = c.val; omega),
    overCols_apply]

/-- Batch entry `b` of the result is the slab. -/
theorem result_apply (cw rw : S50x256.Idx → Elt F .f32) (b : Fin 16) (c : Fin 512) (i j : Fin 50) :
    result (F := F) cw rw (ix4 b c i j) = slab (F := F) cw rw (ix3 c i j) := by
  unfold result
  rw [broadcastInDim_apply _ _ _ (ix4 b c i j) (ix4 (0 : Fin 1) c i j)
      (fun a => match a with | ⟨0, _⟩ => rfl | ⟨1, _⟩ => rfl | ⟨2, _⟩ => rfl | ⟨3, _⟩ => rfl),
    broadcastInDim_apply _ _ _ (ix4 (0 : Fin 1) c i j) (ix3 c i j)
      (fun a => match a with | ⟨0, _⟩ => rfl | ⟨1, _⟩ => rfl | ⟨2, _⟩ => rfl)]

/-- What the program computes is the specification function of its two tables. -/
theorem result_eq_spec (cw rw : S50x256.Idx → Elt F .f32) : result (F := F) cw rw = Cert.Spec.out cw rw := by
  funext y
  obtain ⟨b, c, i, j, rfl⟩ : ∃ (b : Fin 16) (c : Fin 512) (i j : Fin 50), y = ix4 b c i j :=
    ⟨y 0, y 1, y 2, y 3, eq_ix4 (n0 := 16) (n1 := 512) (n2 := 50) (n3 := 50) y⟩
  rw [result_apply, Cert.Spec.out_apply]
  by_cases h : c.val < 256
  · rw [slab_lo cw rw c i j h, Cert.Spec.slab_lo cw rw c i j h]
  · rw [slab_hi cw rw c i j h, Cert.Spec.slab_hi cw rw c i j h]

end Cert.RefRun

end
-- ==== Proof.RefRun.lean ====
/-
  The reference program's run: every execution terminates with the result buffer holding the specification function of
  the column table and the row table as they were at the start, and the three arguments unchanged. The run ends at the
  composition of the program's 56 operations (the program is a straight line once its two lookups are written out), and
  that composition, read index by index, is the specification function.
-/
import proofs.«213528_g18287970746974_cont_8to1_881_28_alg».proof.ReferenceIdeal
import proofs.«213528_g18287970746974_cont_8to1_881_28_alg».proof.Proof.Gen.ReferenceIdeal
import proofs.«213528_g18287970746974_cont_8to1_881_28_alg».proof.Proof.Spec
import proofs.«213528_g18287970746974_cont_8to1_881_28_alg».proof.Proof.RefRunOps
import proofs.«213528_g18287970746974_cont_8to1_881_28_alg».proof.Proof.RefRunValue

open Idealize.ShloMosaic Idealize.ShloMosaic.TcCoe Idealize.SL.Sem

theorem Cert.RefRun.run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v11)
          = Cert.Spec.out (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun _ h c => ⟨((h c).1).trans (Cert.RefRun.result_eq_spec _ _), (h c).2⟩)
    (Cert.RefRun.run_result (F := Ideal) m g)
-- ==== Proof.lean ====
/-
  The claim: the kernel (a TensorCore region that builds a slab of 512 channels over a 50 × 50 grid from two weight
  tables, then a SparseCore call whose 32 tiles each copy 16 channels of the slab into every one of the 16 batch
  entries of the result) against the reference (two row lookups at the identity indices, two broadcasts, a
  concatenation along the feature axis, a transposition and a broadcast over the batch).

  Both compute one function of the two tables, `Cert.Spec.out`: entry (b, k, i, j) is the column table's (j, k) for
  k < 256 and the row table's (i, k − 256) otherwise. Nothing is computed on the entries, so the equality holds for every
  input and at both readings of the floats; the precondition is never opened.

  The kernel's run — every weakly fair execution of the TensorCore, the two sequencers and the 32 tiles terminates,
  with the result at the specification and the arguments unchanged — is proved once for any float instance and read
  at the word-level instance for the printed kernel's frame and at the ideal instance for the idealized kernel's
  frame and for the equality; the reference's run is read at the ideal instance. The idealization rewrote nothing.
-/
import proofs.«213528_g18287970746974_cont_8to1_881_28_alg».proof.Defs
import proofs.«213528_g18287970746974_cont_8to1_881_28_alg».proof.Proof.Gen.Kernel
import proofs.«213528_g18287970746974_cont_8to1_881_28_alg».proof.Proof.Gen.KernelIdeal
import proofs.«213528_g18287970746974_cont_8to1_881_28_alg».proof.Proof.Gen.ReferenceIdeal
import proofs.«213528_g18287970746974_cont_8to1_881_28_alg».proof.Proof.Gen.Pre_finite_inputs
import proofs.«213528_g18287970746974_cont_8to1_881_28_alg».proof.Proof.KernelX.Run
import proofs.«213528_g18287970746974_cont_8to1_881_28_alg».proof.Proof.KernelIdealX.Run
import proofs.«213528_g18287970746974_cont_8to1_881_28_alg».proof.Proof.RefRun
import Idealize.ShloMosaic.Adequacy
import Idealize.ShloMosaic.Init

noncomputable section

namespace Cert.Proof

open Idealize.ShloMosaic Idealize.SL.Sem

/-- The printed kernel runs and keeps its arguments: its run at the word-level instance, the result's value dropped. -/
theorem frame_k : Cert.frame_Kernel (hKernel := Cert.Kernel.Gen.facts) (hPre_finite_inputs := Cert.Pre_finite_inputs.Gen.facts) := fun m ρ _ =>
  (θ_run Cert.Kernel.defs _ _).mono (fun _ h c => ⟨(h c).2.1, (h c).2.2.1, (h c).2.2.2⟩) (Cert.KernelX.run (F := Bits) m ρ)

/-- The idealized kernel runs and keeps its arguments: its run at the ideal instance, the result's value dropped. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => ⟨(h c).2.1, (h c).2.2.1, (h c).2.2.2⟩) (Cert.KernelIdealX.run (F := Ideal) m ρ)

/-- The reference runs and keeps its arguments: its run, the result's value dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.RefRun.run m ρ)

/-- From memories that agree on the arguments both programs end with the result at the specification of the same two
    tables. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdealX.outV (F := Ideal) m c, Cert.KernelIdealX.run (F := Ideal) m ρ, ?_⟩
  refine (θ_run Cert.ReferenceIdeal.defs _ _).mono (fun _ h c => ⟨(h c).1.trans ?_, (h c).2⟩) (Cert.RefRun.run m' ρ')
  rw [(hagree c).2.2, (hagree c).2.1]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
